-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192x2 : Shape := ⟨3, ![512, 8192, 2]⟩
abbrev S512x1x200x200 : Shape := ⟨4, ![512, 1, 200, 200]⟩
abbrev S_ : Shape := ⟨0, ![]⟩

class Facts : Prop where
  bcast_S_S512x8192x2 : S_.BroadcastsInDim S512x8192x2 (![] : Fin 0 → Fin S512x8192x2.rank)
  reducesTo_S512x8192x2_S_d0_1_2 : S512x8192x2.ReducesTo [0, 1, 2] S_
  h_S_ : 0 < S_.numel
  bcast_S_S512x1x200x200 : S_.BroadcastsInDim S512x1x200x200 (![] : Fin 0 → Fin S512x1x200x200.rank)
  reducesTo_S512x1x200x200_S_d0_1_2_3 : S512x1x200x200.ReducesTo [0, 1, 2, 3] S_

variable [Facts]

def fn {F : FTy → Type} [FloatOps F] (main_arg0 : FVec F S512x8192x2 .f32) (main_arg1 : FVec F S512x1x200x200 .f32) : IVec S_ 1 :=
  let main_v0 : FVec F S512x8192x2 .f32 := Host.absf main_arg0
  let main_cst : FVec F S_ .f32 := constant S_ .f32 0x7F800000#32
  let main_v1 : FVec F S512x8192x2 .f32 := broadcastInDim S512x8192x2 ![] bcast_S_S512x8192x2 main_cst
  let main_v2 : IVec S512x8192x2 1 := cmpf .olt main_v0 main_v1
  let main_c : IVec S_ 1 := constantI S_ 1 1#1
  let main_v3 : IVec S_ 1 := (fun x v => Host.reduce IntOp.andi x v reducesTo_S512x8192x2_S_d0_1_2 h_S_) main_v2 main_c
  let main_v4 : FVec F S512x1x200x200 .f32 := Host.absf main_arg1
  let main_cst_0 : FVec F S_ .f32 := constant S_ .f32 0x7F800000#32
  let main_v5 : FVec F S512x1x200x200 .f32 := broadcastInDim S512x1x200x200 ![] bcast_S_S512x1x200x200 main_cst_0
  let main_v6 : IVec S512x1x200x200 1 := cmpf .olt main_v4 main_v5
  let main_c_1 : IVec S_ 1 := constantI S_ 1 1#1
  let main_v7 : IVec S_ 1 := (fun x v => Host.reduce IntOp.andi x v reducesTo_S512x1x200x200_S_d0_1_2_3 h_S_) main_v6 main_c_1
  let main_v8 : IVec S_ 1 := andi main_v3 main_v7
  main_v8
-- ==== Kernel.lean ====
abbrev S512x8192x2 : Shape := ⟨3, ![512, 8192, 2]⟩
abbrev S512x1x200x200 : Shape := ⟨4, ![512, 1, 200, 200]⟩
abbrev S512x8192x1 : Shape := ⟨3, ![512, 8192, 1]⟩
abbrev S512x8192 : Shape := ⟨2, ![512, 8192]⟩
abbrev S512x200x200 : Shape := ⟨3, ![512, 200, 200]⟩
abbrev S512x1 : Shape := ⟨2, ![512, 1]⟩
abbrev S8x200x200 : Shape := ⟨3, ![8, 200, 200]⟩
abbrev S8x512 : Shape := ⟨2, ![8, 512]⟩
abbrev S8x1 : Shape := ⟨2, ![8, 1]⟩
abbrev S8x512x200 : Shape := ⟨3, ![8, 512, 200]⟩
abbrev S8x512x1 : Shape := ⟨3, ![8, 512, 1]⟩
abbrev S8 : Shape := ⟨1, ![8]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S512x8192x2, .f32⟩
  | .hbm, ⟨1, _⟩ => ⟨S512x1x200x200, .f32⟩
  | .hbm, ⟨2, _⟩ => ⟨S512x8192x1, .f32⟩
  | .hbm, ⟨3, _⟩ => ⟨S512x8192, .f32⟩
  | .hbm, ⟨4, _⟩ => ⟨S512x8192x1, .f32⟩
  | .hbm, ⟨5, _⟩ => ⟨S512x8192, .f32⟩
  | .hbm, ⟨6, _⟩ => ⟨S512x200x200, .f32⟩
  | .hbm, ⟨7, _⟩ => ⟨S512x200x200, .bf16⟩
  | .hbm, ⟨8, _⟩ => ⟨S512x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x200x200, .bf16⟩
  | .local _ .vmem, ⟨1, _⟩ => ⟨S8x200x200, .bf16⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x1, .f32⟩
  | .local _ .vmem, ⟨7, _⟩ => ⟨S8x1, .f32⟩
  | .local _ .vmem, ⟨8, _⟩ => ⟨S8x1, .f32⟩
  | _, _ => ⟨S512x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v139 : BitVec 1 := Scalar.cmpi .eq arg1 c15_i32
  let v140 : BitVec 32 := Scalar.extui v139
  let c0_i32_50 : BitVec 32 := 0#32
  let v141 : BitVec 1 := Scalar.cmpi .ne v140 c0_i32_50
  v141

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x200x200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S512x8192x2_S512x8192x1_0_0_0 : S512x8192x2.Slices ![0, 0, 0] S512x8192x1
  shapeCasts_S512x8192x1_S512x8192 : S512x8192x1.ShapeCasts S512x8192
  slices_S512x8192x2_S512x8192x1_0_0_1 : S512x8192x2.Slices ![0, 0, 1] S512x8192x1
  shapeCasts_S512x1x200x200_S512x200x200 : S512x1x200x200.ShapeCasts S512x200x200
  bitsLt_bf16_f32 : FTy.bits .bf16 < FTy.bits .f32
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x512_S8x512_0_0 : ∀ a, (![0, 0] : Fin 2 → Nat) a + S8x512.size a ≤ S8x512.size a
  h_S8x512 : 0 < S8x512.numel
  shapeCasts_S8x512_S8x512 : S8x512.ShapeCasts S8x512
  iota_S8x512x200_d2_w32 : S8x512x200.Iotas .tc 32 [2]
  shapeCasts_S8x512_S8x512x1 : S8x512.ShapeCasts S8x512x1
  broadcasts_S8x512x1_S8x512x200 : S8x512x1.Broadcasts S8x512x200
  natLt_1_32 : 1 < 32
  inb_S8x200x200_S8x200x200_0_0_0 : ∀ a, (![0, 0, 0] : Fin 3 → Nat) a + S8x200x200.size a ≤ S8x200x200.size a
  h_S8x200x200 : 0 < S8x200x200.numel
  shapeCasts_S8x200x200_S8x200x200 : S8x200x200.ShapeCasts S8x200x200
  shapeCasts_S8x512x1_S8x512x1 : S8x512x1.ShapeCasts S8x512x1
  reduces_S8x512x200_S8x512 : S8x512x200.Reduces [2] S8x512
  reduces_S8x512_S8 : S8x512.Reduces [1] S8
  shapeCasts_S8_S8x1 : S8.ShapeCasts S8x1
  reducesTo_S512x1_S_d0_1 : S512x1.ReducesTo [0, 1] S_
  h_S_ : 0 < S_.numel
  dot_S8x512x200_S8x200x200_S8x512x200_2_1_1_2_0_0_wf : DotDims.WF S8x512x200 S8x200x200 S8x512x200 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x200x200.size a ≤ S512x200x200.size a
  hwx0_0 : ∀ i : grid0.Coords, EltTy.bits .bf16 = 32 ∨ (Rect.block (s := S512x200x200) S8x200x200.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S512x8192.size a
  hwx0_1 : ∀ i : grid0.Coords, EltTy.bits .f32 = 32 ∨ (Rect.block (s := S512x8192) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S512x8192.size a
  hwx0_2 : ∀ i : grid0.Coords, EltTy.bits .f32 = 32 ∨ (Rect.block (s := S512x8192) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S512x1.size a
  hwx0_3 : ∀ i : grid0.Coords, EltTy.bits .f32 = 32 ∨ (Rect.block (s := S512x1) S8x1.size (cc0_transform_3 i) (hinb0_3 i)).WholeWords (EltTy.packing .f32)

variable [Facts₀]

def dot_S8x512x200_S8x200x200_S8x512x200_2_1_1_2_0_0 : DotDims S8x512x200 S8x200x200 S8x512x200 where
  lhsContracting := [2]
  rhsContracting := [1]
  lhsNonContracting := [1]
  rhsNonContracting := [2]
  lhsBatch := [0]
  rhsBatch := [0]
  wf := dot_S8x512x200_S8x200x200_S8x512x200_2_1_1_2_0_0_wf

abbrev win0_0 : Pipeline.Window sig grid0 :=
  Pipeline.Window.ofSpec (Memref.whole main_v5) S8x200x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x8192x2 : Shape := ⟨3, ![512, 8192, 2]⟩
abbrev S512x1x200x200 : Shape := ⟨4, ![512, 1, 200, 200]⟩
abbrev S_ : Shape := ⟨0, ![]⟩
abbrev S512x8192 : Shape := ⟨2, ![512, 8192]⟩
abbrev S512x200x200 : Shape := ⟨3, ![512, 200, 200]⟩
abbrev S512 : Shape := ⟨1, ![512]⟩
abbrev S512x1 : Shape := ⟨2, ![512, 1]⟩
abbrev S512x8192x1 : Shape := ⟨3, ![512, 8192, 1]⟩
abbrev S512x8192x3 : Shape := ⟨3, ![512, 8192, 3]⟩

abbrev nBuf : Space → Nat
  | .hbm => 211
  | .vmem => 0
  | .smem => 0
  | _ => 0

abbrev hbmTy0_0 (i : Nat) : BufTy := match i % 128 with
  | 0 => ⟨S512x8192x2, .f32⟩
  | 1 => ⟨S512x1x200x200, .f32⟩
  | 2 => ⟨S_, .f32⟩
  | 3 => ⟨S512x8192x2, .f32⟩
  | 4 => ⟨S512x8192x2, .i1⟩
  | 5 => ⟨S_, .f32⟩
  | 6 => ⟨S512x8192x2, .f32⟩
  | 7 => ⟨S512x8192x2, .i1⟩
  | 8 => ⟨S512x8192x2, .i1⟩
  | 9 => ⟨S_, .i1⟩
  | 10 => ⟨S512x8192, .i1⟩
  | 11 => ⟨S_, .f32⟩
  | 12 => ⟨S_, .f32⟩
  | 13 => ⟨S_, .f32⟩
  | 14 => ⟨S512x8192x2, .f32⟩
  | 15 => ⟨S512x8192x2, .f32⟩
  | 16 => ⟨S_, .f32⟩
  | 17 => ⟨S512x8192x2, .f32⟩
  | 18 => ⟨S512x8192x2, .f32⟩
  | 19 => ⟨S_, .f32⟩
  | 20 => ⟨S512x8192x2, .f32⟩
  | 21 => ⟨S512x8192x2, .f32⟩
  | 22 => ⟨S_, .f32⟩
  | 23 => ⟨S512x8192x2, .f32⟩
  | 24 => ⟨S512x8192x2, .f32⟩
  | 25 => ⟨S_, .f32⟩
  | 26 => ⟨S512x8192x2, .f32⟩
  | 27 => ⟨S512x8192x2, .f32⟩
  | 28 => ⟨S512x8192x2, .f32⟩
  | 29 => ⟨S512x8192x2, .i32⟩
  | 30 => ⟨S512x8192x2, .f32⟩
  | 31 => ⟨S_, .f32⟩
  | 32 => ⟨S512x8192x2, .f32⟩
  | 33 => ⟨S512x8192x2, .f32⟩
  | 34 => ⟨S_, .f32⟩
  | 35 => ⟨S512x8192x2, .f32⟩
  | 36 => ⟨S512x8192x2, .f32⟩
  | 37 => ⟨S_, .f32⟩
  | 38 => ⟨S512x8192x2, .f32⟩
  | 39 => ⟨S512x8192x2, .f32⟩
  | 40 => ⟨S512x8192x2, .f32⟩
  | 41 => ⟨S_, .f32⟩
  | 42 => ⟨S512x8192x2, .f32⟩
  | 43 => ⟨S512x8192x2, .f32⟩
  | 44 => ⟨S512x200x200, .f32⟩
  | 45 => ⟨S512, .i32⟩
  | 46 => ⟨S512x1, .i32⟩
  | 47 => ⟨S512x8192x1, .i32⟩
  | 48 => ⟨S512x8192, .i32⟩
  | 49 => ⟨S512x8192x1, .i32⟩
  | 50 => ⟨S512x8192, .i32⟩
  | 51 => ⟨S_, .i32⟩
  | 52 => ⟨S512x1, .i32⟩
  | 53 => ⟨S512x1, .i1⟩
  | 54 => ⟨S_, .i32⟩
  | 55 => ⟨S512x1, .i32⟩
  | 56 => ⟨S512x1, .i32⟩
  | 57 => ⟨S512x1, .i32⟩
  | 58 => ⟨S_, .i32⟩
  | 59 => ⟨S512x8192, .i32⟩
  | 60 => ⟨S512x8192, .i1⟩
  | 61 => ⟨S_, .i32⟩
  | 62 => ⟨S512x8192, .i32⟩
  | 63 => ⟨S512x8192, .i32⟩
  | 64 => ⟨S512x8192, .i32⟩
  | 65 => ⟨S_, .i32⟩
  | 66 => ⟨S512x8192, .i32⟩
  | 67 => ⟨S512x8192, .i1⟩
  | 68 => ⟨S_, .i32⟩
  | 69 => ⟨S512x8192, .i32⟩
  | 70 => ⟨S512x8192, .i32⟩
  | 71 => ⟨S512x8192, .i32⟩
  | 72 => ⟨S512x8192, .i32⟩
  | 73 => ⟨S512x8192x1, .i32⟩
  | 74 => ⟨S512x8192x1, .i32⟩
  | 75 => ⟨S512x8192x1, .i32⟩
  | 76 => ⟨S512x8192x3, .i32⟩
  | 77 => ⟨S512x8192, .f32⟩
  | 78 => ⟨S_, .i32⟩
  | 79 => ⟨S512x8192, .i32⟩
  | 80 => ⟨S512x8192, .i32⟩
  | 81 => ⟨S_, .i32⟩
  | 82 => ⟨S512x1, .i32⟩
  | 83 => ⟨S512x1, .i1⟩
  | 84 => ⟨S_, .i32⟩
  | 85 => ⟨S512x1, .i32⟩
  | 86 => ⟨S512x1, .i32⟩
  | 87 => ⟨S512x1, .i32⟩
  | 88 => ⟨S_, .i32⟩
  | 89 => ⟨S512x8192, .i32⟩
  | 90 => ⟨S512x8192, .i1⟩
  | 91 => ⟨S_, .i32⟩
  | 92 => ⟨S512x8192, .i32⟩
  | 93 => ⟨S512x8192, .i32⟩
  | 94 => ⟨S512x8192, .i32⟩
  | 95 => ⟨S_, .i32⟩
  | 96 => ⟨S512x8192, .i32⟩
  | 97 => ⟨S512x8192, .i1⟩
  | 98 => ⟨S_, .i32⟩
  | 99 => ⟨S512x8192, .i32⟩
  | 100 => ⟨S512x8192, .i32⟩
  | 101 => ⟨S512x8192, .i32⟩
  | 102 => ⟨S512x8192, .i32⟩
  | 103 => ⟨S512x8192x1, .i32⟩
  | 104 => ⟨S512x8192x1, .i32⟩
  | 105 => ⟨S512x8192x1, .i32⟩
  | 106 => ⟨S512x8192x3, .i32⟩
  | 107 => ⟨S512x8192, .f32⟩
  | 108 => ⟨S_, .i32⟩
  | 109 => ⟨S512x8192, .i32⟩
  | 110 => ⟨S512x8192, .i32⟩
  | 111 => ⟨S_, .i32⟩
  | 112 => ⟨S512x1, .i32⟩
  | 113 => ⟨S512x1, .i1⟩
  | 114 => ⟨S_, .i32⟩
  | 115 => ⟨S512x1, .i32⟩
  | 116 => ⟨S512x1, .i32⟩
  | 117 => ⟨S512x1, .i32⟩
  | 118 => ⟨S_, .i32⟩
  | 119 => ⟨S512x8192, .i32⟩
  | 120 => ⟨S512x8192, .i1⟩
  | 121 => ⟨S_, .i32⟩
  | 122 => ⟨S512x8192, .i32⟩
  | 123 => ⟨S512x8192, .i32⟩
  | 124 => ⟨S512x8192, .i32⟩
  | 125 => ⟨S_, .i32⟩
  | 126 => ⟨S512x8192, .i32⟩
  | 127 => ⟨S512x8192, .i1⟩
  | _ => ⟨S512x8192x2, .f32⟩

abbrev hbmTy0_1 (i : Nat) : BufTy := match i % 128 with
  | 0 => ⟨S_, .i32⟩
  | 1 => ⟨S512x8192, .i32⟩
  | 2 => ⟨S512x8192, .i32⟩
  | 3 => ⟨S512x8192, .i32⟩
  | 4 => ⟨S512x8192, .i32⟩
  | 5 => ⟨S512x8192x1, .i32⟩
  | 6 => ⟨S512x8192x1, .i32⟩
  | 7 => ⟨S512x8192x1, .i32⟩
  | 8 => ⟨S512x8192x3, .i32⟩
  | 9 => ⟨S512x8192, .f32⟩
  | 10 => ⟨S_, .i32⟩
  | 11 => ⟨S512x8192, .i32⟩
  | 12 => ⟨S512x8192, .i32⟩
  | 13 => ⟨S_, .i32⟩
  | 14 => ⟨S512x8192, .i32⟩
  | 15 => ⟨S512x8192, .i32⟩
  | 16 => ⟨S_, .i32⟩
  | 17 => ⟨S512x1, .i32⟩
  | 18 => ⟨S512x1, .i1⟩
  | 19 => ⟨S_, .i32⟩
  | 20 => ⟨S512x1, .i32⟩
  | 21 => ⟨S512x1, .i32⟩
  | 22 => ⟨S512x1, .i32⟩
  | 23 => ⟨S_, .i32⟩
  | 24 => ⟨S512x8192, .i32⟩
  | 25 => ⟨S512x8192, .i1⟩
  | 26 => ⟨S_, .i32⟩
  | 27 => ⟨S512x8192, .i32⟩
  | 28 => ⟨S512x8192, .i32⟩
  | 29 => ⟨S512x8192, .i32⟩
  | 30 => ⟨S_, .i32⟩
  | 31 => ⟨S512x8192, .i32⟩
  | 32 => ⟨S512x8192, .i1⟩
  | 33 => ⟨S_, .i32⟩
  | 34 => ⟨S512x8192, .i32⟩
  | 35 => ⟨S512x8192, .i32⟩
  | 36 => ⟨S512x8192, .i32⟩
  | 37 => ⟨S512x8192, .i32⟩
  | 38 => ⟨S512x8192x1, .i32⟩
  | 39 => ⟨S512x8192x1, .i32⟩
  | 40 => ⟨S512x8192x1, .i32⟩
  | 41 => ⟨S512x8192x3, .i32⟩
  | 42 => ⟨S512x8192, .f32⟩
  | 43 => ⟨S512x8192x1, .f32⟩
  | 44 => ⟨S512x8192, .f32⟩
  | 45 => ⟨S512x8192x1, .f32⟩
  | 46 => ⟨S512x8192, .f32⟩
  | 47 => ⟨S_, .f32⟩
  | 48 => ⟨S512x8192, .f32⟩
  | 49 => ⟨S512x8192, .f32⟩
  | 50 => ⟨S512x8192, .f32⟩
  | 51 => ⟨S512x8192, .f32⟩
  | 52 => ⟨S512x8192, .f32⟩
  | 53 => ⟨S_, .f32⟩
  | 54 => ⟨S512x8192, .f32⟩
  | 55 => ⟨S512x8192, .f32⟩
  | 56 => ⟨S512x8192, .f32⟩
  | 57 => ⟨S512x8192, .f32⟩
  | 58 => ⟨S512x8192, .f32⟩
  | 59 => ⟨S_, .f32⟩
  | 60 => ⟨S512x8192, .f32⟩
  | 61 => ⟨S512x8192, .f32⟩
  | 62 => ⟨S512x8192, .f32⟩
  | 63 => ⟨S512x8192, .f32⟩
  | 64 => ⟨S512x8192, .f32⟩
  | 65 => ⟨S_, .f32⟩
  | 66 => ⟨S_, .f32⟩
  | 67 => ⟨S512x8192, .f32⟩
  | 68 => ⟨S512x8192, .f32⟩
  | 69 => ⟨S_, .f32⟩
  | 70 => ⟨S512x8192, .f32⟩
  | 71 => ⟨S512x8192, .f32⟩
  | 72 => ⟨S_, .f32⟩
  | 73 => ⟨S512x8192, .f32⟩
  | 74 => ⟨S512x8192, .f32⟩
  | 75 => ⟨S_, .f32⟩
  | 76 => ⟨S512x8192, .f32⟩
  | 77 => ⟨S512x8192, .f32⟩
  | 78 => ⟨S512x8192, .f32⟩
  | 79 => ⟨S_, .f32⟩
  | 80 => ⟨S_, .f32⟩
  | 81 => ⟨S_, .f32⟩
  | 82 => ⟨S_, .f32⟩
  | _ => ⟨S512x8192x2, .f32⟩

abbrev hbmTy (i : Nat) : BufTy := match i / 128 with
  | 0 => hbmTy0_0 i
  | 1 => hbmTy0_1 i
  | _ => ⟨S512x8192x2, .f32⟩

abbrev bufTy : (tb : Table) → Fin (tcTables nBuf tb) → BufTy
  | .hbm, ⟨i, _⟩ => hbmTy i
  | _, _ => ⟨S512x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_cst_8 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_c_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_12 : Ref sig .tc := ⟨.hbm, 58, rfl⟩
abbrev main_v37 : Ref sig .tc := ⟨.hbm, 59, rfl⟩
abbrev main_v38 : Ref sig .tc := ⟨.hbm, 60, rfl⟩
abbrev main_c_13 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_14 : Ref sig .tc := ⟨.hbm, 65, rfl⟩
abbrev main_v42 : Ref sig .tc := ⟨.hbm, 66, rfl⟩
abbrev main_v43 : Ref sig .tc := ⟨.hbm, 67, rfl⟩
abbrev main_c_15 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_16 : Ref sig .tc := ⟨.hbm, 78, rfl⟩
abbrev main_v53 : Ref sig .tc := ⟨.hbm, 79, rfl⟩
abbrev main_v54 : Ref sig .tc := ⟨.hbm, 80, rfl⟩
abbrev main_c_17 : Ref sig .tc := ⟨.hbm, 81, rfl⟩
abbrev main_v55 : Ref sig .tc := ⟨.hbm, 82, rfl⟩
abbrev main_v56 : Ref sig .tc := ⟨.hbm, 83, rfl⟩
abbrev main_c_18 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_19 : Ref sig .tc := ⟨.hbm, 88, rfl⟩
abbrev main_v60 : Ref sig .tc := ⟨.hbm, 89, rfl⟩
abbrev main_v61 : Ref sig .tc := ⟨.hbm, 90, rfl⟩
abbrev main_c_20 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_21 : Ref sig .tc := ⟨.hbm, 95, rfl⟩
abbrev main_v65 : Ref sig .tc := ⟨.hbm, 96, rfl⟩
abbrev main_v66 : Ref sig .tc := ⟨.hbm, 97, rfl⟩
abbrev main_c_22 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_23 : Ref sig .tc := ⟨.hbm, 108, rfl⟩
abbrev main_v76 : Ref sig .tc := ⟨.hbm, 109, rfl⟩
abbrev main_v77 : Ref sig .tc := ⟨.hbm, 110, rfl⟩
abbrev main_c_24 : Ref sig .tc := ⟨.hbm, 111, rfl⟩
abbrev main_v78 : Ref sig .tc := ⟨.hbm, 112, rfl⟩
abbrev main_v79 : Ref sig .tc := ⟨.hbm, 113, rfl⟩
abbrev main_c_25 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_26 : Ref sig .tc := ⟨.hbm, 118, rfl⟩
abbrev main_v83 : Ref sig .tc := ⟨.hbm, 119, rfl⟩
abbrev main_v84 : Ref sig .tc := ⟨.hbm, 120, rfl⟩
abbrev main_c_27 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_28 : Ref sig .tc := ⟨.hbm, 125, rfl⟩
abbrev main_v88 : Ref sig .tc := ⟨.hbm, 126, rfl⟩
abbrev main_v89 : Ref sig .tc := ⟨.hbm, 127, rfl⟩
abbrev main_c_29 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_30 : Ref sig .tc := ⟨.hbm, 138, rfl⟩
abbrev main_v99 : Ref sig .tc := ⟨.hbm, 139, rfl⟩
abbrev main_v100 : Ref sig .tc := ⟨.hbm, 140, rfl⟩
abbrev main_c_31 : Ref sig .tc := ⟨.hbm, 141, rfl⟩
abbrev main_v101 : Ref sig .tc := ⟨.hbm, 142, rfl⟩
abbrev main_v102 : Ref sig .tc := ⟨.hbm, 143, rfl⟩
abbrev main_c_32 : Ref sig .tc := ⟨.hbm, 144, rfl⟩
abbrev main_v103 : Ref sig .tc := ⟨.hbm, 145, rfl⟩
abbrev main_v104 : Ref sig .tc := ⟨.hbm, 146, rfl⟩
abbrev main_c_33 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_c_34 : Ref sig .tc := ⟨.hbm, 151, rfl⟩
abbrev main_v108 : Ref sig .tc := ⟨.hbm, 152, rfl⟩
abbrev main_v109 : Ref sig .tc := ⟨.hbm, 153, rfl⟩
abbrev main_c_35 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_36 : Ref sig .tc := ⟨.hbm, 158, rfl⟩
abbrev main_v113 : Ref sig .tc := ⟨.hbm, 159, rfl⟩
abbrev main_v114 : Ref sig .tc := ⟨.hbm, 160, rfl⟩
abbrev main_c_37 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_38 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_39 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_40 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_41 : Ref sig .tc := ⟨.hbm, 193, rfl⟩
abbrev main_call1_v0 : Ref sig .tc := ⟨.hbm, 194, rfl⟩
abbrev main_call1_v1 : Ref sig .tc := ⟨.hbm, 195, rfl⟩
abbrev main_v143 : Ref sig .tc := ⟨.hbm, 196, rfl⟩
abbrev main_cst_42 : Ref sig .tc := ⟨.hbm, 197, rfl⟩
abbrev main_v144 : Ref sig .tc := ⟨.hbm, 198, rfl⟩
abbrev main_v145 : Ref sig .tc := ⟨.hbm, 199, rfl⟩
abbrev main_cst_43 : Ref sig .tc := ⟨.hbm, 200, rfl⟩
abbrev main_v146 : Ref sig .tc := ⟨.hbm, 201, rfl⟩
abbrev main_v147 : Ref sig .tc := ⟨.hbm, 202, rfl⟩
abbrev main_call2_cst : Ref sig .tc := ⟨.hbm, 203, rfl⟩
abbrev main_call2_v0 : Ref sig .tc := ⟨.hbm, 204, rfl⟩
abbrev main_v148 : Ref sig .tc := ⟨.hbm, 205, rfl⟩
abbrev main_v149 : Ref sig .tc := ⟨.hbm, 206, rfl⟩
abbrev main_cst_44 : Ref sig .tc := ⟨.hbm, 207, rfl⟩
abbrev main_v150 : Ref sig .tc := ⟨.hbm, 208, rfl⟩
abbrev main_cst_45 : Ref sig .tc := ⟨.hbm, 209, rfl⟩
abbrev main_v151 : Ref sig .tc := ⟨.hbm, 210, rfl⟩

abbrev nD : Nat := 1
abbrev τ : Topo := Topo.v7x

variable {F : FTy → Type} [FloatOps F]

class Facts₀ : Prop where
  bcast_S_S512x8192x2 : S_.BroadcastsInDim S512x8192x2 (![] : Fin 0 → Fin S512x8192x2.rank)
  reducesTo_S512x8192x2_S512x8192_d2 : S512x8192x2.ReducesTo [2] S512x8192
  h_S_ : 0 < S_.numel
  shapeCasts_S512x1x200x200_S512x200x200 : S512x1x200x200.ShapeCasts S512x200x200
  bcast_S512_S512x1_0 : S512.BroadcastsInDim S512x1 (![0] : Fin 1 → Fin S512x1.rank)
  slices_S512x8192x2_S512x8192x1_0_0_0 : S512x8192x2.Slices ![0, 0, 0] S512x8192x1
  shapeCasts_S512x8192x1_S512x8192 : S512x8192x1.ShapeCasts S512x8192
  slices_S512x8192x2_S512x8192x1_0_0_1 : S512x8192x2.Slices ![0, 0, 1] S512x8192x1
  bcast_S_S512x1 : S_.BroadcastsInDim S512x1 (![] : Fin 0 → Fin S512x1.rank)
  bcast_S_S512x8192 : S_.BroadcastsInDim S512x8192 (![] : Fin 0 → Fin S512x8192.rank)
  bcast_S512x1_S512x8192_0_1 : S512x1.BroadcastsInDim S512x8192 (![0, 1] : Fin 2 → Fin S512x8192.rank)
  bcast_S512x8192_S512x8192x1_0_1 : S512x8192.BroadcastsInDim S512x8192x1 (![0, 1] : Fin 2 → Fin S512x8192x1.rank)
  concatenates_S512x8192x1_S512x8192x1_S512x8192x1_S512x8192x3_d2 : Shape.Concatenates [S512x8192x1, S512x8192x1, S512x8192x1] S512x8192x3 2
  reducesTo_S512x8192_S_d0_1 : S512x8192.ReducesTo [0, 1] S_
  gather_S512x200x200_S512x8192x3_S512x8192_n_012_n_n_012_2_111_wf : GatherDims.WF S512x200x200 S512x8192x3 S512x8192 [] [0, 1, 2] [] [0, 1, 2] [] 2 ![1, 1, 1]

variable [Facts₀]

def gather_S512x200x200_S512x8192x3_S512x8192_n_012_n_n_012_2_111 : GatherDims S512x200x200 S512x8192x3 S512x8192 where
  offsetDims := []
  collapsedSliceDims := [0, 1, 2]
  operandBatchingDims := []
  startIndicesBatchingDims := []
  startIndexMap := [0, 1, 2]
  indexVectorDim := 2
  sliceSizes := ![1, 1, 1]
  wf := gather_S512x200x200_S512x8192x3_S512x8192_n_012_n_n_012_2_111_wf

class Facts : Prop extends Facts₀ where

variable [Facts]
-- ==== Proof.Spec.lean ====
/-
  The number both programs compute, as ONE function of the two argument arrays, on the extended reals.

  A point (x, y) of batch b is looked up in that batch's 200 × 200 grid E of distances: each coordinate u is
  clipped to pos u ∈ [lo, hi], its cell is ⌊(pos u − res/2 + 10) / res⌋ and its offset inside the cell is
  frac u = (pos u − ((cell + 1/2)·res − 10)) / res.  The distance at the point is the bilinear blend of the four
  grid values at (cell x, cell y), (cell x + 1, cell y), (cell x, cell y + 1), (cell x + 1, cell y + 1); a point
  with a coordinate outside [lo, hi] gets distance −1 instead.  The penalty of a point is max(10·(0.3 − d), 0)²,
  and the result is the sum of all penalties divided by the number of points, 2²².

  Because pos u lies between lo and hi for EVERY extended real u, the cell is always one of 0 … 198 (`cell_le`):
  so cell and cell + 1 are both rows of the grid, and they differ.
-/
import Idealize.ShloMosaic.PureOps.Ideal
import Idealize.ShloMosaic.PureOps.Ideal.Laws
import Idealize.ShloMosaic.Lib.ValueIdx

noncomputable section

namespace Cert.Spec

open Idealize.ShloMosaic

/-- The positions array: batch, point, coordinate (x, y). -/
abbrev SOp : Shape := ⟨3, ![512, 8192, 2]⟩
/-- The distance grids: batch, a unit axis, row, column. -/
abbrev SEnv : Shape := ⟨4, ![512, 1, 200, 200]⟩
abbrev S0 : Shape := ⟨0, ![]⟩

/-! ## The constants, as the f32 words both programs print -/

def lo : EReal := Ideal.ofBits .f32 0xC11E6666#32
def hi : EReal := Ideal.ofBits .f32 0x411E6666#32
def halfRes : EReal := Ideal.ofBits .f32 0x3D4CCCCD#32
def ten : EReal := Ideal.ofBits .f32 0x41200000#32
def res : EReal := Ideal.ofBits .f32 0x3DCCCCCD#32
def half : EReal := Ideal.ofBits .f32 0x3F000000#32
def one : EReal := Ideal.ofBits .f32 0x3F800000#32
def negOne : EReal := Ideal.ofBits .f32 0xBF800000#32
def c03 : EReal := Ideal.ofBits .f32 0x3E99999A#32
def zero : EReal := Ideal.ofBits .f32 0x00000000#32
def count : EReal := Ideal.ofBits .f32 0x4A800000#32

/-! ## One coordinate -/

/-- The coordinate clipped into [lo, hi]. -/
def pos (u : EReal) : EReal := min hi (max lo u)

/-- The grid cell of a coordinate, as the 32-bit word both programs convert the floor to. -/
def cell (u : EReal) : BitVec 32 :=
  Ideal.fptosi 32 (Ideal.liftRound Int.floor (Ideal.div (pos u - halfRes + ten) res))

/-- The offset of the clipped coordinate inside its cell, in units of the cell size. -/
def frac (u : EReal) : EReal :=
  Ideal.div (pos u - (((((cell u).toInt : ℝ) : EReal) + half) * res - ten)) res

/-- Whether x or y lies outside [lo, hi]. -/
def outside (x y : EReal) : BitVec 1 :=
  IntOp.ori (IntOp.ori (IntOp.ori (Ideal.cmp .olt x lo) (Ideal.cmp .ogt x hi)) (Ideal.cmp .olt y lo)) (Ideal.cmp .ogt y hi)

/-- A cell word as a row (or column) of the grid. Total; on the words that occur (0 … 199) it is the word's value. -/
def row (w : BitVec 32) : Fin 200 := ⟨w.toNat % 200, Nat.mod_lt _ (by norm_num)⟩

/-! ## One point -/

/-- The bilinear blend of four corner values with offsets dx, dy. -/
def blend (dx dy v00 v10 v01 v11 : EReal) : EReal :=
  (one - dy) * ((one - dx) * v00 + dx * v10) + dy * ((one - dx) * v01 + dx * v11)

/-- The penalty of a point whose interpolated distance is v, or −1 when it is outside. -/
def penalty (o : BitVec 1) (v : EReal) : EReal :=
  max (ten * (c03 - Scalar.select o negOne v)) zero * max (ten * (c03 - Scalar.select o negOne v)) zero

/-- The penalty of the point (x, y) against the grid E. -/
def point (x y : EReal) (E : Fin 200 → Fin 200 → EReal) : EReal :=
  penalty (outside x y) (blend (frac x) (frac y)
    (E (row (cell x)) (row (cell y))) (E (row (cell x + 1#32)) (row (cell y)))
    (E (row (cell x)) (row (cell y + 1#32))) (E (row (cell x + 1#32)) (row (cell y + 1#32))))

/-! ## The arrays -/

/-- The penalty of point n of batch b. -/
def P (op : SOp.Idx → EReal) (env : SEnv.Idx → EReal) (b : Fin 512) (n : Fin 8192) : EReal :=
  point (op (ValueIdx.ix3 b n (0 : Fin 2))) (op (ValueIdx.ix3 b n (1 : Fin 2)))
    (fun i j => env (ValueIdx.ix4 b (0 : Fin 1) i j))

/-- The sum of the penalties of one batch. -/
def rowSum (op : SOp.Idx → EReal) (env : SEnv.Idx → EReal) (b : Fin 512) : EReal := ∑ n : Fin 8192, P op env b n

/-- The result: the mean penalty. -/
def G (op : SOp.Idx → EReal) (env : SEnv.Idx → EReal) : S0.Idx → EReal :=
  fun _ => Ideal.div (zero + ∑ b : Fin 512, rowSum op env b) count

end Cert.Spec

end
-- ==== Proof.RefBridge.lean ====
/-
  The reference's run, read back one operation at a time.

  The run's result is the fold of the program's 209 operations over the launch contents, read at the last buffer. Each
  operation writes ONE buffer, which no earlier operation wrote and no later one writes (the program is in single-
  assignment form), from buffers written before it. So, going along the list, one keeps a table "buffer ↦ value" that
  holds in the contents reached so far: an operation adds the line of its own buffer — its function at the operands'
  tabulated values, which is that operation's stage `val_…` by unfolding that ONE definition — and, its buffer being new,
  leaves every other line true. At the end of the list the last line is the statement.
-/
import proofs.«117773_j80032420594331_2_alg».proof.Proof.RefRunP
import proofs.«117773_j80032420594331_2_alg».proof.Proof.RefReadP

noncomputable section

namespace Cert.ReferenceIdeal.Bridge

open Idealize.ShloMosaic Idealize.ShloMosaic.TcCoe Idealize.SL.Sem Idealize.ShloMosaic.StableHlo

section Table

variable {τ : Topo} {sig : RefSig} {Val : EltTy → Type}

/-- A line of the table: a buffer and contents of its type. -/
abbrev Entry (sig : RefSig) (Val : EltTy → Type) : Type := Σ r : Ref sig .tc, r.ty.Contents Val

/-- The table `L`, whose buffers are `R` in order, holds in the contents `V`. -/
structure Holds (V : Valuation τ sig Val) (R : List (Ref sig .tc)) (L : List (Entry sig Val)) : Prop where
  refs : L.map Sigma.fst = R
  vals : ∀ e ∈ L, V (Proc.devRef .tc e.1) = e.2

/-- A line of a table that holds, read. -/
theorem Holds.get {V : Valuation τ sig Val} {R : List (Ref sig .tc)} {L : List (Entry sig Val)} (h : Holds V R L)
    {r : Ref sig .tc} {v : r.ty.Contents Val} (m : (⟨r, v⟩ : Entry sig Val) ∈ L) : V (Proc.devRef .tc r) = v :=
  h.vals _ m

/-- An operation that writes only the NEW buffer `y`, and leaves `w` there, extends the table by the line `y ↦ w`. -/
theorem Holds.cons {V : Valuation τ sig Val} {R : List (Ref sig .tc)} {L : List (Entry sig Val)} (h : Holds V R L)
    (op : HloOp τ sig Val) (y : Ref sig .tc) (w : y.ty.Contents Val) (hw : op.writes = {Proc.devRef .tc y}) (hy : y ∉ R)
    (hv : op.result V (Proc.devRef .tc y) = w) : Holds (op.result V) (y :: R) (⟨y, w⟩ :: L) where
  refs := by rw [List.map_cons, h.refs]
  vals := by
    intro e he
    rcases List.mem_cons.mp he with rfl | he
    · exact hv
    · have hne : e.1 ≠ y := fun h' => hy (h.refs ▸ List.mem_map.mpr ⟨e, he, h'⟩)
      rw [HloOp.result_of_not_mem _ _ (by rw [hw, Finset.mem_singleton]; exact devRef_ne_of_ne hne)]
      exact h.vals e he

variable {rest : List (HloOp τ sig Val)} {V : Valuation τ sig Val} {R : List (Ref sig .tc)} {L : List (Entry sig Val)}
  {r : DevRef τ sig} {X : r.ty.Contents Val}

/-- The end of the list: the buffer asked for is read off the table. -/
theorem step_nil {y : Ref sig .tc} {w : y.ty.Contents Val} (h : Holds V R L) (m : (⟨y, w⟩ : Entry sig Val) ∈ L) :
    after [] V (Proc.devRef .tc y) = w := h.get m

/-- A constant. -/
theorem step_nullary {y : Ref sig .tc} {v : y.ty.Contents Val} {hy} (w : y.ty.Contents Val) (h : Holds V R L)
    (hw : v = w) (hy' : y ∉ R)
    (k : ∀ V' : Valuation τ sig Val, Holds V' (y :: R) (⟨y, w⟩ :: L) → after rest V' r = X) :
    after (nullary y v hy :: rest) V r = X :=
  k _ (h.cons _ y w (nullary_writes ..) hy' ((nullary_result ..).trans hw))

/-- An operation of one operand. -/
theorem step_unary {x y : Ref sig .tc} {f : x.ty.Contents Val → y.ty.Contents Val} {hx hy} (w : y.ty.Contents Val)
    {vx : x.ty.Contents Val} (h : Holds V R L) (mx : (⟨x, vx⟩ : Entry sig Val) ∈ L) (hw : f vx = w) (hy' : y ∉ R)
    (k : ∀ V' : Valuation τ sig Val, Holds V' (y :: R) (⟨y, w⟩ :: L) → after rest V' r = X) :
    after (unary x y f hx hy :: rest) V r = X :=
  k _ (h.cons _ y w (unary_writes ..) hy' (((unary_result ..).trans (congrArg f (h.get mx))).trans hw))

/-- An operation of two operands. -/
theorem step_binary {a b y : Ref sig .tc} {f : a.ty.Contents Val → b.ty.Contents Val → y.ty.Contents Val} {ha hb hy}
    (w : y.ty.Contents Val) {va : a.ty.Contents Val} {vb : b.ty.Contents Val} (h : Holds V R L)
    (ma : (⟨a, va⟩ : Entry sig Val) ∈ L) (mb : (⟨b, vb⟩ : Entry sig Val) ∈ L) (hw : f va vb = w) (hy' : y ∉ R)
    (k : ∀ V' : Valuation τ sig Val, Holds V' (y :: R) (⟨y, w⟩ :: L) → after rest V' r = X) :
    after (binary a b y f ha hb hy :: rest) V r = X :=
  k _ (h.cons _ y w (binary_writes ..) hy'
    (((binary_result ..).trans (congrArg₂ f (h.get ma) (h.get mb))).trans hw))

/-- An operation of three operands. -/
theorem step_ternary {c a b y : Ref sig .tc}
    {f : c.ty.Contents Val → a.ty.Contents Val → b.ty.Contents Val → y.ty.Contents Val} {hc ha hb hy}
    (w : y.ty.Contents Val) {vc : c.ty.Contents Val} {va : a.ty.Contents Val} {vb : b.ty.Contents Val} (h : Holds V R L)
    (mc : (⟨c, vc⟩ : Entry sig Val) ∈ L) (ma : (⟨a, va⟩ : Entry sig Val) ∈ L) (mb : (⟨b, vb⟩ : Entry sig Val) ∈ L)
    (hw : f vc va vb = w) (hy' : y ∉ R)
    (k : ∀ V' : Valuation τ sig Val, Holds V' (y :: R) (⟨y, w⟩ :: L) → after rest V' r = X) :
    after (ternary c a b y f hc ha hb hy :: rest) V r = X :=
  k _ (h.cons _ y w (ternary_writes ..) hy'
    (((ternary_result ..).trans (by rw [h.get mc, h.get ma, h.get mb])).trans hw))

/-- A change of shape. -/
theorem step_reshape {x y : Ref sig .tc} {he : x.ty.elt = y.ty.elt} {hn : x.ty.shape.ShapeCasts y.ty.shape} {hx hy}
    (w : y.ty.Contents Val) {vx : x.ty.Contents Val} (h : Holds V R L) (mx : (⟨x, vx⟩ : Entry sig Val) ∈ L)
    (hw : ∀ F : Valuation τ sig Val, F (Proc.devRef .tc x) = vx →
      (reshape (τ := τ) (Val := Val) x y he hn hx hy).result F (Proc.devRef .tc y) = w) (hy' : y ∉ R)
    (k : ∀ V' : Valuation τ sig Val, Holds V' (y :: R) (⟨y, w⟩ :: L) → after rest V' r = X) :
    after (reshape x y he hn hx hy :: rest) V r = X :=
  k _ (h.cons _ y w (reshape_writes ..) hy' (hw V (h.get mx)))

/-- A joining of three operands. -/
theorem step_nary3 {a b c y : Ref sig .tc}
    {f : ((k : Fin 3) → ((![a, b, c] : Fin 3 → Ref sig .tc) k).ty.Contents Val) → y.ty.Contents Val} {hxs hy}
    (w : y.ty.Contents Val) {va : a.ty.Contents Val} {vb : b.ty.Contents Val} {vc : c.ty.Contents Val} (h : Holds V R L)
    (ma : (⟨a, va⟩ : Entry sig Val) ∈ L) (mb : (⟨b, vb⟩ : Entry sig Val) ∈ L) (mc : (⟨c, vc⟩ : Entry sig Val) ∈ L)
    (hw : f (Fin.cons va (Fin.cons vb (Fin.cons vc (fun i => i.elim0)))) = w) (hy' : y ∉ R)
    (k : ∀ V' : Valuation τ sig Val, Holds V' (y :: R) (⟨y, w⟩ :: L) → after rest V' r = X) :
    after (nary ![a, b, c] y f hxs hy :: rest) V r = X :=
  k _ (h.cons _ y w (nary_writes ..) hy' (((nary_result ..).trans (congrArg f (by
    funext k
    fin_cases k
    · exact h.get ma
    · exact h.get mb
    · exact h.get mc))).trans hw))

end Table

section Typed

variable {τ : Topo} {sig : RefSig} {Val : EltTy → Type}
variable {rest : List (HloOp τ sig Val)} {V : Valuation τ sig Val} {R : List (Ref sig .tc)} {L : List (Entry sig Val)}
  {r : DevRef τ sig} {X : r.ty.Contents Val}

/-! The operations of a called function name their buffers with the type of the value each holds, and move every
    operand and result along the equation "the buffer's type is that type". Contents equal up to that move (`HEq`) are
    equal once the equation is taken away, whatever the contents are: no value is ever unfolded. -/

/-- A constant, in a called function. -/
theorem step_tnullary {Ty : BufTy} {y : TRef sig Ty} {v : Ty.Contents Val} (w : Ty.Contents Val) (h : Holds V R L)
    (hw : v = w) (hy' : y.ref ∉ R) {w' : y.ref.ty.Contents Val} (hw' : HEq w w')
    (k : ∀ V' : Valuation τ sig Val, Holds V' (y.ref :: R) (⟨y.ref, w'⟩ :: L) → after rest V' r = X) :
    after (TRef.nullary y v :: rest) V r = X := by
  obtain ⟨yr, rfl, yo, yu⟩ := y
  obtain rfl := eq_of_heq hw'
  exact step_nullary (y := yr) w h hw hy' k

/-- An operation of one operand, in a called function. -/
theorem step_tunary {Tx Ty : BufTy} {x : TRef sig Tx} {y : TRef sig Ty} {f : Tx.Contents Val → Ty.Contents Val}
    (w : Ty.Contents Val) {vx : Tx.Contents Val} {vx' : x.ref.ty.Contents Val} (h : Holds V R L)
    (mx : (⟨x.ref, vx'⟩ : Entry sig Val) ∈ L) (hx : HEq vx' vx) (hw : f vx = w) (hy' : y.ref ∉ R)
    {w' : y.ref.ty.Contents Val} (hw' : HEq w w')
    (k : ∀ V' : Valuation τ sig Val, Holds V' (y.ref :: R) (⟨y.ref, w'⟩ :: L) → after rest V' r = X) :
    after (TRef.unary x y f :: rest) V r = X := by
  obtain ⟨xr, rfl, xo, xu⟩ := x
  obtain ⟨yr, rfl, yo, yu⟩ := y
  obtain rfl := eq_of_heq hx
  obtain rfl := eq_of_heq hw'
  exact step_unary (x := xr) (y := yr) w h mx hw hy' k

/-- An operation of two operands, in a called function. -/
theorem step_tbinary {Ta Tb Ty : BufTy} {a : TRef sig Ta} {b : TRef sig Tb} {y : TRef sig Ty}
    {f : Ta.Contents Val → Tb.Contents Val → Ty.Contents Val}
    (w : Ty.Contents Val) {va : Ta.Contents Val} {vb : Tb.Contents Val} {va' : a.ref.ty.Contents Val}
    {vb' : b.ref.ty.Contents Val} (h : Holds V R L)
    (ma : (⟨a.ref, va'⟩ : Entry sig Val) ∈ L) (mb : (⟨b.ref, vb'⟩ : Entry sig Val) ∈ L) (ha : HEq va' va) (hb : HEq vb' vb)
    (hw : f va vb = w) (hy' : y.ref ∉ R) {w' : y.ref.ty.Contents Val} (hw' : HEq w w')
    (k : ∀ V' : Valuation τ sig Val, Holds V' (y.ref :: R) (⟨y.ref, w'⟩ :: L) → after rest V' r = X) :
    after (TRef.binary a b y f :: rest) V r = X := by
  obtain ⟨ar, rfl, ao, au⟩ := a
  obtain ⟨br, rfl, bo, bu⟩ := b
  obtain ⟨yr, rfl, yo, yu⟩ := y
  obtain rfl := eq_of_heq ha
  obtain rfl := eq_of_heq hb
  obtain rfl := eq_of_heq hw'
  exact step_binary (a := ar) (b := br) (y := yr) w h ma mb hw hy' k

/-- An operation of three operands, in a called function. -/
theorem step_tternary {Tc Ta Tb Ty : BufTy} {c : TRef sig Tc} {a : TRef sig Ta} {b : TRef sig Tb} {y : TRef sig Ty}
    {f : Tc.Contents Val → Ta.Contents Val → Tb.Contents Val → Ty.Contents Val}
    (w : Ty.Contents Val) {vc : Tc.Contents Val} {va : Ta.Contents Val} {vb : Tb.Contents Val}
    {vc' : c.ref.ty.Contents Val} {va' : a.ref.ty.Contents Val} {vb' : b.ref.ty.Contents Val} (h : Holds V R L)
    (mc : (⟨c.ref, vc'⟩ : Entry sig Val) ∈ L) (ma : (⟨a.ref, va'⟩ : Entry sig Val) ∈ L)
    (mb : (⟨b.ref, vb'⟩ : Entry sig Val) ∈ L) (hc : HEq vc' vc) (ha : HEq va' va) (hb : HEq vb' vb)
    (hw : f vc va vb = w) (hy' : y.ref ∉ R) {w' : y.ref.ty.Contents Val} (hw' : HEq w w')
    (k : ∀ V' : Valuation τ sig Val, Holds V' (y.ref :: R) (⟨y.ref, w'⟩ :: L) → after rest V' r = X) :
    after (TRef.ternary c a b y f :: rest) V r = X := by
  obtain ⟨cr, rfl, co, cu⟩ := c
  obtain ⟨ar, rfl, ao, au⟩ := a
  obtain ⟨br, rfl, bo, bu⟩ := b
  obtain ⟨yr, rfl, yo, yu⟩ := y
  obtain rfl := eq_of_heq hc
  obtain rfl := eq_of_heq ha
  obtain rfl := eq_of_heq hb
  obtain rfl := eq_of_heq hw'
  exact step_ternary (c := cr) (a := ar) (b := br) (y := yr) w h mc ma mb hw hy' k

end Typed

/-- Finds a line in a literal table. -/
macro "mem" : tactic => `(tactic| repeat (first | exact List.Mem.head _ | apply List.Mem.tail))

section Main

variable {F : FTy → Type} [FloatOps F]

open Cert.ReferenceIdeal Cert.ReferenceIdeal.Gen

set_option maxRecDepth 8192 in
set_option maxHeartbeats 8000000 in
/-- The fold of the 209 operations over any contents that hold x0, x1 at the two arguments, read at the last buffer, is
    the last stage at x0, x1. -/
theorem fold_eq (V : Valuation τ sig (Elt F)) (x0 : (⟨S512x8192x2, .f32⟩ : BufTy).Contents (Elt F))
    (x1 : (⟨S512x1x200x200, .f32⟩ : BufTy).Contents (Elt F)) (h0 : V (Proc.devRef .tc main_arg0) = x0)
    (h1 : V (Proc.devRef .tc main_arg1) = x1) :
    after (ValueP.ops (F := F)) V (Proc.devRef .tc main_v151) = ReadP.val_main_v151 (F := F) x0 x1 := by
  have h : Holds V [main_arg0, main_arg1] [⟨main_arg0, x0⟩, ⟨main_arg1, x1⟩] := ⟨rfl, by
    intro e he
    rcases List.mem_cons.mp he with rfl | he
    · exact h0
    · rcases List.mem_cons.mp he with rfl | he
      · exact h1
      · exact absurd he (List.not_mem_nil)⟩
  clear h0 h1
  refine step_nullary (ReadP.val_main_cst (F := F)) h (by rfl) (by decide) fun V h => ?_
  refine step_unary (ReadP.val_main_v0 (F := F)) h (by mem) (by rfl) (by decide) fun V h => ?_
  refine step_binary (ReadP.val_main_v1 (F := F) x0) h (by mem) (by mem) (by rfl) (by decide) fun V h => ?_
  refine step_nullary (ReadP.val_main_cst_0 (F := F)) h (by rfl) (by decide) fun V h => ?_
  refine step_unary (ReadP.val_main_v2 (F := F)) h (by mem) (by rfl) (by decide) fun V h => ?_
  refine step_binary (ReadP.val_main_v3 (F := F) x0) h (by mem) (by mem) (by rfl) (by decide) fun V h => ?_
  refine step_binary (ReadP.val_main_v4 (F := F) x0) h (by mem) (by mem) (by rfl) (by decide) fun V h => ?_
  refine step_nullary (ReadP.val_main_c (F := F)) h (by rfl) (by decide) fun V h => ?_
  refine step_binary (ReadP.val_main_v5 (F := F) x0) h (by mem) (by mem) (by rfl) (by decide) fun V h => ?_
  refine step_nullary (ReadP.val_main_cst_1 (F := F)) h (by rfl) (by decide) fun V h => ?_
  refine step_nullary (ReadP.val_main_cst_2 (F := F)) h (by rfl) (by decide) fun V h => ?_
  refine step_tunary (ReadP.val_main_call0_v0 (F := F)) h (by mem) HEq.rfl (by rfl) (by decide) HEq.rfl fun V h => ?_
  refine step_tunary (ReadP.val_main_call0_v1 (F := F)) h (by mem) HEq.rfl (by rfl) (by decide) HEq.rfl fun V h => ?_
  refine step_tbinary (ReadP.val_main_call0_v2 (F := F) x0) h (by mem) (by mem) HEq.rfl HEq.rfl (by rfl) (by decide) HEq.rfl fun V h => ?_
  refine step_tunary (ReadP.val_main_call0_v3 (F := F)) h (by mem) HEq.rfl (by rfl) (by decide) HEq.rfl fun V h => ?_
  refine step_tunary (ReadP.val_main_call0_v4 (F := F)) h (by mem) HEq.rfl (by rfl) (by decide) HEq.rfl fun V h => ?_
  refine step_tbinary (ReadP.val_main_v6 (F := F) x0) h (by mem) (by mem) HEq.rfl HEq.rfl (by rfl) (by decide) HEq.rfl fun V h => ?_
  refine step_nullary (ReadP.val_main_cst_3 (F := F)) h (by rfl) (by decide) fun V h => ?_
  refine step_unary (ReadP.val_main_v7 (F := F)) h (by mem) (by rfl) (by decide) fun V h => ?_
  refine step_binary (ReadP.val_main_v8 (F := F) x0) h (by mem) (by mem) (by rfl) (by decide) fun V h => ?_
  refine step_nullary (ReadP.val_main_cst_4 (F := F)) h (by rfl) (by decide) fun V h => ?_
  refine step_unary (ReadP.val_main_v9 (F := F)) h (by mem) (by rfl) (by decide) fun V h => ?_
  refine step_binary (ReadP.val_main_v10 (F := F) x0) h (by mem) (by mem) (by rfl) (by decide) fun V h => ?_
  refine step_nullary (ReadP.val_main_cst_5 (F := F)) h (by rfl) (by decide) fun V h => ?_
  refine step_unary (ReadP.val_main_v11 (F := F)) h (by mem) (by rfl) (by decide) fun V h => ?_
  refine step_binary (ReadP.val_main_v12 (F := F) x0) h (by mem) (by mem) (by rfl) (by decide) fun V h => ?_
  refine step_unary (ReadP.val_main_v13 (F := F) x0) h (by mem) (by rfl) (by decide) fun V h => ?_
  refine step_unary (ReadP.val_main_v14 (F := F) x0) h (by mem) (by rfl) (by decide) fun V h => ?_
  refine step_unary (ReadP.val_main_v15 (F := F) x0) h (by mem) (by rfl) (by decide) fun V h => ?_
  refine step_nullary (ReadP.val_main_cst_6 (F := F)) h (by rfl) (by decide) fun V h => ?_
  refine step_unary (ReadP.val_main_v16 (F := F)) h (by mem) (by rfl) (by decide) fun V h => ?_
  refine step_binary (ReadP.val_main_v17 (F := F) x0) h (by mem) (by mem) (by rfl) (by decide) fun V h => ?_
  refine step_nullary (ReadP.val_main_cst_7 (F := F)) h (by rfl) (by decide) fun V h => ?_
  refine step_unary (ReadP.val_main_v18 (F := F)) h (by mem) (by rfl) (by decide) fun V h => ?_
  refine step_binary (ReadP.val_main_v19 (F := F) x0) h (by mem) (by mem) (by rfl) (by decide) fun V h => ?_
  refine step_nullary (ReadP.val_main_cst_8 (F := F)) h (by rfl) (by decide) fun V h => ?_
  refine step_unary (ReadP.val_main_v20 (F := F)) h (by mem) (by rfl) (by decide) fun V h => ?_
  refine step_binary (ReadP.val_main_v21 (F := F) x0) h (by mem) (by mem) (by rfl) (by decide) fun V h => ?_
  refine step_binary (ReadP.val_main_v22 (F := F) x0) h (by mem) (by mem) (by rfl) (by decide) fun V h => ?_
  refine step_nullary (ReadP.val_main_cst_9 (F := F)) h (by rfl) (by decide) fun V h => ?_
  refine step_unary (ReadP.val_main_v23 (F := F)) h (by mem) (by rfl) (by decide) fun V h => ?_
  refine step_binary (ReadP.val_main_v24 (F := F) x0) h (by mem) (by mem) (by rfl) (by decide) fun V h => ?_
  refine step_reshape (ReadP.val_main_v25 (F := F) x1) h (by mem) (fun G hG => by rw [reshape_result, hG]; rfl) (by decide) fun V h => ?_
  refine step_nullary (ReadP.val_main_v26 (F := F)) h (by rfl) (by decide) fun V h => ?_
  refine step_unary (ReadP.val_main_v27 (F := F)) h (by mem) (by rfl) (by decide) fun V h => ?_
  refine step_unary (ReadP.val_main_v28 (F := F) x0) h (by mem) (by rfl) (by decide) fun V h => ?_
  refine step_reshape (ReadP.val_main_v29 (F := F) x0) h (by mem) (fun G hG => by rw [reshape_result, hG]; rfl) (by decide) fun V h => ?_
  refine step_unary (ReadP.val_main_v30 (F := F) x0) h (by mem) (by rfl) (by decide) fun V h => ?_
  refine step_reshape (ReadP.val_main_v31 (F := F) x0) h (by mem) (fun G hG => by rw [reshape_result, hG]; rfl) (by decide) fun V h => ?_
  refine step_nullary (ReadP.val_main_c_10 (F := F)) h (by rfl) (by decide) fun V h => ?_
  refine step_unary (ReadP.val_main_v32 (F := F)) h (by mem) (by rfl) (by decide) fun V h => ?_
  refine step_binary (ReadP.val_main_v33 (F := F)) h (by mem) (by mem) (by rfl) (by decide) fun V h => ?_
  refine step_nullary (ReadP.val_main_c_11 (F := F)) h (by rfl) (by decide) fun V h => ?_
  refine step_unary (ReadP.val_main_v34 (F := F)) h (by mem) (by rfl) (by decide) fun V h => ?_
  refine step_binary (ReadP.val_main_v35 (F := F)) h (by mem) (by mem) (by rfl) (by decide) fun V h => ?_
  refine step_ternary (ReadP.val_main_v36 (F := F)) h (by mem) (by mem) (by mem) (by rfl) (by decide) fun V h => ?_
  refine step_nullary (ReadP.val_main_c_12 (F := F)) h (by rfl) (by decide) fun V h => ?_
  refine step_unary (ReadP.val_main_v37 (F := F)) h (by mem) (by rfl) (by decide) fun V h => ?_
  refine step_binary (ReadP.val_main_v38 (F := F) x0) h (by mem) (by mem) (by rfl) (by decide) fun V h => ?_
  refine step_nullary (ReadP.val_main_c_13 (F := F)) h (by rfl) (by decide) fun V h => ?_
  refine step_unary (ReadP.val_main_v39 (F := F)) h (by mem) (by rfl) (by decide) fun V h => ?_
  refine step_binary (ReadP.val_main_v40 (F := F) x0) h (by mem) (by mem) (by rfl) (by decide) fun V h => ?_
  refine step_ternary (ReadP.val_main_v41 (F := F) x0) h (by mem) (by mem) (by mem) (by rfl) (by decide) fun V h => ?_
  refine step_nullary (ReadP.val_main_c_14 (F := F)) h (by rfl) (by decide) fun V h => ?_
  refine step_unary (ReadP.val_main_v42 (F := F)) h (by mem) (by rfl) (by decide) fun V h => ?_
  refine step_binary (ReadP.val_main_v43 (F := F) x0) h (by mem) (by mem) (by rfl) (by decide) fun V h => ?_
  refine step_nullary (ReadP.val_main_c_15 (F := F)) h (by rfl) (by decide) fun V h => ?_
  refine step_unary (ReadP.val_main_v44 (F := F)) h (by mem) (by rfl) (by decide) fun V h => ?_
  refine step_binary (ReadP.val_main_v45 (F := F) x0) h (by mem) (by mem) (by rfl) (by decide) fun V h => ?_
  refine step_ternary (ReadP.val_main_v46 (F := F) x0) h (by mem) (by mem) (by mem) (by rfl) (by decide) fun V h => ?_
  refine step_unary (ReadP.val_main_v47 (F := F)) h (by mem) (by rfl) (by decide) fun V h => ?_
  refine step_unary (ReadP.val_main_v48 (F := F)) h (by mem) (by rfl) (by decide) fun V h => ?_
  refine step_unary (ReadP.val_main_v49 (F := F) x0) h (by mem) (by rfl) (by decide) fun V h => ?_
  refine step_unary (ReadP.val_main_v50 (F := F) x0) h (by mem) (by rfl) (by decide) fun V h => ?_
  refine step_nary3 (ReadP.val_main_v51 (F := F) x0) h (by mem) (by mem) (by mem) (by rfl) (by decide) fun V h => ?_
  refine step_binary (ReadP.val_main_v52 (F := F) x0 x1) h (by mem) (by mem) (by rfl) (by decide) fun V h => ?_
  refine step_nullary (ReadP.val_main_c_16 (F := F)) h (by rfl) (by decide) fun V h => ?_
  refine step_unary (ReadP.val_main_v53 (F := F)) h (by mem) (by rfl) (by decide) fun V h => ?_
  refine step_binary (ReadP.val_main_v54 (F := F) x0) h (by mem) (by mem) (by rfl) (by decide) fun V h => ?_
  refine step_nullary (ReadP.val_main_c_17 (F := F)) h (by rfl) (by decide) fun V h => ?_
  refine step_unary (ReadP.val_main_v55 (F := F)) h (by mem) (by rfl) (by decide) fun V h => ?_
  refine step_binary (ReadP.val_main_v56 (F := F)) h (by mem) (by mem) (by rfl) (by decide) fun V h => ?_
  refine step_nullary (ReadP.val_main_c_18 (F := F)) h (by rfl) (by decide) fun V h => ?_
  refine step_unary (ReadP.val_main_v57 (F := F)) h (by mem) (by rfl) (by decide) fun V h => ?_
  refine step_binary (ReadP.val_main_v58 (F := F)) h (by mem) (by mem) (by rfl) (by decide) fun V h => ?_
  refine step_ternary (ReadP.val_main_v59 (F := F)) h (by mem) (by mem) (by mem) (by rfl) (by decide) fun V h => ?_
  refine step_nullary (ReadP.val_main_c_19 (F := F)) h (by rfl) (by decide) fun V h => ?_
  refine step_unary (ReadP.val_main_v60 (F := F)) h (by mem) (by rfl) (by decide) fun V h => ?_
  refine step_binary (ReadP.val_main_v61 (F := F) x0) h (by mem) (by mem) (by rfl) (by decide) fun V h => ?_
  refine step_nullary (ReadP.val_main_c_20 (F := F)) h (by rfl) (by decide) fun V h => ?_
  refine step_unary (ReadP.val_main_v62 (F := F)) h (by mem) (by rfl) (by decide) fun V h => ?_
  refine step_binary (ReadP.val_main_v63 (F := F) x0) h (by mem) (by mem) (by rfl) (by decide) fun V h => ?_
  refine step_ternary (ReadP.val_main_v64 (F := F) x0) h (by mem) (by mem) (by mem) (by rfl) (by decide) fun V h => ?_
  refine step_nullary (ReadP.val_main_c_21 (F := F)) h (by rfl) (by decide) fun V h => ?_
  refine step_unary (ReadP.val_main_v65 (F := F)) h (by mem) (by rfl) (by decide) fun V h => ?_
  refine step_binary (ReadP.val_main_v66 (F := F) x0) h (by mem) (by mem) (by rfl) (by decide) fun V h => ?_
  refine step_nullary (ReadP.val_main_c_22 (F := F)) h (by rfl) (by decide) fun V h => ?_
  refine step_unary (ReadP.val_main_v67 (F := F)) h (by mem) (by rfl) (by decide) fun V h => ?_
  refine step_binary (ReadP.val_main_v68 (F := F) x0) h (by mem) (by mem) (by rfl) (by decide) fun V h => ?_
  refine step_ternary (ReadP.val_main_v69 (F := F) x0) h (by mem) (by mem) (by mem) (by rfl) (by decide) fun V h => ?_
  refine step_unary (ReadP.val_main_v70 (F := F)) h (by mem) (by rfl) (by decide) fun V h => ?_
  refine step_unary (ReadP.val_main_v71 (F := F)) h (by mem) (by rfl) (by decide) fun V h => ?_
  refine step_unary (ReadP.val_main_v72 (F := F) x0) h (by mem) (by rfl) (by decide) fun V h => ?_
  refine step_unary (ReadP.val_main_v73 (F := F) x0) h (by mem) (by rfl) (by decide) fun V h => ?_
  refine step_nary3 (ReadP.val_main_v74 (F := F) x0) h (by mem) (by mem) (by mem) (by rfl) (by decide) fun V h => ?_
  refine step_binary (ReadP.val_main_v75 (F := F) x0 x1) h (by mem) (by mem) (by rfl) (by decide) fun V h => ?_
  refine step_nullary (ReadP.val_main_c_23 (F := F)) h (by rfl) (by decide) fun V h => ?_
  refine step_unary (ReadP.val_main_v76 (F := F)) h (by mem) (by rfl) (by decide) fun V h => ?_
  refine step_binary (ReadP.val_main_v77 (F := F) x0) h (by mem) (by mem) (by rfl) (by decide) fun V h => ?_
  refine step_nullary (ReadP.val_main_c_24 (F := F)) h (by rfl) (by decide) fun V h => ?_
  refine step_unary (ReadP.val_main_v78 (F := F)) h (by mem) (by rfl) (by decide) fun V h => ?_
  refine step_binary (ReadP.val_main_v79 (F := F)) h (by mem) (by mem) (by rfl) (by decide) fun V h => ?_
  refine step_nullary (ReadP.val_main_c_25 (F := F)) h (by rfl) (by decide) fun V h => ?_
  refine step_unary (ReadP.val_main_v80 (F := F)) h (by mem) (by rfl) (by decide) fun V h => ?_
  refine step_binary (ReadP.val_main_v81 (F := F)) h (by mem) (by mem) (by rfl) (by decide) fun V h => ?_
  refine step_ternary (ReadP.val_main_v82 (F := F)) h (by mem) (by mem) (by mem) (by rfl) (by decide) fun V h => ?_
  refine step_nullary (ReadP.val_main_c_26 (F := F)) h (by rfl) (by decide) fun V h => ?_
  refine step_unary (ReadP.val_main_v83 (F := F)) h (by mem) (by rfl) (by decide) fun V h => ?_
  refine step_binary (ReadP.val_main_v84 (F := F) x0) h (by mem) (by mem) (by rfl) (by decide) fun V h => ?_
  refine step_nullary (ReadP.val_main_c_27 (F := F)) h (by rfl) (by decide) fun V h => ?_
  refine step_unary (ReadP.val_main_v85 (F := F)) h (by mem) (by rfl) (by decide) fun V h => ?_
  refine step_binary (ReadP.val_main_v86 (F := F) x0) h (by mem) (by mem) (by rfl) (by decide) fun V h => ?_
  refine step_ternary (ReadP.val_main_v87 (F := F) x0) h (by mem) (by mem) (by mem) (by rfl) (by decide) fun V h => ?_
  refine step_nullary (ReadP.val_main_c_28 (F := F)) h (by rfl) (by decide) fun V h => ?_
  refine step_unary (ReadP.val_main_v88 (F := F)) h (by mem) (by rfl) (by decide) fun V h => ?_
  refine step_binary (ReadP.val_main_v89 (F := F) x0) h (by mem) (by mem) (by rfl) (by decide) fun V h => ?_
  refine step_nullary (ReadP.val_main_c_29 (F := F)) h (by rfl) (by decide) fun V h => ?_
  refine step_unary (ReadP.val_main_v90 (F := F)) h (by mem) (by rfl) (by decide) fun V h => ?_
  refine step_binary (ReadP.val_main_v91 (F := F) x0) h (by mem) (by mem) (by rfl) (by decide) fun V h => ?_
  refine step_ternary (ReadP.val_main_v92 (F := F) x0) h (by mem) (by mem) (by mem) (by rfl) (by decide) fun V h => ?_
  refine step_unary (ReadP.val_main_v93 (F := F)) h (by mem) (by rfl) (by decide) fun V h => ?_
  refine step_unary (ReadP.val_main_v94 (F := F)) h (by mem) (by rfl) (by decide) fun V h => ?_
  refine step_unary (ReadP.val_main_v95 (F := F) x0) h (by mem) (by rfl) (by decide) fun V h => ?_
  refine step_unary (ReadP.val_main_v96 (F := F) x0) h (by mem) (by rfl) (by decide) fun V h => ?_
  refine step_nary3 (ReadP.val_main_v97 (F := F) x0) h (by mem) (by mem) (by mem) (by rfl) (by decide) fun V h => ?_
  refine step_binary (ReadP.val_main_v98 (F := F) x0 x1) h (by mem) (by mem) (by rfl) (by decide) fun V h => ?_
  refine step_nullary (ReadP.val_main_c_30 (F := F)) h (by rfl) (by decide) fun V h => ?_
  refine step_unary (ReadP.val_main_v99 (F := F)) h (by mem) (by rfl) (by decide) fun V h => ?_
  refine step_binary (ReadP.val_main_v100 (F := F) x0) h (by mem) (by mem) (by rfl) (by decide) fun V h => ?_
  refine step_nullary (ReadP.val_main_c_31 (F := F)) h (by rfl) (by decide) fun V h => ?_
  refine step_unary (ReadP.val_main_v101 (F := F)) h (by mem) (by rfl) (by decide) fun V h => ?_
  refine step_binary (ReadP.val_main_v102 (F := F) x0) h (by mem) (by mem) (by rfl) (by decide) fun V h => ?_
  refine step_nullary (ReadP.val_main_c_32 (F := F)) h (by rfl) (by decide) fun V h => ?_
  refine step_unary (ReadP.val_main_v103 (F := F)) h (by mem) (by rfl) (by decide) fun V h => ?_
  refine step_binary (ReadP.val_main_v104 (F := F)) h (by mem) (by mem) (by rfl) (by decide) fun V h => ?_
  refine step_nullary (ReadP.val_main_c_33 (F := F)) h (by rfl) (by decide) fun V h => ?_
  refine step_unary (ReadP.val_main_v105 (F := F)) h (by mem) (by rfl) (by decide) fun V h => ?_
  refine step_binary (ReadP.val_main_v106 (F := F)) h (by mem) (by mem) (by rfl) (by decide) fun V h => ?_
  refine step_ternary (ReadP.val_main_v107 (F := F)) h (by mem) (by mem) (by mem) (by rfl) (by decide) fun V h => ?_
  refine step_nullary (ReadP.val_main_c_34 (F := F)) h (by rfl) (by decide) fun V h => ?_
  refine step_unary (ReadP.val_main_v108 (F := F)) h (by mem) (by rfl) (by decide) fun V h => ?_
  refine step_binary (ReadP.val_main_v109 (F := F) x0) h (by mem) (by mem) (by rfl) (by decide) fun V h => ?_
  refine step_nullary (ReadP.val_main_c_35 (F := F)) h (by rfl) (by decide) fun V h => ?_
  refine step_unary (ReadP.val_main_v110 (F := F)) h (by mem) (by rfl) (by decide) fun V h => ?_
  refine step_binary (ReadP.val_main_v111 (F := F) x0) h (by mem) (by mem) (by rfl) (by decide) fun V h => ?_
  refine step_ternary (ReadP.val_main_v112 (F := F) x0) h (by mem) (by mem) (by mem) (by rfl) (by decide) fun V h => ?_
  refine step_nullary (ReadP.val_main_c_36 (F := F)) h (by rfl) (by decide) fun V h => ?_
  refine step_unary (ReadP.val_main_v113 (F := F)) h (by mem) (by rfl) (by decide) fun V h => ?_
  refine step_binary (ReadP.val_main_v114 (F := F) x0) h (by mem) (by mem) (by rfl) (by decide) fun V h => ?_
  refine step_nullary (ReadP.val_main_c_37 (F := F)) h (by rfl) (by decide) fun V h => ?_
  refine step_unary (ReadP.val_main_v115 (F := F)) h (by mem) (by rfl) (by decide) fun V h => ?_
  refine step_binary (ReadP.val_main_v116 (F := F) x0) h (by mem) (by mem) (by rfl) (by decide) fun V h => ?_
  refine step_ternary (ReadP.val_main_v117 (F := F) x0) h (by mem) (by mem) (by mem) (by rfl) (by decide) fun V h => ?_
  refine step_unary (ReadP.val_main_v118 (F := F)) h (by mem) (by rfl) (by decide) fun V h => ?_
  refine step_unary (ReadP.val_main_v119 (F := F)) h (by mem) (by rfl) (by decide) fun V h => ?_
  refine step_unary (ReadP.val_main_v120 (F := F) x0) h (by mem) (by rfl) (by decide) fun V h => ?_
  refine step_unary (ReadP.val_main_v121 (F := F) x0) h (by mem) (by rfl) (by decide) fun V h => ?_
  refine step_nary3 (ReadP.val_main_v122 (F := F) x0) h (by mem) (by mem) (by mem) (by rfl) (by decide) fun V h => ?_
  refine step_binary (ReadP.val_main_v123 (F := F) x0 x1) h (by mem) (by mem) (by rfl) (by decide) fun V h => ?_
  refine step_unary (ReadP.val_main_v124 (F := F) x0) h (by mem) (by rfl) (by decide) fun V h => ?_
  refine step_reshape (ReadP.val_main_v125 (F := F) x0) h (by mem) (fun G hG => by rw [reshape_result, hG]; rfl) (by decide) fun V h => ?_
  refine step_unary (ReadP.val_main_v126 (F := F) x0) h (by mem) (by rfl) (by decide) fun V h => ?_
  refine step_reshape (ReadP.val_main_v127 (F := F) x0) h (by mem) (fun G hG => by rw [reshape_result, hG]; rfl) (by decide) fun V h => ?_
  refine step_nullary (ReadP.val_main_cst_38 (F := F)) h (by rfl) (by decide) fun V h => ?_
  refine step_unary (ReadP.val_main_v128 (F := F)) h (by mem) (by rfl) (by decide) fun V h => ?_
  refine step_binary (ReadP.val_main_v129 (F := F) x0) h (by mem) (by mem) (by rfl) (by decide) fun V h => ?_
  refine step_binary (ReadP.val_main_v130 (F := F) x0 x1) h (by mem) (by mem) (by rfl) (by decide) fun V h => ?_
  refine step_binary (ReadP.val_main_v131 (F := F) x0 x1) h (by mem) (by mem) (by rfl) (by decide) fun V h => ?_
  refine step_binary (ReadP.val_main_v132 (F := F) x0 x1) h (by mem) (by mem) (by rfl) (by decide) fun V h => ?_
  refine step_nullary (ReadP.val_main_cst_39 (F := F)) h (by rfl) (by decide) fun V h => ?_
  refine step_unary (ReadP.val_main_v133 (F := F)) h (by mem) (by rfl) (by decide) fun V h => ?_
  refine step_binary (ReadP.val_main_v134 (F := F) x0) h (by mem) (by mem) (by rfl) (by decide) fun V h => ?_
  refine step_binary (ReadP.val_main_v135 (F := F) x0 x1) h (by mem) (by mem) (by rfl) (by decide) fun V h => ?_
  refine step_binary (ReadP.val_main_v136 (F := F) x0 x1) h (by mem) (by mem) (by rfl) (by decide) fun V h => ?_
  refine step_binary (ReadP.val_main_v137 (F := F) x0 x1) h (by mem) (by mem) (by rfl) (by decide) fun V h => ?_
  refine step_nullary (ReadP.val_main_cst_40 (F := F)) h (by rfl) (by decide) fun V h => ?_
  refine step_unary (ReadP.val_main_v138 (F := F)) h (by mem) (by rfl) (by decide) fun V h => ?_
  refine step_binary (ReadP.val_main_v139 (F := F) x0) h (by mem) (by mem) (by rfl) (by decide) fun V h => ?_
  refine step_binary (ReadP.val_main_v140 (F := F) x0 x1) h (by mem) (by mem) (by rfl) (by decide) fun V h => ?_
  refine step_binary (ReadP.val_main_v141 (F := F) x0 x1) h (by mem) (by mem) (by rfl) (by decide) fun V h => ?_
  refine step_binary (ReadP.val_main_v142 (F := F) x0 x1) h (by mem) (by mem) (by rfl) (by decide) fun V h => ?_
  refine step_nullary (ReadP.val_main_cst_41 (F := F)) h (by rfl) (by decide) fun V h => ?_
  refine step_tunary (ReadP.val_main_call1_v0 (F := F)) h (by mem) HEq.rfl (by rfl) (by decide) HEq.rfl fun V h => ?_
  refine step_tunary (ReadP.val_main_call1_v1 (F := F)) h (by mem) HEq.rfl (by rfl) (by decide) HEq.rfl fun V h => ?_
  refine step_tternary (ReadP.val_main_v143 (F := F) x0 x1) h (by mem) (by mem) (by mem) HEq.rfl HEq.rfl HEq.rfl (by rfl) (by decide) HEq.rfl fun V h => ?_
  refine step_nullary (ReadP.val_main_cst_42 (F := F)) h (by rfl) (by decide) fun V h => ?_
  refine step_unary (ReadP.val_main_v144 (F := F)) h (by mem) (by rfl) (by decide) fun V h => ?_
  refine step_binary (ReadP.val_main_v145 (F := F) x0 x1) h (by mem) (by mem) (by rfl) (by decide) fun V h => ?_
  refine step_nullary (ReadP.val_main_cst_43 (F := F)) h (by rfl) (by decide) fun V h => ?_
  refine step_unary (ReadP.val_main_v146 (F := F)) h (by mem) (by rfl) (by decide) fun V h => ?_
  refine step_binary (ReadP.val_main_v147 (F := F) x0 x1) h (by mem) (by mem) (by rfl) (by decide) fun V h => ?_
  refine step_tnullary (ReadP.val_main_call2_cst (F := F)) h (by rfl) (by decide) HEq.rfl fun V h => ?_
  refine step_tunary (ReadP.val_main_call2_v0 (F := F)) h (by mem) HEq.rfl (by rfl) (by decide) HEq.rfl fun V h => ?_
  refine step_tbinary (ReadP.val_main_v148 (F := F) x0 x1) h (by mem) (by mem) HEq.rfl HEq.rfl (by rfl) (by decide) HEq.rfl fun V h => ?_
  refine step_binary (ReadP.val_main_v149 (F := F) x0 x1) h (by mem) (by mem) (by rfl) (by decide) fun V h => ?_
  refine step_nullary (ReadP.val_main_cst_44 (F := F)) h (by rfl) (by decide) fun V h => ?_
  refine step_binary (ReadP.val_main_v150 (F := F) x0 x1) h (by mem) (by mem) (by rfl) (by decide) fun V h => ?_
  refine step_nullary (ReadP.val_main_cst_45 (F := F)) h (by rfl) (by decide) fun V h => ?_
  refine step_binary (ReadP.val_main_v151 (F := F) x0 x1) h (by mem) (by mem) (by rfl) (by decide) fun V h => ?_
  exact step_nil h (List.Mem.head _)

/-- The reference's run leaves, at its last buffer, the last stage of the two arguments' launch contents. -/
theorem res_eq (m : (ℓ : Loc nD τ sig) → Buf (Elt F) ℓ) (c : Dev nD) :
    Cert.ReferenceIdeal.ValueP.res_main_v151 m c
      = Cert.ReferenceIdeal.ReadP.val_main_v151 (F := F) (m ((c.tc : Thread nD τ).loc main_arg0))
          (m ((c.tc : Thread nD τ).loc main_arg1)) :=
  fold_eq (launchContents m c) _ _ rfl rfl

end Main

end Cert.ReferenceIdeal.Bridge

end
-- ==== Proof.RefGather.lean ====
/-
  The reference's stages that do not read one element of each operand, each read at explicit coordinates.

  * The "or" over the coordinate axis (size 2) of a [512, 8192, 2] array of bits, from an initial bit: at (b, n) it
    is the bit at (b, n, 0) or the bit at (b, n, 1) or the initial bit.
  * The concatenation of three [512, 8192, 1] columns into a [512, 8192, 3] array: column k at (b, n, k).
  * The point gather of a [512, 200, 200] array at a [512, 8192, 3] array of index triples: at (b, n) it reads the
    array at the three words of the triple, each read as a signed integer and clamped into the axis.
  * Words. A word below 2³¹ is not negative, so the negative-index wrap (select (w < 0) (w + size) w) leaves it as it
    is and reading it signed gives its value; the clamp into an axis leaves a value below the size as it is. Hence a
    triple (b, c, d) with c, d ≤ 199 makes the gather read the array at (b, row c, row d).
-/
import proofs.«117773_j80032420594331_2_alg».proof.Proof.Gen.ReferenceIdeal
import proofs.«117773_j80032420594331_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The "or" over the coordinate axis -/

section Fold
variable {α : Type}

/-- A fold of a commutative associative operation over the two-element index set. -/
theorem fold_fin2 (op : α → α → α) [Std.Commutative op] [Std.Associative op] (init : α) (g : Fin 2 → α) :
    (Finset.univ : Finset (Fin 2)).fold op init g = op (g 0) (op (g 1) init) := by
  rw [show (Finset.univ : Finset (Fin 2)) = insert 0 {1} from by decide,
    Finset.fold_insert (by decide), Finset.fold_singleton]

/-- A reduction over the last axis of a [512, 8192, 2] array, read at (b, n). -/
theorem reduce_last_apply (op : α → α → α) [Std.Commutative op] [Std.Associative op]
    (x : S512x8192x2.Idx → α) (init : S_.Idx → α)
    (h' : S512x8192x2.ReducesTo [2] S512x8192) (hu : 0 < S_.numel) (b : Fin 512) (n : Fin 8192) :
    Host.reduce op x init h' hu (ix2 b n)
      = op (x (ix3 b n (0 : Fin 2))) (op (x (ix3 b n (1 : Fin 2))) (init (Shape.Idx.first hu))) := by
  have h : S512x8192x2.Reduces [2] S512x8192 := by decide
  rw [Host.reduce_eq_fold_single op x init h' h hu (ix2 b n)]
  refine (fold_fin2 op (init (Shape.Idx.first hu)) (x ∘ h.lift (ix2 b n))).trans ?_
  have e0 : h.lift (ix2 b n) (0 : Fin 2) = ix3 b n (0 : Fin 2) := by
    funext a; refine Fin.ext ?_
    match a with
    | ⟨0, _⟩ => rfl
    | ⟨1, _⟩ => rfl
    | ⟨2, _⟩ => rfl
  have e1 : h.lift (ix2 b n) (1 : Fin 2) = ix3 b n (1 : Fin 2) := by
    funext a; refine Fin.ext ?_
    match a with
    | ⟨0, _⟩ => rfl
    | ⟨1, _⟩ => rfl
    | ⟨2, _⟩ => rfl
  show op (x (h.lift (ix2 b n) (0 : Fin 2))) (op (x (h.lift (ix2 b n) (1 : Fin 2))) _) = _
  rw [e0, e1]

end Fold

/-! ## Three columns side by side -/

section Concat
variable {α : Type}

/-- Column k of the concatenation of three [512, 8192, 1] columns is the k-th of them. -/
theorem concat3_apply (A B C : S512x8192x1.Idx → α)
    (h : Shape.Concatenates [S512x8192x1, S512x8192x1, S512x8192x1] S512x8192x3 2) (b : Fin 512) (n : Fin 8192) :
    concatenate S512x8192x3 2 [⟨S512x8192x1, A⟩, ⟨S512x8192x1, B⟩, ⟨S512x8192x1, C⟩] h (ix3 b n (0 : Fin 3))
        = A (ix3 b n (0 : Fin 1))
    ∧ concatenate S512x8192x3 2 [⟨S512x8192x1, A⟩, ⟨S512x8192x1, B⟩, ⟨S512x8192x1, C⟩] h (ix3 b n (1 : Fin 3))
        = B (ix3 b n (0 : Fin 1))
    ∧ concatenate S512x8192x3 2 [⟨S512x8192x1, A⟩, ⟨S512x8192x1, B⟩, ⟨S512x8192x1, C⟩] h (ix3 b n (2 : Fin 3))
        = C (ix3 b n (0 : Fin 1)) := by
  have hi : ∀ k : Fin 3, ∀ c : Fin S512x8192x1.rank, c.cast (rfl : S512x8192x1.rank = S512x8192x3.rank) ≠ (2 : Fin 3) →
      ((ix3 b n (0 : Fin 1) : S512x8192x1.Idx) c).val
        = ((ix3 b n k : S512x8192x3.Idx) (c.cast (rfl : S512x8192x1.rank = S512x8192x3.rank))).val := by
    intro k c hc
    match c with
    | ⟨0, _⟩ => rfl
    | ⟨1, _⟩ => rfl
    | ⟨2, _⟩ => exact absurd rfl hc
  refine ⟨?_, ?_, ?_⟩
  · exact concatenate_apply_piece (2 : Fin S512x8192x3.rank)
      ([⟨S512x8192x1, A⟩, ⟨S512x8192x1, B⟩, ⟨S512x8192x1, C⟩] : List ((s : Shape) × (s.Idx → α))) h _ 0
      (by show 0 < 3; omega) S512x8192x1 A rfl rfl 0 rfl (ix3 b n (0 : Fin 1)) (hi 0) rfl
  · exact concatenate_apply_piece (2 : Fin S512x8192x3.rank)
      ([⟨S512x8192x1, A⟩, ⟨S512x8192x1, B⟩, ⟨S512x8192x1, C⟩] : List ((s : Shape) × (s.Idx → α))) h _ 1
      (by show 1 < 3; omega) S512x8192x1 B rfl rfl 1 rfl (ix3 b n (0 : Fin 1)) (hi 1) rfl
  · exact concatenate_apply_piece (2 : Fin S512x8192x3.rank)
      ([⟨S512x8192x1, A⟩, ⟨S512x8192x1, B⟩, ⟨S512x8192x1, C⟩] : List ((s : Shape) × (s.Idx → α))) h _ 2
      (by show 2 < 3; omega) S512x8192x1 C rfl rfl 2 rfl (ix3 b n (0 : Fin 1)) (hi 2) rfl

end Concat

/-! ## The point gather -/

section Gather
variable {α : Type}

/-- The gather's dimension numbers: every operand axis collapsed, the index triple along the last axis of the
    start indices, slices of one element. -/
abbrev gd : GatherDims S512x200x200 S512x8192x3 S512x8192 :=
  gather_S512x200x200_S512x8192x3_S512x8192_n_012_n_n_012_2_111

/-- On operand axis k the gather's operand coordinate at (b, n) is word k of the triple, read signed and clamped
    into the axis. -/
theorem gd_coord {w : Nat} (idx : IVec S512x8192x3 w) (b : Fin 512) (n : Fin 8192) (k : Fin 3)
    (hk : k ∈ gd.startIndexMap) (hc : k ∈ gd.collapsedSliceDims)
    (hsi : gd.siIdx (ix2 b n) ⟨List.idxOf k gd.startIndexMap, List.idxOf_lt_length_iff.2 hk⟩ = ix3 b n k) :
    gd.start (ix2 b n) idx k + gd.batchCoord (ix2 b n) k + gd.offCoord (ix2 b n) k
      = min (idx (ix3 b n k)).toInt.toNat (S512x200x200.size k - gd.sliceSizes k) := by
  rw [GatherDims.batchCoord_eq_zero _ _ _ List.not_mem_nil,
    GatherDims.offCoord_eq_zero _ _ _ (fun h => ((GatherDims.mem_sKept _ _).mp h).1 hc)]
  simp only [Nat.add_zero]
  unfold GatherDims.start
  rw [dif_pos hk, hsi]

/-- THE GATHER READ AT (b, n): the array at the triple's three words, each read signed and clamped into its axis. -/
theorem gather_apply {w : Nat} (x : S512x200x200.Idx → α) (idx : IVec S512x8192x3 w) (b : Fin 512) (n : Fin 8192) :
    Host.gather gd x idx (ix2 b n)
      = x (ix3 (⟨min (idx (ix3 b n (0 : Fin 3))).toInt.toNat 511, by omega⟩ : Fin 512)
            (⟨min (idx (ix3 b n (1 : Fin 3))).toInt.toNat 199, by omega⟩ : Fin 200)
            (⟨min (idx (ix3 b n (2 : Fin 3))).toInt.toNat 199, by omega⟩ : Fin 200)) := by
  unfold Host.gather
  congr 1
  funext a
  refine Fin.ext ?_
  show gd.start (ix2 b n) idx a + gd.batchCoord (ix2 b n) a + gd.offCoord (ix2 b n) a = _
  match a with
  | ⟨0, _⟩ =>
    refine (gd_coord idx b n (0 : Fin 3) (by decide) (by decide) ?_).trans rfl
    funext c; refine Fin.ext ?_
    match c with
    | ⟨0, _⟩ => rfl
    | ⟨1, _⟩ => rfl
    | ⟨2, _⟩ => rfl
  | ⟨1, _⟩ =>
    refine (gd_coord idx b n (1 : Fin 3) (by decide) (by decide) ?_).trans rfl
    funext c; refine Fin.ext ?_
    match c with
    | ⟨0, _⟩ => rfl
    | ⟨1, _⟩ => rfl
    | ⟨2, _⟩ => rfl
  | ⟨2, _⟩ =>
    refine (gd_coord idx b n (2 : Fin 3) (by decide) (by decide) ?_).trans rfl
    funext c; refine Fin.ext ?_
    match c with
    | ⟨0, _⟩ => rfl
    | ⟨1, _⟩ => rfl
    | ⟨2, _⟩ => rfl

end Gather

/-! ## Words: the negative-index wrap and the clamp -/

/-- A word below 2³¹ read as a signed integer is its value. -/
theorem toInt_of_small (w : BitVec 32) (h : w.toNat < 2147483648) : w.toInt = (w.toNat : Int) :=
  BitVec.toInt_eq_toNat_of_lt (by omega)

/-- A word below 2³¹ is not negative: the wrap of negative indices leaves it as it is. -/
theorem wrap_small (w m : BitVec 32) (h : w.toNat < 2147483648) :
    Scalar.select (IntOp.cmpi .slt w 0#32) (IntOp.addi w m) w = w := by
  have hs : w.slt 0#32 = false := by
    rw [BitVec.slt_eq_decide, toInt_of_small w h]
    simp
  have hc : IntOp.cmpi .slt w 0#32 = 0#1 := by
    unfold IntOp.cmpi
    simp only [hs]
    rfl
  rw [hc]
  exact select_zero _ _

/-- A word whose value is below the axis size passes the clamp into the axis unchanged. -/
theorem clamp_small (w : BitVec 32) (m : Nat) (h : w.toNat ≤ m) (hm : m < 2147483648) :
    min w.toInt.toNat m = w.toNat := by
  rw [toInt_of_small w (by omega)]
  simp only [Int.toNat_natCast]
  omega

/-- The next word after one that is at most 198 is its value plus one. -/
theorem toNat_succ_small (c : BitVec 32) (h : c.toNat ≤ 198) : (c + 1#32).toNat = c.toNat + 1 := by
  rw [BitVec.toNat_add]
  simp only [BitVec.toNat_ofNat]
  omega

/-- A word at most 199 is the row it names. -/
theorem row_val (c : BitVec 32) (h : c.toNat ≤ 199) : (Cert.Spec.row c).val = c.toNat := by
  show c.toNat % 200 = c.toNat
  omega

section Corner
variable {α : Type}

/-- A gather whose triple at (b, n) is (b, c, d), with c and d at most 199, reads the array at (b, row c, row d). -/
theorem gather_corner (x : S512x200x200.Idx → α) (idx : IVec S512x8192x3 32) (b : Fin 512) (n : Fin 8192)
    (c d : BitVec 32) (hc : c.toNat ≤ 199) (hd : d.toNat ≤ 199)
    (h0 : idx (ix3 b n (0 : Fin 3)) = BitVec.ofNat 32 b.val) (h1 : idx (ix3 b n (1 : Fin 3)) = c)
    (h2 : idx (ix3 b n (2 : Fin 3)) = d) :
    Host.gather gd x idx (ix2 b n) = x (ix3 b (Cert.Spec.row c) (Cert.Spec.row d)) := by
  rw [gather_apply]
  congr 1
  have hb : (BitVec.ofNat 32 b.val).toNat = b.val := by
    rw [BitVec.toNat_ofNat]; have := b.isLt; omega
  funext a
  refine Fin.ext ?_
  match a with
  | ⟨0, _⟩ =>
    show min (idx (ix3 b n (0 : Fin 3))).toInt.toNat 511 = b.val
    rw [h0, clamp_small _ 511 (by rw [hb]; have := b.isLt; omega) (by omega), hb]
  | ⟨1, _⟩ =>
    show min (idx (ix3 b n (1 : Fin 3))).toInt.toNat 199 = (Cert.Spec.row c).val
    rw [h1, clamp_small _ 199 hc (by omega), row_val c hc]
  | ⟨2, _⟩ =>
    show min (idx (ix3 b n (2 : Fin 3))).toInt.toNat 199 = (Cert.Spec.row d).val
    rw [h2, clamp_small _ 199 hd (by omega), row_val d hd]

end Corner

end Cert.ReferenceIdeal.RefValue

end
-- ==== Proof.RefCoord.lean ====
/-
  One coordinate of the reference, and its out-of-range bit.

  Every operation from the clip to the offset inside the cell acts on the [512, 8192, 2] array of coordinates element by
  element, so at any index i the stages are the specification's scalar functions of the one coordinate u = x0 i:
  the clipped coordinate is pos u, the cell word is cell u, the offset inside the cell is frac u. The x and y columns
  of the cell words and of the offsets are slices of these arrays: at (b, n) they are the values at (b, n, 0) and
  (b, n, 1). The out-of-range bit of point (b, n) is the "or" over the two coordinates of "below lo or above hi": the
  specification's bit up to the order of the four comparisons.
-/
import proofs.«117773_j80032420594331_2_alg».proof.Proof.RefReadP
import proofs.«117773_j80032420594331_2_alg».proof.Proof.Spec
import proofs.«117773_j80032420594331_2_alg».proof.Proof.RefGather
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

variable (x0 : (⟨S512x8192x2, .f32⟩ : BufTy).Contents (Elt Ideal))

/-! ## One coordinate, at any index -/

/-- The clip is the specification's clipped coordinate. -/
theorem pos_at (i : S512x8192x2.Idx) : val_main_v6 (F := Ideal) x0 i = Cert.Spec.pos (x0 i) := by
  simp only [
    val_main_v6_apply, val_main_call0_v4_apply, val_main_call0_v3_apply, val_main_cst_2_apply,
    val_main_call0_v2_apply, val_main_call0_v1_apply, val_main_call0_v0_apply, val_main_cst_1_apply]
  rfl

/-- The converted floor is the specification's cell word. -/
theorem cell_at (i : S512x8192x2.Idx) : val_main_v14 (F := Ideal) x0 i = Cert.Spec.cell (x0 i) := by
  simp only [
    val_main_v14_apply, val_main_v13_apply, val_main_v12_apply, val_main_v10_apply, val_main_v8_apply,
    val_main_v7_apply, val_main_cst_3_apply, val_main_v9_apply, val_main_cst_4_apply, val_main_v11_apply,
    val_main_cst_5_apply, pos_at]
  rfl

/-- The offset inside the cell is the specification's. -/
theorem frac_at (i : S512x8192x2.Idx) : val_main_v24 (F := Ideal) x0 i = Cert.Spec.frac (x0 i) := by
  simp only [
    val_main_v24_apply, val_main_v22_apply, val_main_v21_apply, val_main_v19_apply, val_main_v17_apply,
    val_main_v15_apply, val_main_v16_apply, val_main_cst_6_apply, val_main_v18_apply, val_main_cst_7_apply,
    val_main_v20_apply, val_main_cst_8_apply, val_main_v23_apply, val_main_cst_9_apply, pos_at, cell_at]
  rfl

/-! ## The x and y columns at (b, n) -/

/-- Column 0 of the cell words, then the unit axis dropped: (b, n) reads (b, n, 0). -/
theorem idx_cellx (b : Fin 512) (n : Fin 8192) : idx_main_v28 (idx_main_v29 (ix2 b n)) = ix3 b n (0 : Fin 2) := by
  funext a; refine Fin.ext ?_
  have hb := b.isLt; have hn := n.isLt
  match a with
  | ⟨0, _⟩ => show (b.val * 8192 + n.val) / 8192 = b.val; omega
  | ⟨1, _⟩ => show (b.val * 8192 + n.val) / 1 % 8192 = n.val; omega
  | ⟨2, _⟩ => rfl

/-- Column 1 of the cell words: (b, n) reads (b, n, 1). -/
theorem idx_celly (b : Fin 512) (n : Fin 8192) : idx_main_v30 (idx_main_v31 (ix2 b n)) = ix3 b n (1 : Fin 2) := by
  funext a; refine Fin.ext ?_
  have hb := b.isLt; have hn := n.isLt
  match a with
  | ⟨0, _⟩ => show (b.val * 8192 + n.val) / 8192 = b.val; omega
  | ⟨1, _⟩ => show (b.val * 8192 + n.val) / 1 % 8192 = n.val; omega
  | ⟨2, _⟩ => rfl

/-- Column 0 of the offsets: (b, n) reads (b, n, 0). -/
theorem idx_fracx (b : Fin 512) (n : Fin 8192) : idx_main_v124 (idx_main_v125 (ix2 b n)) = ix3 b n (0 : Fin 2) := by
  funext a; refine Fin.ext ?_
  have hb := b.isLt; have hn := n.isLt
  match a with
  | ⟨0, _⟩ => show (b.val * 8192 + n.val) / 8192 = b.val; omega
  | ⟨1, _⟩ => show (b.val * 8192 + n.val) / 1 % 8192 = n.val; omega
  | ⟨2, _⟩ => rfl

/-- Column 1 of the offsets: (b, n) reads (b, n, 1). -/
theorem idx_fracy (b : Fin 512) (n : Fin 8192) : idx_main_v126 (idx_main_v127 (ix2 b n)) = ix3 b n (1 : Fin 2) := by
  funext a; refine Fin.ext ?_
  have hb := b.isLt; have hn := n.isLt
  match a with
  | ⟨0, _⟩ => show (b.val * 8192 + n.val) / 8192 = b.val; omega
  | ⟨1, _⟩ => show (b.val * 8192 + n.val) / 1 % 8192 = n.val; omega
  | ⟨2, _⟩ => rfl

/-- The x cell word of point (b, n). -/
theorem cellx_at (b : Fin 512) (n : Fin 8192) :
    val_main_v29 (F := Ideal) x0 (ix2 b n) = Cert.Spec.cell (x0 (ix3 b n (0 : Fin 2))) := by
  rw [val_main_v29_apply, val_main_v28_apply, cell_at, idx_cellx]

/-- The y cell word of point (b, n). -/
theorem celly_at (b : Fin 512) (n : Fin 8192) :
    val_main_v31 (F := Ideal) x0 (ix2 b n) = Cert.Spec.cell (x0 (ix3 b n (1 : Fin 2))) := by
  rw [val_main_v31_apply, val_main_v30_apply, cell_at, idx_celly]

/-- The x offset of point (b, n). -/
theorem fracx_at (b : Fin 512) (n : Fin 8192) :
    val_main_v125 (F := Ideal) x0 (ix2 b n) = Cert.Spec.frac (x0 (ix3 b n (0 : Fin 2))) := by
  rw [val_main_v125_apply, val_main_v124_apply, frac_at, idx_fracx]

/-- The y offset of point (b, n). -/
theorem fracy_at (b : Fin 512) (n : Fin 8192) :
    val_main_v127 (F := Ideal) x0 (ix2 b n) = Cert.Spec.frac (x0 (ix3 b n (1 : Fin 2))) := by
  rw [val_main_v127_apply, val_main_v126_apply, frac_at, idx_fracy]

/-! ## The out-of-range bit -/

/-- The "or" over the two coordinates of "below lo or above hi" is the specification's bit. -/
theorem outside_at (b : Fin 512) (n : Fin 8192) :
    val_main_v5 (F := Ideal) x0 (ix2 b n)
      = Cert.Spec.outside (x0 (ix3 b n (0 : Fin 2))) (x0 (ix3 b n (1 : Fin 2))) := by
  unfold val_main_v5
  rw [reduce_last_apply]
  simp only [
    val_main_v4_apply, val_main_v1_apply, val_main_v0_apply, val_main_cst_apply, val_main_v3_apply,
    val_main_v2_apply, val_main_cst_0_apply, val_main_c_apply]
  unfold Cert.Spec.outside
  simp only [IntOp.ori, BitVec.or_zero, BitVec.or_assoc]
  rfl

end Cert.ReferenceIdeal.RefValue

end
-- ==== Proof.CellBound.lean ====
/-
  The grid cell of ANY extended real is one of 0 … 198.

  The clipped coordinate pos u lies in [lo, hi] whatever u is, so (pos u − res/2 + 10) / res lies between
  (lo − res/2 + 10) / res > 0 and (hi − res/2 + 10) / res < 199: a comparison of explicit dyadic rationals, the
  exact values of the five f32 words.

  The five words, read as sign · (2²³ + fraction) · 2^(exponent − 150):
    hi      = 0x411E6666 = (2²³ + 1992294) · 2⁻²⁰ = 10380902 / 2²⁰      (9.89999961…)
    lo      = 0xC11E6666 = −hi
    halfRes = 0x3D4CCCCD = (2²³ + 5033165) · 2⁻²⁸ = 13421773 / 2²⁸      (0.05000000074…)
    res     = 0x3DCCCCCD = (2²³ + 5033165) · 2⁻²⁷ = 13421773 / 2²⁷      (0.10000000149…)
    ten     = 0x41200000 = (2²³ + 2097152) · 2⁻²⁰ = 10
  With p = pos u a real in [−hi, hi], the quotient q = (p − halfRes + 10) · (1 / res) satisfies 0 ≤ q < 199
  (its extremes are ≈ 0.5000038 and ≈ 198.4999932), so ⌊q⌋ is an integer k with 0 ≤ k ≤ 198; such a k is inside
  the signed 32-bit range, the conversion's clamp leaves it alone, and the word of k reads back as k, signed or
  unsigned.
-/
import proofs.«117773_j80032420594331_2_alg».proof.Proof.Spec

noncomputable section

namespace Cert.Spec

open Idealize.ShloMosaic

/-! ## The five words as exact dyadic rationals -/

theorem hi_eq : hi = ((10380902 / 1048576 : ℝ) : EReal) := by
  simp [hi, Ideal.ofBits, Ideal.ieee, -EReal.coe_mul]; norm_num

theorem lo_eq : lo = ((-(10380902 / 1048576) : ℝ) : EReal) := by
  simp [lo, Ideal.ofBits, Ideal.ieee, -EReal.coe_mul]; norm_num

theorem halfRes_eq : halfRes = ((13421773 / 268435456 : ℝ) : EReal) := by
  simp [halfRes, Ideal.ofBits, Ideal.ieee, -EReal.coe_mul]; norm_num

theorem res_eq : res = ((13421773 / 134217728 : ℝ) : EReal) := by
  simp [res, Ideal.ofBits, Ideal.ieee, -EReal.coe_mul]; norm_num

theorem ten_eq : ten = ((10 : ℝ) : EReal) := by
  simp [ten, Ideal.ofBits, Ideal.ieee, -EReal.coe_mul]; norm_num

/-! ## The clipped coordinate is a real in [lo, hi] -/

/-- The clipped coordinate is a real number between the exact values of lo and hi, for every extended real. -/
theorem pos_mem (u : EReal) :
    ∃ p : ℝ, pos u = (p : EReal) ∧ -(10380902 / 1048576 : ℝ) ≤ p ∧ p ≤ 10380902 / 1048576 := by
  have h1 : lo ≤ pos u :=
    le_min (by rw [lo_eq, hi_eq]; exact EReal.coe_le_coe_iff.2 (by norm_num)) (le_max_left _ _)
  have h2 : pos u ≤ hi := min_le_left _ _
  rw [lo_eq] at h1
  rw [hi_eq] at h2
  have hb : pos u ≠ ⊥ := fun h => by
    rw [h] at h1; exact absurd h1 (by simp)
  have ht : pos u ≠ ⊤ := fun h => by
    rw [h] at h2; exact absurd h2 (by simp)
  refine ⟨(pos u).toReal, (EReal.coe_toReal ht hb).symm, ?_, ?_⟩
  · rw [← EReal.coe_le_coe_iff, EReal.coe_toReal ht hb]; exact h1
  · rw [← EReal.coe_le_coe_iff, EReal.coe_toReal ht hb]; exact h2

/-! ## The cell -/

/-- The cell word is the 32-bit word of a natural number k ≤ 198. -/
theorem cell_eq (u : EReal) : ∃ k : ℕ, k ≤ 198 ∧ cell u = BitVec.ofNat 32 k := by
  obtain ⟨p, hp, h1, h2⟩ := pos_mem u
  have hq : Ideal.div (pos u - halfRes + ten) res
      = (((p - 13421773 / 268435456 + 10) * (1 / (13421773 / 134217728)) : ℝ) : EReal) := by
    rw [hp, halfRes_eq, ten_eq, res_eq, Ideal.div_coe (by norm_num), ← EReal.coe_sub, ← EReal.coe_add,
      ← EReal.coe_mul]
  set q : ℝ := (p - 13421773 / 268435456 + 10) * (1 / (13421773 / 134217728)) with hqd
  have hq0 : 0 ≤ q := by
    rw [hqd]; apply mul_nonneg <;> norm_num; linarith
  have hq1 : q < 199 := by
    rw [hqd]; norm_num; linarith
  have hf0 : 0 ≤ ⌊q⌋ := Int.floor_nonneg.2 hq0
  have hf1 : ⌊q⌋ < 199 := Int.floor_lt.2 (by exact_mod_cast hq1)
  obtain ⟨k, hk⟩ := Int.eq_ofNat_of_zero_le hf0
  refine ⟨k, by omega, ?_⟩
  rw [cell, hq, Ideal.liftRound_coe, Ideal.fptosi, Ideal.toIntClamped_coe, Int.floor_intCast, Int.ceil_intCast,
    ite_self, hk, min_eq_right (by norm_num; omega), max_eq_right (by norm_num), BitVec.ofInt_natCast]

/-- The cell word of any coordinate is at most 198 (and, being a natural number, at least 0). -/
theorem cell_le (u : EReal) : (cell u).toNat ≤ 198 := by
  obtain ⟨k, hk, h⟩ := cell_eq u
  rw [h, BitVec.toNat_ofNat, Nat.mod_eq_of_lt (by omega)]; exact hk

/-- The signed and the unsigned reading of a cell word agree. -/
theorem cell_toInt (u : EReal) : (cell u).toInt = ((cell u).toNat : ℤ) :=
  BitVec.toInt_eq_toNat_of_lt (by have := cell_le u; omega)

/-- Read as a signed integer, a cell word is not negative. -/
theorem cell_toInt_nonneg (u : EReal) : 0 ≤ (cell u).toInt := by
  rw [cell_toInt]; exact Int.natCast_nonneg _

/-- Read as a signed integer, a cell word is at most 198. -/
theorem cell_toInt_le (u : EReal) : (cell u).toInt ≤ 198 := by
  rw [cell_toInt]; exact_mod_cast cell_le u

end Cert.Spec

end
-- ==== Proof.RefCorners.lean ====
/-
  The four corners of the bilinear lookup.

  Each corner is a point gather of the grids [512, 200, 200] (the argument [512, 1, 200, 200] with its unit axis
  dropped) at a [512, 8192, 3] array of index triples (batch, row, column), the three columns put side by side. The
  batch column is 0 … 511 and the row and column words are the cell words, or the cell words plus one. Each column
  first passes the wrap of negative indices, select (w < 0) (w + size) w: none of these words is negative, because a
  cell word is at most 198, so the wrap changes nothing; and the gather's clamp into the axis changes nothing either,
  since both the cell word and its successor are at most 199. So the corners are the grid values at
  (cell x, cell y), (cell x + 1, cell y), (cell x, cell y + 1), (cell x + 1, cell y + 1) of the point's batch.
-/
import proofs.«117773_j80032420594331_2_alg».proof.Proof.RefReadP
import proofs.«117773_j80032420594331_2_alg».proof.Proof.Spec
import proofs.«117773_j80032420594331_2_alg».proof.Proof.CellBound
import proofs.«117773_j80032420594331_2_alg».proof.Proof.RefGather
import proofs.«117773_j80032420594331_2_alg».proof.Proof.RefCoord
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! ## The words that occur are small -/

theorem small_batch (b : Fin 512) : (BitVec.ofNat 32 b.val).toNat < 2147483648 := by
  rw [BitVec.toNat_ofNat]; have := b.isLt; omega

theorem small_cell (u : EReal) : (Cert.Spec.cell u).toNat < 2147483648 := by
  have := Cert.Spec.cell_le u; omega

theorem le_cell (u : EReal) : (Cert.Spec.cell u).toNat ≤ 199 := by
  have := Cert.Spec.cell_le u; omega

theorem le_cell_succ (u : EReal) : (Cert.Spec.cell u + 1#32).toNat ≤ 199 := by
  rw [toNat_succ_small _ (Cert.Spec.cell_le u)]; have := Cert.Spec.cell_le u; omega

theorem small_cell_succ (u : EReal) : (IntOp.addi (Cert.Spec.cell u) 1#32).toNat < 2147483648 := by
  have := le_cell_succ u
  show (Cert.Spec.cell u + 1#32).toNat < 2147483648
  omega

/-! ## The grids with the unit axis dropped -/

/-- The reshaped grids at (b, i, j) are the argument at (b, 0, i, j). -/
theorem grid_at (x1 : (⟨S512x1x200x200, .f32⟩ : BufTy).Contents (Elt Ideal)) (b : Fin 512) (i j : Fin 200) :
    val_main_v25 (F := Ideal) x1 (ix3 b i j) = x1 (ix4 b (0 : Fin 1) i j) := by
  rw [val_main_v25_apply]
  congr 1
  funext a; refine Fin.ext ?_
  have hb := b.isLt; have hi := i.isLt; have hj := j.isLt
  match a with
  | ⟨0, _⟩ => show ((b.val * 200 + i.val) * 200 + j.val) / 40000 = b.val; omega
  | ⟨1, _⟩ => rfl
  | ⟨2, _⟩ => show ((b.val * 200 + i.val) * 200 + j.val) / 200 % 200 = i.val; omega
  | ⟨3, _⟩ => show ((b.val * 200 + i.val) * 200 + j.val) % 200 = j.val; omega

variable (x0 : (⟨S512x8192x2, .f32⟩ : BufTy).Contents (Elt Ideal))

/-! ## The corner (cell x, cell y) -/

/-- The batch word of this triple is the batch, unchanged by the wrap. -/
theorem batch_v48 (b : Fin 512) (n : Fin 8192) :
    val_main_v48 (F := Ideal) (ix3 b n (0 : Fin 1)) = BitVec.ofNat 32 b.val := by
  simp only [
    val_main_v48_apply, val_main_v47_apply, val_main_v36_apply, val_main_v33_apply, val_main_v27_apply,
    val_main_v26_apply, val_main_v32_apply, val_main_c_10_apply, val_main_v35_apply, val_main_v34_apply,
    val_main_c_11_apply]
  exact wrap_small (BitVec.ofNat 32 b.val) 512#32 (small_batch b)

theorem idx_v49 (b : Fin 512) (n : Fin 8192) : idx_main_v49 (ix3 b n (0 : Fin 1)) = ix2 b n := by
  funext a
  match a with
  | ⟨0, _⟩ => rfl
  | ⟨1, _⟩ => rfl

/-- The row word of this triple: the x cell word, unchanged by the wrap. -/
theorem col_v49 (b : Fin 512) (n : Fin 8192) :
    val_main_v49 (F := Ideal) x0 (ix3 b n (0 : Fin 1)) = Cert.Spec.cell (x0 (ix3 b n (0 : Fin 2))) := by
  rw [val_main_v49_apply, idx_v49]
  simp only [
    val_main_v41_apply, val_main_v38_apply, val_main_v37_apply, val_main_c_12_apply, val_main_v40_apply,
    val_main_v39_apply, val_main_c_13_apply, cellx_at]
  exact wrap_small _ 200#32 (small_cell _)

theorem idx_v50 (b : Fin 512) (n : Fin 8192) : idx_main_v50 (ix3 b n (0 : Fin 1)) = ix2 b n := by
  funext a
  match a with
  | ⟨0, _⟩ => rfl
  | ⟨1, _⟩ => rfl

/-- The column word of this triple: the y cell word, unchanged by the wrap. -/
theorem col_v50 (b : Fin 512) (n : Fin 8192) :
    val_main_v50 (F := Ideal) x0 (ix3 b n (0 : Fin 1)) = Cert.Spec.cell (x0 (ix3 b n (1 : Fin 2))) := by
  rw [val_main_v50_apply, idx_v50]
  simp only [
    val_main_v46_apply, val_main_v43_apply, val_main_v42_apply, val_main_c_14_apply, val_main_v45_apply,
    val_main_v44_apply, val_main_c_15_apply, celly_at]
  exact wrap_small _ 200#32 (small_cell _)

/-- The gathered value at (b, n) is the grid of batch b at (cell x, cell y). -/
theorem corner_v52 (x1 : (⟨S512x1x200x200, .f32⟩ : BufTy).Contents (Elt Ideal)) (b : Fin 512) (n : Fin 8192) :
    val_main_v52 (F := Ideal) x0 x1 (ix2 b n)
      = x1 (ix4 b (0 : Fin 1) (Cert.Spec.row (Cert.Spec.cell (x0 (ix3 b n (0 : Fin 2))))) (Cert.Spec.row (Cert.Spec.cell (x0 (ix3 b n (1 : Fin 2)))))) := by
  obtain ⟨e0, e1, e2⟩ := concat3_apply (val_main_v48 (F := Ideal)) (val_main_v49 (F := Ideal) x0)
    (val_main_v50 (F := Ideal) x0) concatenates_S512x8192x1_S512x8192x1_S512x8192x1_S512x8192x3_d2 b n
  refine (gather_corner (val_main_v25 (F := Ideal) x1) (val_main_v51 (F := Ideal) x0) b n _ _
    (le_cell _) (le_cell _)
    (e0.trans (batch_v48 b n)) (e1.trans (col_v49 x0 b n)) (e2.trans (col_v50 x0 b n))).trans ?_
  exact grid_at x1 b _ _

/-! ## The corner (cell x + 1#32, cell y) -/

/-- The batch word of this triple is the batch, unchanged by the wrap. -/
theorem batch_v71 (b : Fin 512) (n : Fin 8192) :
    val_main_v71 (F := Ideal) (ix3 b n (0 : Fin 1)) = BitVec.ofNat 32 b.val := by
  simp only [
    val_main_v71_apply, val_main_v70_apply, val_main_v59_apply, val_main_v56_apply, val_main_v27_apply,
    val_main_v26_apply, val_main_v55_apply, val_main_c_17_apply, val_main_v58_apply, val_main_v57_apply,
    val_main_c_18_apply]
  exact wrap_small (BitVec.ofNat 32 b.val) 512#32 (small_batch b)

theorem idx_v72 (b : Fin 512) (n : Fin 8192) : idx_main_v72 (ix3 b n (0 : Fin 1)) = ix2 b n := by
  funext a
  match a with
  | ⟨0, _⟩ => rfl
  | ⟨1, _⟩ => rfl

/-- The row word of this triple: the x cell word plus one, unchanged by the wrap. -/
theorem col_v72 (b : Fin 512) (n : Fin 8192) :
    val_main_v72 (F := Ideal) x0 (ix3 b n (0 : Fin 1)) = Cert.Spec.cell (x0 (ix3 b n (0 : Fin 2))) + 1#32 := by
  rw [val_main_v72_apply, idx_v72]
  simp only [
    val_main_v64_apply, val_main_v61_apply, val_main_v54_apply, val_main_v53_apply, val_main_c_16_apply,
    val_main_v60_apply, val_main_c_19_apply, val_main_v63_apply, val_main_v62_apply, val_main_c_20_apply, cellx_at]
  exact wrap_small _ 200#32 (small_cell_succ _)

theorem idx_v73 (b : Fin 512) (n : Fin 8192) : idx_main_v73 (ix3 b n (0 : Fin 1)) = ix2 b n := by
  funext a
  match a with
  | ⟨0, _⟩ => rfl
  | ⟨1, _⟩ => rfl

/-- The column word of this triple: the y cell word, unchanged by the wrap. -/
theorem col_v73 (b : Fin 512) (n : Fin 8192) :
    val_main_v73 (F := Ideal) x0 (ix3 b n (0 : Fin 1)) = Cert.Spec.cell (x0 (ix3 b n (1 : Fin 2))) := by
  rw [val_main_v73_apply, idx_v73]
  simp only [
    val_main_v69_apply, val_main_v66_apply, val_main_v65_apply, val_main_c_21_apply, val_main_v68_apply,
    val_main_v67_apply, val_main_c_22_apply, celly_at]
  exact wrap_small _ 200#32 (small_cell _)

/-- The gathered value at (b, n) is the grid of batch b at (cell x + 1#32, cell y). -/
theorem corner_v75 (x1 : (⟨S512x1x200x200, .f32⟩ : BufTy).Contents (Elt Ideal)) (b : Fin 512) (n : Fin 8192) :
    val_main_v75 (F := Ideal) x0 x1 (ix2 b n)
      = x1 (ix4 b (0 : Fin 1) (Cert.Spec.row (Cert.Spec.cell (x0 (ix3 b n (0 : Fin 2))) + 1#32)) (Cert.Spec.row (Cert.Spec.cell (x0 (ix3 b n (1 : Fin 2)))))) := by
  obtain ⟨e0, e1, e2⟩ := concat3_apply (val_main_v71 (F := Ideal)) (val_main_v72 (F := Ideal) x0)
    (val_main_v73 (F := Ideal) x0) concatenates_S512x8192x1_S512x8192x1_S512x8192x1_S512x8192x3_d2 b n
  refine (gather_corner (val_main_v25 (F := Ideal) x1) (val_main_v74 (F := Ideal) x0) b n _ _
    (le_cell_succ _) (le_cell _)
    (e0.trans (batch_v71 b n)) (e1.trans (col_v72 x0 b n)) (e2.trans (col_v73 x0 b n))).trans ?_
  exact grid_at x1 b _ _

/-! ## The corner (cell x, cell y + 1#32) -/

/-- The batch word of this triple is the batch, unchanged by the wrap. -/
theorem batch_v94 (b : Fin 512) (n : Fin 8192) :
    val_main_v94 (F := Ideal) (ix3 b n (0 : Fin 1)) = BitVec.ofNat 32 b.val := by
  simp only [
    val_main_v94_apply, val_main_v93_apply, val_main_v82_apply, val_main_v79_apply, val_main_v27_apply,
    val_main_v26_apply, val_main_v78_apply, val_main_c_24_apply, val_main_v81_apply, val_main_v80_apply,
    val_main_c_25_apply]
  exact wrap_small (BitVec.ofNat 32 b.val) 512#32 (small_batch b)

theorem idx_v95 (b : Fin 512) (n : Fin 8192) : idx_main_v95 (ix3 b n (0 : Fin 1)) = ix2 b n := by
  funext a
  match a with
  | ⟨0, _⟩ => rfl
  | ⟨1, _⟩ => rfl

/-- The row word of this triple: the x cell word, unchanged by the wrap. -/
theorem col_v95 (b : Fin 512) (n : Fin 8192) :
    val_main_v95 (F := Ideal) x0 (ix3 b n (0 : Fin 1)) = Cert.Spec.cell (x0 (ix3 b n (0 : Fin 2))) := by
  rw [val_main_v95_apply, idx_v95]
  simp only [
    val_main_v87_apply, val_main_v84_apply, val_main_v83_apply, val_main_c_26_apply, val_main_v86_apply,
    val_main_v85_apply, val_main_c_27_apply, cellx_at]
  exact wrap_small _ 200#32 (small_cell _)

theorem idx_v96 (b : Fin 512) (n : Fin 8192) : idx_main_v96 (ix3 b n (0 : Fin 1)) = ix2 b n := by
  funext a
  match a with
  | ⟨0, _⟩ => rfl
  | ⟨1, _⟩ => rfl

/-- The column word of this triple: the y cell word plus one, unchanged by the wrap. -/
theorem col_v96 (b : Fin 512) (n : Fin 8192) :
    val_main_v96 (F := Ideal) x0 (ix3 b n (0 : Fin 1)) = Cert.Spec.cell (x0 (ix3 b n (1 : Fin 2))) + 1#32 := by
  rw [val_main_v96_apply, idx_v96]
  simp only [
    val_main_v92_apply, val_main_v89_apply, val_main_v77_apply, val_main_v76_apply, val_main_c_23_apply,
    val_main_v88_apply, val_main_c_28_apply, val_main_v91_apply, val_main_v90_apply, val_main_c_29_apply, celly_at]
  exact wrap_small _ 200#32 (small_cell_succ _)

/-- The gathered value at (b, n) is the grid of batch b at (cell x, cell y + 1#32). -/
theorem corner_v98 (x1 : (⟨S512x1x200x200, .f32⟩ : BufTy).Contents (Elt Ideal)) (b : Fin 512) (n : Fin 8192) :
    val_main_v98 (F := Ideal) x0 x1 (ix2 b n)
      = x1 (ix4 b (0 : Fin 1) (Cert.Spec.row (Cert.Spec.cell (x0 (ix3 b n (0 : Fin 2))))) (Cert.Spec.row (Cert.Spec.cell (x0 (ix3 b n (1 : Fin 2))) + 1#32))) := by
  obtain ⟨e0, e1, e2⟩ := concat3_apply (val_main_v94 (F := Ideal)) (val_main_v95 (F := Ideal) x0)
    (val_main_v96 (F := Ideal) x0) concatenates_S512x8192x1_S512x8192x1_S512x8192x1_S512x8192x3_d2 b n
  refine (gather_corner (val_main_v25 (F := Ideal) x1) (val_main_v97 (F := Ideal) x0) b n _ _
    (le_cell _) (le_cell_succ _)
    (e0.trans (batch_v94 b n)) (e1.trans (col_v95 x0 b n)) (e2.trans (col_v96 x0 b n))).trans ?_
  exact grid_at x1 b _ _

/-! ## The corner (cell x + 1#32, cell y + 1#32) -/

/-- The batch word of this triple is the batch, unchanged by the wrap. -/
theorem batch_v119 (b : Fin 512) (n : Fin 8192) :
    val_main_v119 (F := Ideal) (ix3 b n (0 : Fin 1)) = BitVec.ofNat 32 b.val := by
  simp only [
    val_main_v119_apply, val_main_v118_apply, val_main_v107_apply, val_main_v104_apply, val_main_v27_apply,
    val_main_v26_apply, val_main_v103_apply, val_main_c_32_apply, val_main_v106_apply, val_main_v105_apply,
    val_main_c_33_apply]
  exact wrap_small (BitVec.ofNat 32 b.val) 512#32 (small_batch b)

theorem idx_v120 (b : Fin 512) (n : Fin 8192) : idx_main_v120 (ix3 b n (0 : Fin 1)) = ix2 b n := by
  funext a
  match a with
  | ⟨0, _⟩ => rfl
  | ⟨1, _⟩ => rfl

/-- The row word of this triple: the x cell word plus one, unchanged by the wrap. -/
theorem col_v120 (b : Fin 512) (n : Fin 8192) :
    val_main_v120 (F := Ideal) x0 (ix3 b n (0 : Fin 1)) = Cert.Spec.cell (x0 (ix3 b n (0 : Fin 2))) + 1#32 := by
  rw [val_main_v120_apply, idx_v120]
  simp only [
    val_main_v112_apply, val_main_v109_apply, val_main_v100_apply, val_main_v99_apply, val_main_c_30_apply,
    val_main_v108_apply, val_main_c_34_apply, val_main_v111_apply, val_main_v110_apply, val_main_c_35_apply,
    cellx_at]
  exact wrap_small _ 200#32 (small_cell_succ _)

theorem idx_v121 (b : Fin 512) (n : Fin 8192) : idx_main_v121 (ix3 b n (0 : Fin 1)) = ix2 b n := by
  funext a
  match a with
  | ⟨0, _⟩ => rfl
  | ⟨1, _⟩ => rfl

/-- The column word of this triple: the y cell word plus one, unchanged by the wrap. -/
theorem col_v121 (b : Fin 512) (n : Fin 8192) :
    val_main_v121 (F := Ideal) x0 (ix3 b n (0 : Fin 1)) = Cert.Spec.cell (x0 (ix3 b n (1 : Fin 2))) + 1#32 := by
  rw [val_main_v121_apply, idx_v121]
  simp only [
    val_main_v117_apply, val_main_v114_apply, val_main_v102_apply, val_main_v101_apply, val_main_c_31_apply,
    val_main_v113_apply, val_main_c_36_apply, val_main_v116_apply, val_main_v115_apply, val_main_c_37_apply,
    celly_at]
  exact wrap_small _ 200#32 (small_cell_succ _)

/-- The gathered value at (b, n) is the grid of batch b at (cell x + 1#32, cell y + 1#32). -/
theorem corner_v123 (x1 : (⟨S512x1x200x200, .f32⟩ : BufTy).Contents (Elt Ideal)) (b : Fin 512) (n : Fin 8192) :
    val_main_v123 (F := Ideal) x0 x1 (ix2 b n)
      = x1 (ix4 b (0 : Fin 1) (Cert.Spec.row (Cert.Spec.cell (x0 (ix3 b n (0 : Fin 2))) + 1#32)) (Cert.Spec.row (Cert.Spec.cell (x0 (ix3 b n (1 : Fin 2))) + 1#32))) := by
  obtain ⟨e0, e1, e2⟩ := concat3_apply (val_main_v119 (F := Ideal)) (val_main_v120 (F := Ideal) x0)
    (val_main_v121 (F := Ideal) x0) concatenates_S512x8192x1_S512x8192x1_S512x8192x1_S512x8192x3_d2 b n
  refine (gather_corner (val_main_v25 (F := Ideal) x1) (val_main_v122 (F := Ideal) x0) b n _ _
    (le_cell_succ _) (le_cell_succ _)
    (e0.trans (batch_v119 b n)) (e1.trans (col_v120 x0 b n)) (e2.trans (col_v121 x0 b n))).trans ?_
  exact grid_at x1 b _ _

end Cert.ReferenceIdeal.RefValue

end
-- ==== Proof.RefPoint.lean ====
/-
  One point of the reference.

  At point (b, n) the interpolated distance is the specification's blend of the four gathered corners with the x and y
  offsets; the penalty is the specification's penalty of the out-of-range bit and that distance: the distance replaced
  by −1 where the bit is set, then 10·(0.3 − d), its positive part, squared. With the bit, the offsets and the corners
  read off the arguments this is the specification's P.
-/
import proofs.«117773_j80032420594331_2_alg».proof.Proof.RefReadP
import proofs.«117773_j80032420594331_2_alg».proof.Proof.Spec
import proofs.«117773_j80032420594331_2_alg».proof.Proof.RefGather
import proofs.«117773_j80032420594331_2_alg».proof.Proof.RefCoord
import proofs.«117773_j80032420594331_2_alg».proof.Proof.RefCorners
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

variable (x0 : (⟨S512x8192x2, .f32⟩ : BufTy).Contents (Elt Ideal))
  (x1 : (⟨S512x1x200x200, .f32⟩ : BufTy).Contents (Elt Ideal))

/-- The interpolated distance is the blend of the four gathered values with the two offsets. -/
theorem blend_at (i : S512x8192.Idx) :
    val_main_v142 (F := Ideal) x0 x1 i
      = Cert.Spec.blend (val_main_v125 (F := Ideal) x0 i) (val_main_v127 (F := Ideal) x0 i)
          (val_main_v52 (F := Ideal) x0 x1 i) (val_main_v75 (F := Ideal) x0 x1 i)
          (val_main_v98 (F := Ideal) x0 x1 i) (val_main_v123 (F := Ideal) x0 x1 i) := by
  simp only [
    val_main_v142_apply, val_main_v140_apply, val_main_v139_apply, val_main_v138_apply, val_main_cst_40_apply,
    val_main_v132_apply, val_main_v130_apply, val_main_v129_apply, val_main_v128_apply, val_main_cst_38_apply,
    val_main_v131_apply, val_main_v141_apply, val_main_v137_apply, val_main_v135_apply, val_main_v134_apply,
    val_main_v133_apply, val_main_cst_39_apply, val_main_v136_apply]
  generalize val_main_v125 (F := Ideal) x0 i = dx
  generalize val_main_v127 (F := Ideal) x0 i = dy
  generalize val_main_v52 (F := Ideal) x0 x1 i = v00
  generalize val_main_v75 (F := Ideal) x0 x1 i = v10
  generalize val_main_v98 (F := Ideal) x0 x1 i = v01
  generalize val_main_v123 (F := Ideal) x0 x1 i = v11
  rfl

/-- The squared positive part of 10·(0.3 − d), d the distance or −1, is the penalty of the bit and the distance. -/
theorem penalty_at (i : S512x8192.Idx) :
    val_main_v149 (F := Ideal) x0 x1 i
      = Cert.Spec.penalty (val_main_v5 (F := Ideal) x0 i) (val_main_v142 (F := Ideal) x0 x1 i) := by
  rw [
    val_main_v149_apply, val_main_v148_apply, val_main_v147_apply, val_main_v146_apply, val_main_cst_43_apply,
    val_main_v145_apply, val_main_v144_apply, val_main_cst_42_apply, val_main_v143_apply, val_main_call1_v1_apply,
    val_main_call1_v0_apply, val_main_cst_41_apply, val_main_call2_v0_apply, val_main_call2_cst_apply]
  generalize val_main_v5 (F := Ideal) x0 i = o
  generalize val_main_v142 (F := Ideal) x0 x1 i = v
  rfl

/-- The penalty of point (b, n) is the specification's. -/
theorem point_at (b : Fin 512) (n : Fin 8192) :
    val_main_v149 (F := Ideal) x0 x1 (ix2 b n) = Cert.Spec.P x0 x1 b n := by
  rw [penalty_at, blend_at, outside_at, fracx_at, fracy_at, corner_v52, corner_v75, corner_v98, corner_v123]
  unfold Cert.Spec.P Cert.Spec.point
  rfl

end Cert.ReferenceIdeal.RefValue

end
-- ==== Proof.RefValue.lean ====
/-
  The reference computes the specification.

  The result is the sum of the penalties of all 512 × 8192 points from the initial value 0, divided by 2²². Each
  penalty is the specification's P, and the sum over every index of a rank-2 array is the double sum over its two
  coordinates: the specification's G.
-/
import proofs.«117773_j80032420594331_2_alg».proof.Proof.RefReadP
import proofs.«117773_j80032420594331_2_alg».proof.Proof.Spec
import proofs.«117773_j80032420594331_2_alg».proof.Proof.RefGather
import proofs.«117773_j80032420594331_2_alg».proof.Proof.RefCoord
import proofs.«117773_j80032420594331_2_alg».proof.Proof.RefCorners
import proofs.«117773_j80032420594331_2_alg».proof.Proof.RefPoint
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-- THE REFERENCE IS THE SPECIFICATION. -/
theorem ref_eq (x0 : (⟨Cert.ReferenceIdeal.S512x8192x2, .f32⟩ : BufTy).Contents (Elt Ideal))
    (x1 : (⟨Cert.ReferenceIdeal.S512x1x200x200, .f32⟩ : BufTy).Contents (Elt Ideal)) :
    Cert.ReferenceIdeal.ReadP.val_main_v151 (F := Ideal) x0 x1 = Cert.Spec.G x0 x1 := by
  funext i
  rw [val_main_v151_apply, val_main_v150_apply, val_main_cst_45_apply, val_main_cst_44_apply, sum_idx2]
  simp only [point_at]
  unfold Cert.Spec.G Cert.Spec.rowSum Cert.Spec.zero Cert.Spec.count
  rfl

end Cert.ReferenceIdeal.RefValue

end
-- ==== Proof.KernelStepDef.lean ====
/-
  What one grid point of the kernel leaves in its accumulator, as ONE pure term of the three blocks it loads.

  At every grid point the body loads the grid block x0 (8 batches × 200 × 200), the x block x1 and the y block x2
  (8 batches × 512 points each), computes the 8 × 512 penalties, sums each batch's 512 penalties, and adds the 8 sums
  to the 8 × 1 accumulator. `step x0 x1 x2 acc` is that new accumulator, written over the body's own named values
  (the generated skeleton's payload terms), so that the stored pieces the frame run found can be stated against it.
-/
import proofs.«117773_j80032420594331_2_alg».proof.Proof.Gen.KernelIdeal.Skeleton

set_option synthInstance.maxSize 4096

noncomputable section

namespace Cert.KernelIdeal.KValue

open Idealize.ShloMosaic Idealize.SL.Sem Cert.KernelIdeal Cert.KernelIdeal.Gen

variable {F : FTy → Type} [FloatOps F]

/-- The 8 × 512 block of values 0.3 − d, d the interpolated distance (or −1 outside the range), of the points of one
    grid step: the body's arithmetic on the three loaded blocks. -/
def margin (x0 : Vec F S8x200x200 .bf16) (x1 x2 : Vec F S8x512 .f32) : FVec F S8x512 .f32 :=
  k0_pay17 (k0_pay5 x1 x2) (k0_pay11 (k0_pay9 x2)) (k0_pay12 (k0_pay8 x1)) (k0_pay13 (k0_pay9 x2))
    (k0_pay14 (k0_pay6 x1) (k0_pay8 x1)) (k0_pay15 (k0_pay7 x2) (k0_pay9 x2))
    (iota .tc S8x512x200 32 [2] iota_S8x512x200_d2_w32) (k0_pay16 (k0_pay8 x1)) x0

/-- The accumulator after one grid step that found it at `acc`: acc plus, per batch, the sum of the step's penalties. -/
def step (x0 : Vec F S8x200x200 .bf16) (x1 x2 : Vec F S8x512 .f32) (acc : Vec F S8x1 .f32) : FVec F S8x1 .f32 :=
  k0_pay1 (margin x0 x1 x2) k0_pay18 acc

end Cert.KernelIdeal.KValue

end
-- ==== Proof.KernelStep.lean ====
/-
  What the kernel's stores leave in its accumulator and in its output block, case by case.

  The body has three cases by the position l of the grid point in its group of 16: at l = 0 it first stores the zero
  block into the accumulator; at every point it adds the point's 8 row sums to the accumulator; at l = 15 it then copies
  the accumulator into the output block. The frame run found, per case, the list of stored pieces; read back, each is the
  one term `step` of the three loaded blocks: over the zero block at l = 0, over what the point before left otherwise —
  and the output block at l = 15 is the same term, since it is a read-back of the accumulator's store.
-/
import proofs.«117773_j80032420594331_2_alg».proof.Proof.Gen.KernelIdeal.Frame
import proofs.«117773_j80032420594331_2_alg».proof.Proof.KernelStepDef
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point (0 < l < 15): the accumulator found at `xs0` ends at `step` over it. -/
theorem sout_B (c : Dev nD) (i : grid0.Coords) (arg2 : Memref sig .tc .vmem S8x200x200 .bf16) (harg2 : arg2.IsWhole) (arg3 : Memref sig .tc .vmem S8x512 .f32) (harg3 : arg3.IsWhole) (arg4 : Memref sig .tc .vmem S8x512 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : ¬cond0_1 i) (x0 : Vec F S8x200x200 .bf16) (x1 : Vec F S8x512 .f32) (x2 : Vec F S8x512 .f32) (xs0 : Vec F S8x1 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S8x512) hz2, View.ld_unit_zero (S := S8x200x200) hz3, View.ld_unit_zero (S := S8x1) hz2]
  rfl

/-- The first point of a group (l = 0): the zero block is stored, read back, and the accumulator ends at `step` over it. -/
theorem sout_A (c : Dev nD) (i : grid0.Coords) (arg2 : Memref sig .tc .vmem S8x200x200 .bf16) (harg2 : arg2.IsWhole) (arg3 : Memref sig .tc .vmem S8x512 .f32) (harg3 : arg3.IsWhole) (arg4 : Memref sig .tc .vmem S8x512 .f32) (harg4 : arg4.IsWhole) (arg5 : Memref sig .tc .vmem S8x1 .f32) (harg5 : arg5.IsWhole) (arg6 : Memref sig .tc .vmem S8x1 .f32) (harg6 : arg6.IsWhole) (hc0 : cond0_0 i) (hc1 : ¬cond0_1 i) (x0 : Vec F S8x200x200 .bf16) (x1 : Vec F S8x512 .f32) (x2 : Vec F S8x512 .f32) :
    sout0_A_0 c i arg2 harg2 arg3 harg3 arg4 harg4 arg5 harg5 arg6 harg6 hc0 hc1 x0 x1 x2 = step x0 x1 x2 k0_pay2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg4.read_unread, harg6.read_unread,
    View.ld_unit_zero (S := S8x512) hz2, View.ld_unit_zero (S := S8x200x200) hz3, View.ld_unit_zero (S := S8x1) hz2]
  rfl

/-- The last point of a group (l = 15): the accumulator ends at `step` over what it held … -/
theorem sout_C (c : Dev nD) (i : grid0.Coords) (arg2 : Memref sig .tc .vmem S8x200x200 .bf16) (harg2 : arg2.IsWhole) (arg3 : Memref sig .tc .vmem S8x512 .f32) (harg3 : arg3.IsWhole) (arg4 : Memref sig .tc .vmem S8x512 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : cond0_1 i) (x0 : Vec F S8x200x200 .bf16) (x1 : Vec F S8x512 .f32) (x2 : Vec F S8x512 .f32) (xs0 : Vec F S8x1 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S8x512) hz2, View.ld_unit_zero (S := S8x200x200) hz3, View.ld_unit_zero (S := S8x1) hz2]
  rfl

/-- … and the output block, a read-back of that store, holds the same. -/
theorem out_C (c : Dev nD) (i : grid0.Coords) (arg2 : Memref sig .tc .vmem S8x200x200 .bf16) (harg2 : arg2.IsWhole) (arg3 : Memref sig .tc .vmem S8x512 .f32) (harg3 : arg3.IsWhole) (arg4 : Memref sig .tc .vmem S8x512 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : cond0_1 i) (x0 : Vec F S8x200x200 .bf16) (x1 : Vec F S8x512 .f32) (x2 : Vec F S8x512 .f32) (xs0 : Vec F S8x1 .f32) :
    out0_C_3 c i arg2 harg2 arg3 harg3 arg4 harg4 arg5 harg5 arg6 harg6 hc0 hc1 x0 x1 x2 xs0 = step x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S8x1) _ hz2]
  simp only [View.readAt_eq_ld, harg2.read_unread, harg3.read_unread, harg4.read_unread, harg6.read_unread,
    View.ld_unit_zero (S := S8x512) hz2, View.ld_unit_zero (S := S8x200x200) hz3, View.ld_unit_zero (S := S8x1) hz2]
  rfl

end Cert.KernelIdeal.KValue

end
-- ==== Proof.KernelAccum.lean ====
/-
  The accumulator point by point.

  After the first point of a group of 16 the accumulator is `step` of that point's blocks over the zero block; after
  every other point it is `step` of the point's blocks over what the point before left; and after the last point of a
  group the output block holds what the accumulator holds.
-/
import proofs.«117773_j80032420594331_2_alg».proof.Proof.KernelStep

set_option maxRecDepth 16384

noncomputable section

namespace Cert.KernelIdeal.KValue

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- After the first point of a group: one step over the zero block. -/
theorem scr_first (c : Dev nD) (t : Fin cfg0.N) (h0 : t.val % 16 = 0) :
    (outsAt0 m c t.val t.isLt).2 = step (iblk m c 0 t) (iblk m c 1 t) (iblk m c 2 t) k0_pay2 := by
  have h1 : ¬t.val % 16 = 15 := by omega
  rw [outsAt0_A m c t h0 h1]
  exact sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After any other point: one step over what the point before left. -/
theorem scr_next (c : Dev nD) (t : Fin cfg0.N) (h0 : ¬t.val % 16 = 0) :
    (outsAt0 m c t.val t.isLt).2
      = step (iblk m c 0 t) (iblk m c 1 t) (iblk m c 2 t) (outsAt0 m c (t.val - 1) (Nat.lt_of_le_of_lt (Nat.sub_le _ _) t.isLt)).2 := by
  by_cases h1 : t.val % 16 = 15
  · rw [outsAt0_C m c t h0 h1]
    exact sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _
  · rw [outsAt0_B m c t h0 h1]
    exact sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) _

/-- After the last point of a group the output block holds what the accumulator holds. -/
theorem out_last (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  exact (out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _).trans
    (sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _).symm

end Cert.KernelIdeal.KValue

end
-- ==== Proof.KernelForm.lean ====
/-
  The penalty of a point in the form the kernel computes it, and that it is `Spec.point`.

  The kernel clamps the cell word into 0 … 199 and takes min(cell + 1, 199) as the next cell; it reads a grid row by
  a 0/1-weighted sum over all 200 rows (a one-hot row times the grid), blends the two rows with dx FIRST, and then
  takes ONE weighted sum over the 200 columns, the weight of column w being (1 − dy) if w is the cell of y, plus dy if
  w is the next cell. Since the cell is at most 198 (`cell_le`) the clamps change nothing, the next cell is cell + 1 ≠
  cell, each one-hot sum is the single row it selects, and the column sum has exactly two nonzero terms: the four-corner
  blend, with its products commuted. Only x·0 = 0, 1·x = x, x + 0 = x and commutativity are used, all of which hold on
  the extended reals without any finiteness.
-/
import proofs.«117773_j80032420594331_2_alg».proof.Proof.Spec
import proofs.«117773_j80032420594331_2_alg».proof.Proof.CellBound

noncomputable section

namespace Cert.Spec

open Idealize.ShloMosaic

/-- Column (or row) w as the word the kernel's iota holds there. -/
def lane (w : Fin 200) : BitVec 32 := BitVec.ofNat 32 w.val

/-- The cell word clamped into 0 … 199. -/
def clampCell (c : BitVec 32) : BitVec 32 := IntOp.minsi 199#32 (IntOp.maxsi 0#32 c)

/-- The next cell, kept at most 199. -/
def nextCell (c : BitVec 32) : BitVec 32 := IntOp.minsi (IntOp.addi (clampCell c) 1#32) 199#32

/-- The offset inside the cell, computed from the clamped cell word. -/
def kfrac (u : EReal) : EReal :=
  Ideal.div (pos u - (((((clampCell (cell u)).toInt : ℝ) : EReal) + half) * res - ten)) res

/-- The one-hot weight of row h for the cell word k: 1 if h is k, else 0. -/
def onehot (h : Fin 200) (k : BitVec 32) : EReal :=
  ((((IntOp.cmpi .eq (lane h) k).setWidth 32).toInt : ℝ) : EReal)

/-- Row k of the grid, as the one-hot weighted sum of all rows, at column w. -/
def krow (E : Fin 200 → Fin 200 → EReal) (k : BitVec 32) (w : Fin 200) : EReal := ∑ h : Fin 200, onehot h k * E h w

/-- The weight of column w: (1 − d) at the cell k, plus d at the next cell k1. -/
def kweight (w : Fin 200) (k k1 : BitVec 32) (d : EReal) : EReal :=
  Scalar.select (IntOp.cmpi .eq (lane w) k) (one - d) zero + Scalar.select (IntOp.cmpi .eq (lane w) k1) d zero

/-- The interpolated distance as the kernel sums it. -/
def kvalue (x y : EReal) (E : Fin 200 → Fin 200 → EReal) : EReal :=
  ∑ w : Fin 200, ((one - kfrac x) * krow E (clampCell (cell x)) w + kfrac x * krow E (nextCell (cell x)) w)
    * kweight w (clampCell (cell y)) (nextCell (cell y)) (kfrac y)

/-- The penalty of a point as the kernel computes it. -/
def kpoint (x y : EReal) (E : Fin 200 → Fin 200 → EReal) : EReal := penalty (outside x y) (kvalue x y E)

/-! ## Words at most 198: the clamps change nothing -/

/-- A word of value at most 199 has that value as a signed integer. -/
theorem toInt_of_le (c : BitVec 32) (h : c.toNat ≤ 199) : c.toInt = (c.toNat : ℤ) := by
  rw [BitVec.toInt_eq_toNat_cond]
  split <;> omega

/-- A word at most 198 is unchanged by the clamp into 0 … 199. -/
theorem clampCell_eq (c : BitVec 32) (h : c.toNat ≤ 198) : clampCell c = c := by
  have hc := toInt_of_le c (by omega)
  have h0 : (0#32 : BitVec 32).toInt = 0 := by decide
  have h199 : (199#32 : BitVec 32).toInt = 199 := by decide
  unfold clampCell IntOp.minsi IntOp.maxsi
  have h1 : c.slt 0#32 = false := by
    simp only [BitVec.slt, h0, hc, decide_eq_false_iff_not]; omega
  rw [h1]
  have h2 : (199#32 : BitVec 32).slt c = false := by
    simp only [BitVec.slt, h199, hc, decide_eq_false_iff_not]; omega
  simp [h2]

/-- For a word at most 198 the next cell is the word plus one. -/
theorem nextCell_eq (c : BitVec 32) (h : c.toNat ≤ 198) : nextCell c = c + 1#32 := by
  have hs : (c + 1#32).toNat = c.toNat + 1 := by
    rw [BitVec.toNat_add]; simp; omega
  have hc := toInt_of_le (c + 1#32) (by omega)
  have h199 : (199#32 : BitVec 32).toInt = 199 := by decide
  unfold nextCell IntOp.minsi IntOp.addi
  rw [clampCell_eq c h]
  by_cases hlt : c.toNat + 1 < 199
  · have : (c + 1#32).slt 199#32 = true := by
      simp only [BitVec.slt, h199, hc, hs, decide_eq_true_eq]; omega
    simp [this]
  · have : (c + 1#32).slt 199#32 = false := by
      simp only [BitVec.slt, h199, hc, hs, decide_eq_false_iff_not]; omega
    simp only [this]
    apply BitVec.eq_of_toNat_eq
    rw [hs]; simp; omega

/-- The kernel's offset inside the cell is the specification's. -/
theorem kfrac_eq (u : EReal) : kfrac u = frac u := by
  unfold kfrac frac
  rw [clampCell_eq (cell u) (cell_le u)]

/-! ## The one-hot row and the column weight -/

/-- The word of a row is the word k exactly when the row is row k, for k one of 0 … 199. -/
theorem lane_eq_iff (h : Fin 200) (k : BitVec 32) (hk : k.toNat < 200) : lane h = k ↔ h = row k := by
  have hl : (lane h).toNat = h.val := by
    unfold lane; rw [BitVec.toNat_ofNat]; have := h.isLt; omega
  constructor
  · intro e
    have : k.toNat = h.val := by rw [← e, hl]
    apply Fin.ext
    show h.val = k.toNat % 200
    omega
  · intro e
    apply BitVec.eq_of_toNat_eq
    rw [hl, e]
    show k.toNat % 200 = k.toNat
    omega

/-- A selection on the equality of two words is a selection on the proposition. -/
theorem select_cmpi_eq (a b : BitVec 32) (p q : EReal) :
    Scalar.select (IntOp.cmpi .eq a b) p q = if a = b then p else q := by
  unfold Scalar.select IntOp.cmpi
  by_cases e : a = b
  · simp [e]
  · have hb : (a == b) = false := by simpa using e
    simp [hb, e]

/-- The one-hot weight is 1 on its row and 0 elsewhere. -/
theorem onehot_eq (h : Fin 200) (k : BitVec 32) : onehot h k = if lane h = k then 1 else 0 := by
  unfold onehot IntOp.cmpi
  by_cases e : lane h = k
  · simp [e]
  · have hb : (lane h == k) = false := by simpa using e
    simp [hb, e]

/-- The one-hot weighted sum of all rows is the row selected. -/
theorem krow_eq (E : Fin 200 → Fin 200 → EReal) (k : BitVec 32) (hk : k.toNat < 200) (w : Fin 200) :
    krow E k w = E (row k) w := by
  unfold krow
  rw [Finset.sum_eq_single (row k)]
  · rw [onehot_eq, if_pos ((lane_eq_iff _ k hk).mpr rfl), one_mul]
  · intro h _ hne
    rw [onehot_eq, if_neg (fun e => hne ((lane_eq_iff h k hk).mp e)), zero_mul]
  · intro hn; exact absurd (Finset.mem_univ _) hn

/-- The weight of a column: (1 − d) at row k, d at row k1, nothing elsewhere. -/
theorem kweight_eq (w : Fin 200) (k k1 : BitVec 32) (hk : k.toNat < 200) (hk1 : k1.toNat < 200) (d : EReal) :
    kweight w k k1 d = (if w = row k then one - d else 0) + (if w = row k1 then d else 0) := by
  unfold kweight
  rw [select_cmpi_eq, select_cmpi_eq]
  have hz : zero = 0 := Ideal.ofBits_zero_f32
  rw [hz]
  simp only [lane_eq_iff w k hk, lane_eq_iff w k1 hk1]

/-! ## The column sum has two terms -/

/-- The rows of a word at most 198 and of its successor differ. -/
theorem row_ne_succ (c : BitVec 32) (h : c.toNat ≤ 198) : row c ≠ row (c + 1#32) := by
  have hs : (c + 1#32).toNat = c.toNat + 1 := by
    rw [BitVec.toNat_add]; simp; omega
  intro e
  have := congrArg Fin.val e
  simp only [row, hs] at this
  omega

/-- A sum weighted by a at one column and b at another is the two weighted terms. -/
theorem sum_two (A : Fin 200 → EReal) (r0 r1 : Fin 200) (hne : r0 ≠ r1) (a b : EReal) :
    (∑ w : Fin 200, A w * ((if w = r0 then a else 0) + (if w = r1 then b else 0))) = a * A r0 + b * A r1 := by
  rw [Fintype.sum_eq_add r0 r1 hne]
  · rw [if_pos rfl, if_neg hne, if_neg (Ne.symm hne), if_pos rfl, add_zero, zero_add, mul_comm (A r0), mul_comm (A r1)]
  · intro w hw
    rw [if_neg hw.1, if_neg hw.2, add_zero, mul_zero]

/-- The kernel's interpolated distance is the four-corner blend. -/
theorem kvalue_eq (x y : EReal) (E : Fin 200 → Fin 200 → EReal) :
    kvalue x y E = blend (frac x) (frac y)
      (E (row (cell x)) (row (cell y))) (E (row (cell x + 1#32)) (row (cell y)))
      (E (row (cell x)) (row (cell y + 1#32))) (E (row (cell x + 1#32)) (row (cell y + 1#32))) := by
  have hx := cell_le x
  have hy := cell_le y
  have hx1 : (cell x + 1#32).toNat < 200 := by
    rw [BitVec.toNat_add]; simp; omega
  have hy1 : (cell y + 1#32).toNat < 200 := by
    rw [BitVec.toNat_add]; simp; omega
  unfold kvalue blend
  rw [kfrac_eq, kfrac_eq, clampCell_eq _ hx, clampCell_eq _ hy, nextCell_eq _ hx, nextCell_eq _ hy]
  simp only [krow_eq E (cell x) (by omega), krow_eq E (cell x + 1#32) hx1,
    kweight_eq _ (cell y) (cell y + 1#32) (by omega) hy1]
  exact sum_two (fun w => (one - frac x) * E (row (cell x)) w + frac x * E (row (cell x + 1#32)) w)
    (row (cell y)) (row (cell y + 1#32)) (row_ne_succ _ hy) (one - frac y) (frac y)

/-- The kernel's form of a point's penalty is the specification's. -/
theorem kpoint_eq (x y : EReal) (E : Fin 200 → Fin 200 → EReal) : kpoint x y E = point x y E := by
  unfold kpoint point
  rw [kvalue_eq]

end Cert.Spec

end
-- ==== Proof.LibBatchLayout.lean ====
/-
  Blocks with a leading batch axis, read at coordinates, at the extended reals.

  * A matrix [a, b] kept as [a, b, 1] and broadcast along c lanes reads, at (i, j, k), the matrix at (i, j); kept as
    [a, 1, c] (a matrix [a, c]) and broadcast along b rows it reads, at (i, j, k), the matrix at (i, k).
  * A reduction of a block [a, b, c] along its last axis, read at (i, j): by the sum from zero it is the sum over k of the
    block at (i, j, k); by the maximum from −∞ it is the supremum over k of the block at (i, j, k).
  * The supremum of a family of real numbers, taken in the extended reals, is the real supremum; likewise a finite sum.
  * A stack of matrix products on the matrix unit, into the zero accumulator, read at (b, r, j): with both operands
    contracted on their last axis, the sum over d of A(b, r, d) · C(b, j, d); with the right operand contracted on its
    middle axis, the sum over j of A(b, r, j) · C(b, j, d).
  * The logit (2 s − x − y) / 13 of the attention programs: its two float constants, its reading on real numbers, and the
    score of a query row and a key row inside a pair of blocks.
-/
import Idealize.ShloMosaic.Lib.Pipeline.Value
import Idealize.ShloMosaic.Lib.ValueIdx
import Idealize.ShloMosaic.PureOps.Ideal.Laws

noncomputable section

namespace Cert.LibBatchLayout

open Idealize.ShloMosaic Idealize.ShloMosaic.ValueIdx

section Layout
variable {α : Type}

/-- A matrix [a, b] cast to [a, b, 1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- A matrix [a, c] cast to [a, 1, c] reads, at (i, u, k), the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- A block [a, b, 1] broadcast along c lanes reads, at (i, j, k), the block at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A block [a, 1, c] broadcast along b rows reads, at (i, j, k), the block at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- So a matrix [a, b] kept as [a, b, 1] and broadcast along c lanes reads, at (i, j, k), the matrix at (i, j). -/
theorem keepLast_apply {a b c : ℕ} (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h₁) h₂ (ix3 i j k) = x (ix2 i j) :=
  (broadcastTo_ab1_abc_apply _ h₂ i j k).trans (shapeCast_ab_ab1_apply x h₁ i j 0)

/-- And a matrix [a, c] kept as [a, 1, c] and broadcast along b rows reads, at (i, j, k), the matrix at (i, k). -/
theorem keepMid_apply {a b c : ℕ} (x : (⟨2, ![a, c]⟩ : Shape).Idx → α)
    (h₁ : (⟨2, ![a, c]⟩ : Shape).ShapeCasts ⟨3, ![a, 1, c]⟩)
    (h₂ : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ x h₁) h₂ (ix3 i j k) = x (ix2 i k) :=
  (broadcastTo_a1c_abc_apply _ h₂ i j k).trans (shapeCast_ac_a1c_apply x h₁ i 0 k)

end Layout

section Reductions
variable {a b c : ℕ}

/-- Row (i, j) of a block [a, b, c] with the last coordinate k inserted is the index (i, j, k). -/
theorem lift_last (h : (⟨3, ![a, b, c]⟩ : Shape).Reduces [2] ⟨2, ![a, b]⟩) (i : Fin a) (j : Fin b) (k : Fin c) :
    h.lift (ix2 i j) k = ix3 i j k := by
  funext ax; apply Fin.ext
  match ax with
  | ⟨0, _⟩ => rfl
  | ⟨1, _⟩ => rfl
  | ⟨2, _⟩ => rfl

/-- The sum from zero of a block [a, b, c] along its last axis, at (i, j), is the sum over k of the block at (i, j, k). -/
theorem lastSum_apply (P : FVec Ideal ⟨3, ![a, b, c]⟩ .f32) (h : (⟨3, ![a, b, c]⟩ : Shape).Reduces [2] ⟨2, ![a, b]⟩)
    (hφ : FKind.Formats .f32) (hacc : (0x00000000#32 : BitVec 32) = FKind.add.neutral .f32 hφ) (i : Fin a) (j : Fin b) :
    multiReduction .add [2] ⟨2, ![a, b]⟩ P 0x00000000#32 h hφ hacc (ix2 i j) = ∑ k : Fin c, P (ix3 i j k) := by
  rw [Ideal.multiReduction_add_single]
  exact Finset.sum_congr rfl fun k _ => congrArg P (lift_last h i j k)

/-- The word 0xFF800000 read as a float is −∞. -/
theorem ofBits_neg_inf : Ideal.ofBits .f32 0xFF800000#32 = ⊥ := by simp [Ideal.ofBits, Ideal.ieee]

/-- A fold of the maximum from −∞ over a finite set is the set's supremum. -/
theorem fold_max_bot_eq_sup {ι : Type} (s : Finset ι) (f : ι → EReal) : s.fold max ⊥ f = s.sup f := by
  classical
  induction s using Finset.induction_on with
  | empty => simp
  | insert x s hx ih => rw [Finset.fold_insert hx, Finset.sup_insert, ih]

/-- The maximum from −∞ of a block [a, b, c] along its last axis, at (i, j), is the supremum over k of the block at
    (i, j, k). -/
theorem lastMax_apply (S : FVec Ideal ⟨3, ![a, b, c]⟩ .f32) (h : (⟨3, ![a, b, c]⟩ : Shape).Reduces [2] ⟨2, ![a, b]⟩)
    (hφ : FKind.Formats .f32) (hacc : (0xFF800000#32 : BitVec 32) = FKind.maximumf.neutral .f32 hφ) (i : Fin a) (j : Fin b) :
    multiReduction .maximumf [2] ⟨2, ![a, b]⟩ S 0xFF800000#32 h hφ hacc (ix2 i j)
      = (Finset.univ : Finset (Fin c)).sup fun k => S (ix3 i j k) := by
  rw [Ideal.multiReduction_maximumf_single]
  show (Finset.univ : Finset (Fin c)).fold max (Ideal.ofBits .f32 0xFF800000#32) (fun k : Fin c => S (h.lift (ix2 i j) k)) = _
  rw [ofBits_neg_inf]
  refine (fold_max_bot_eq_sup (Finset.univ : Finset (Fin c)) (fun k : Fin c => S (h.lift (ix2 i j) k))).trans ?_
  exact congrArg (fun f : Fin c → EReal => (Finset.univ : Finset (Fin c)).sup f)
    (funext fun k => congrArg S (lift_last h i j k))

end Reductions

section Reals

/-- The supremum of a nonempty finite family of real numbers, taken in the extended reals, is the real supremum. -/
theorem sup_coe_eq_coe_sup' {n : ℕ} [NeZero n] (g : Fin n → ℝ) :
    ((Finset.univ : Finset (Fin n)).sup fun k => ((g k : ℝ) : EReal))
      = ((Finset.univ.sup' Finset.univ_nonempty g : ℝ) : EReal) := by
  rw [← Finset.sup'_eq_sup Finset.univ_nonempty]
  exact (Finset.apply_sup'_eq_sup'_comp Finset.univ_nonempty (fun x : ℝ => (x : EReal))
    (fun x y => Monotone.map_sup EReal.coe_strictMono.monotone x y)).symm

/-- A finite sum of real numbers, taken in the extended reals, is the real sum. -/
theorem sum_coe {ι : Type} (s : Finset ι) (g : ι → ℝ) : (∑ k ∈ s, ((g k : ℝ) : EReal)) = ((∑ k ∈ s, g k : ℝ) : EReal) := by
  classical
  induction s using Finset.induction_on with
  | empty => simp
  | insert x s hx ih => rw [Finset.sum_insert hx, Finset.sum_insert hx, ih, EReal.coe_add]

end Reals

section Logit

/-- The word 0x40000000 read as a float is 2. -/
theorem ofBits_two : Ideal.ofBits .f32 0x40000000#32 = ((2 : ℝ) : EReal) := by
  simp [Ideal.ofBits, Ideal.ieee, -EReal.coe_mul]; norm_num

/-- The word 0x41500000 read as a float is 13. -/
theorem ofBits_thirteen : Ideal.ofBits .f32 0x41500000#32 = ((13 : ℝ) : EReal) := by
  simp [Ideal.ofBits, Ideal.ieee, -EReal.coe_mul]; norm_num

/-- The logit formula (2 s − x − y) / 13 on real numbers, computed in the extended reals, is the real logit. -/
theorem logit_coe (s x y : ℝ) :
    Ideal.div (((2 : ℝ) : EReal) * (s : EReal) - (x : EReal) - (y : EReal)) ((13 : ℝ) : EReal)
      = (((2 * s - x - y) / 13 : ℝ) : EReal) := by
  rw [Ideal.div_coe (by norm_num : (13 : ℝ) ≠ 0)]
  rw [← EReal.coe_mul, ← EReal.coe_sub, ← EReal.coe_sub, ← EReal.coe_mul]
  congr 1
  ring

/-- An exponential, or a logarithm, of a block reads elementwise. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

end Logit

section Matmul
variable {B M N K : ℕ} {φ₁ φ₂ : FTy}

private theorem mem00 : (0 : Fin 3) ∈ ([0] : List (Fin 3)) := by decide
private theorem nmem10 : ¬(1 : Fin 3) ∈ ([0] : List (Fin 3)) := by decide
private theorem nmem20 : ¬(2 : Fin 3) ∈ ([0] : List (Fin 3)) := by decide
private theorem mem11 : (1 : Fin 3) ∈ ([1] : List (Fin 3)) := by decide
private theorem mem22 : (2 : Fin 3) ∈ ([2] : List (Fin 3)) := by decide

/-- The dimension numbers of a stack of products A · Cᵀ: batch axis 0 on both sides, both operands contracted on their
    last axis. -/
abbrev dimsNT (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ := ⟨[2], [2], [1], [1], [0], [0], wf⟩

section NT
variable (wf : DotDims.WF ⟨3, ![B, M, K]⟩ ⟨3, ![B, N, K]⟩ ⟨3, ![B, M, N]⟩ [2] [2] [1] [1] [0] [0])
  (i : (⟨3, ![B, M, N]⟩ : Shape).Idx) (q : (dimsNT wf).contr.Idx)

private theorem nt_lhs0 : ((dimsNT wf).lhsIdx i q 0).val = (i 0).val := by
  unfold DotDims.lhsIdx
  rw [dif_pos (show (0 : Fin 3) ∈ (dimsNT wf).lhsBatch from mem00)]
  rfl
private theorem nt_lhs1 : ((dimsNT wf).lhsIdx i q 1).val = (i 1).val := by
  unfold DotDims.lhsIdx
  rw [dif_neg (show ¬(1 : Fin 3) ∈ (dimsNT wf).lhsBatch from nmem10),
    dif_pos (show (1 : Fin 3) ∈ (dimsNT wf).lhsNonContracting from mem11)]
  rfl
private theorem nt_lhs2 : ((dimsNT wf).lhsIdx i q 2).val = (q ⟨0, Nat.one_pos⟩).val :=
  (dimsNT wf).lhsIdx_val_of_single rfl i q
private theorem nt_rhs0 : ((dimsNT wf).rhsIdx i q 0).val = (i 0).val := by
  unfold DotDims.rhsIdx
  rw [dif_pos (show (0 : Fin 3) ∈ (dimsNT wf).rhsBatch from mem00)]
  rfl
private theorem nt_rhs1 : ((dimsNT wf).rhsIdx i q 1).val = (i 2).val := by
  unfold DotDims.rhsIdx
  rw [dif_neg (show ¬(1 : Fin 3) ∈ (dimsNT wf).rhsBatch from nmem10),
    dif_pos (show (1 : Fin 3) ∈ (dimsNT wf).rhsNonContracting from mem11)]
  rfl
private theorem nt_rhs2 : ((dimsNT wf).rhsIdx i q 2).val = (q ⟨0, Nat.one_pos⟩).val :=
  (dimsNT wf).rhsIdx_val_of_single rfl i q
end NT

/-- A stack of products of an M×K matrix with the transpose of an N×K matrix, into the zero accumulator, at (b, r, j):
    the sum over d of A(b, r, d) · C(b, j, d). -/
theorem matmul_batch_nt_apply (wf : DotDims.WF ⟨3, ![B, M, K]⟩ ⟨3, ![B, N, K]⟩ ⟨3, ![B, M, N]⟩ [2] [2] [1] [1] [0] [0])
    (prec : Option ContractPrecision) (A : FVec Ideal ⟨3, ![B, M, K]⟩ φ₁) (C : FVec Ideal ⟨3, ![B, N, K]⟩ φ₂)
    (b : Fin B) (r : Fin M) (j : Fin N) :
    matmul (dimsNT wf) prec A C (constant ⟨3, ![B, M, N]⟩ .f32 0x00000000#32) (ix3 b r j)
      = ∑ d : Fin K, A (ix3 b r d) * C (ix3 b j d) := by
  refine (Ideal.matmul_constant_zero_apply (dimsNT wf) prec A C (ix3 b r j)).trans ?_
  rw [← Equiv.sum_comp (contrEquiv1 (dimsNT wf) K rfl rfl).symm]
  refine Finset.sum_congr rfl fun d _ => ?_
  have hk := contrEquiv1_symm_val (dimsNT wf) K rfl rfl d
  have el : (dimsNT wf).lhsIdx (ix3 b r j) ((contrEquiv1 (dimsNT wf) K rfl rfl).symm d) = ix3 b r d :=
    funext fun a => Fin.ext (by
      match a with
      | ⟨0, _⟩ => exact nt_lhs0 wf _ _
      | ⟨1, _⟩ => exact nt_lhs1 wf _ _
      | ⟨2, _⟩ => exact (nt_lhs2 wf _ _).trans hk)
  have er : (dimsNT wf).rhsIdx (ix3 b r j) ((contrEquiv1 (dimsNT wf) K rfl rfl).symm d) = ix3 b j d :=
    funext fun a => Fin.ext (by
      match a with
      | ⟨0, _⟩ => exact nt_rhs0 wf _ _
      | ⟨1, _⟩ => exact nt_rhs1 wf _ _
      | ⟨2, _⟩ => exact (nt_rhs2 wf _ _).trans hk)
  rw [el, er]

/-- The dimension numbers of a stack of products A · C: batch axis 0 on both sides, the left operand contracted on its
    last axis and the right on its middle one. -/
abbrev dimsNN (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ := ⟨[2], [1], [1], [2], [0], [0], wf⟩

section NN
variable (wf : DotDims.WF ⟨3, ![B, M, K]⟩ ⟨3, ![B, K, N]⟩ ⟨3, ![B, M, N]⟩ [2] [1] [1] [2] [0] [0])
  (i : (⟨3, ![B, M, N]⟩ : Shape).Idx) (q : (dimsNN wf).contr.Idx)

private theorem nn_lhs0 : ((dimsNN wf).lhsIdx i q 0).val = (i 0).val := by
  unfold DotDims.lhsIdx
  rw [dif_pos (show (0 : Fin 3) ∈ (dimsNN wf).lhsBatch from mem00)]
  rfl
private theorem nn_lhs1 : ((dimsNN wf).lhsIdx i q 1).val = (i 1).val := by
  unfold DotDims.lhsIdx
  rw [dif_neg (show ¬(1 : Fin 3) ∈ (dimsNN wf).lhsBatch from nmem10),
    dif_pos (show (1 : Fin 3) ∈ (dimsNN wf).lhsNonContracting from mem11)]
  rfl
private theorem nn_lhs2 : ((dimsNN wf).lhsIdx i q 2).val = (q ⟨0, Nat.one_pos⟩).val :=
  (dimsNN wf).lhsIdx_val_of_single rfl i q
private theorem nn_rhs0 : ((dimsNN wf).rhsIdx i q 0).val = (i 0).val := by
  unfold DotDims.rhsIdx
  rw [dif_pos (show (0 : Fin 3) ∈ (dimsNN wf).rhsBatch from mem00)]
  rfl
private theorem nn_rhs1 : ((dimsNN wf).rhsIdx i q 1).val = (q ⟨0, Nat.one_pos⟩).val :=
  (dimsNN wf).rhsIdx_val_of_single rfl i q
private theorem nn_rhs2 : ((dimsNN wf).rhsIdx i q 2).val = (i 2).val := by
  unfold DotDims.rhsIdx
  rw [dif_neg (show ¬(2 : Fin 3) ∈ (dimsNN wf).rhsBatch from nmem20),
    dif_pos (show (2 : Fin 3) ∈ (dimsNN wf).rhsNonContracting from mem22)]
  rfl
end NN

/-- A stack of products of an M×K matrix with a K×N matrix, into the zero accumulator, at (b, r, d): the sum over j of
    A(b, r, j) · C(b, j, d). -/
theorem matmul_batch_nn_apply (wf : DotDims.WF ⟨3, ![B, M, K]⟩ ⟨3, ![B, K, N]⟩ ⟨3, ![B, M, N]⟩ [2] [1] [1] [2] [0] [0])
    (prec : Option ContractPrecision) (A : FVec Ideal ⟨3, ![B, M, K]⟩ φ₁) (C : FVec Ideal ⟨3, ![B, K, N]⟩ φ₂)
    (b : Fin B) (r : Fin M) (d : Fin N) :
    matmul (dimsNN wf) prec A C (constant ⟨3, ![B, M, N]⟩ .f32 0x00000000#32) (ix3 b r d)
      = ∑ j : Fin K, A (ix3 b r j) * C (ix3 b j d) := by
  refine (Ideal.matmul_constant_zero_apply (dimsNN wf) prec A C (ix3 b r d)).trans ?_
  rw [← Equiv.sum_comp (contrEquiv1 (dimsNN wf) K rfl rfl).symm]
  refine Finset.sum_congr rfl fun j _ => ?_
  have hk := contrEquiv1_symm_val (dimsNN wf) K rfl rfl j
  have el : (dimsNN wf).lhsIdx (ix3 b r d) ((contrEquiv1 (dimsNN wf) K rfl rfl).symm j) = ix3 b r j :=
    funext fun a => Fin.ext (by
      match a with
      | ⟨0, _⟩ => exact nn_lhs0 wf _ _
      | ⟨1, _⟩ => exact nn_lhs1 wf _ _
      | ⟨2, _⟩ => exact (nn_lhs2 wf _ _).trans hk)
  have er : (dimsNN wf).rhsIdx (ix3 b r d) ((contrEquiv1 (dimsNN wf) K rfl rfl).symm j) = ix3 b j d :=
    funext fun a => Fin.ext (by
      match a with
      | ⟨0, _⟩ => exact nn_rhs0 wf _ _
      | ⟨1, _⟩ => exact (nn_rhs1 wf _ _).trans hk
      | ⟨2, _⟩ => exact nn_rhs2 wf _ _)
  rw [el, er]

end Matmul

end Cert.LibBatchLayout

namespace Cert.Attn.Pay

/-- The logit of query row r and key row j of batch b inside blocks Q, K with the rows' squared norms QQ, KK:
    (2 · Σ_d Q(b, r, d) · K(b, j, d) − QQ(b, r) − KK(b, j)) / 13. -/
def scoreTile {B L M D : ℕ} (Q : Fin B → Fin L → Fin D → ℝ) (K : Fin B → Fin M → Fin D → ℝ) (QQ : Fin B → Fin L → ℝ)
    (KK : Fin B → Fin M → ℝ) (b : Fin B) (r : Fin L) (j : Fin M) : ℝ :=
  (2 * (∑ d, Q b r d * K b j d) - QQ b r - KK b j) / 13

end Cert.Attn.Pay

end
-- ==== Proof.LibKeepdims.lean ====
/-
  Layout operations of a two-axis block read at coordinates: the casts between a block [1, 1, a, b] and its matrix
  [a, b], and the column forms a row reduction kept as a column needs — a vector [a] cast to a column [a, 1], and a
  column [a, 1] broadcast along b lanes. Each is the general read-at-an-index lemma of the operation with both indices
  written by coordinates, the coordinates' arithmetic done once here.
-/
import Idealize.ShloMosaic.Lib.Pipeline.Value
import Idealize.ShloMosaic.Lib.ValueIdx

namespace Cert.LibKeepdims

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, v, i, j), the matrix at (i, j), whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along b lanes reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector [a] kept as a column and broadcast along b lanes reads, at (i, j), the vector at i. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibKeepdims
-- ==== Proof.KernelPoint.lean ====
/-
  The kernel's step read at an index: the accumulator of a batch grows by the sum of the specification's penalties of
  the batch's 512 points.

  Every operation of the body is elementwise, a layout change, a one-hot matrix product or a sum along the last axis, so
  read at one batch r, one point n (and one column w) each named value of the body is the corresponding scalar of the
  specification's kernel form: the clipped coordinate, the cell word and its clamps, the offset inside the cell, the
  one-hot weights, the grid row as a weighted sum of all rows, the column weights, and the lane sum. The margin
  0.3 − d is then ten-folded, clipped at zero, squared and summed over the 512 points of the batch.
-/
import proofs.«117773_j80032420594331_2_alg».proof.Proof.KernelStepDef
import proofs.«117773_j80032420594331_2_alg».proof.Proof.KernelForm
import proofs.«117773_j80032420594331_2_alg».proof.Proof.LibBatchLayout
import proofs.«117773_j80032420594331_2_alg».proof.Proof.LibKeepdims

set_option synthInstance.maxSize 4096

noncomputable section

namespace Cert.KernelIdeal.KValue

open Idealize.ShloMosaic Idealize.SL.Sem Cert.KernelIdeal Cert.KernelIdeal.Gen Idealize.ShloMosaic.ValueIdx
open Cert.LibBatchLayout Cert.LibKeepdims

/-! ## The values of one coordinate, at a batch and a point -/

/-- The clipped coordinate. -/
theorem pay6_apply (x1 : Vec Ideal S8x512 .f32) (i : S8x512.Idx) : k0_pay6 x1 i = Cert.Spec.pos (x1 i) := by
  unfold k0_pay6 k0_pay3
  simp only [shapeCast_self]
  rfl

theorem pay7_apply (x2 : Vec Ideal S8x512 .f32) (i : S8x512.Idx) : k0_pay7 x2 i = Cert.Spec.pos (x2 i) := by
  unfold k0_pay7 k0_pay4
  simp only [shapeCast_self]
  rfl

/-- The cell word of the first coordinate. -/
theorem pay8_apply (x1 : Vec Ideal S8x512 .f32) (i : S8x512.Idx) : k0_pay8 x1 i = Cert.Spec.cell (x1 i) := by
  have h : k0_pay6 x1 = fun i => Cert.Spec.pos (x1 i) := funext (pay6_apply x1)
  unfold k0_pay8
  rw [h]
  rfl

/-- The second coordinate, clipped and shifted, before the division by the cell size. -/
theorem pay9_apply (x2 : Vec Ideal S8x512 .f32) (i : S8x512.Idx) :
    k0_pay9 x2 i = Cert.Spec.pos (x2 i) - Cert.Spec.halfRes + Cert.Spec.ten := by
  have h : k0_pay7 x2 = fun i => Cert.Spec.pos (x2 i) := funext (pay7_apply x2)
  unfold k0_pay9
  rw [h]
  rfl

/-- The clamped cell word of the first coordinate. -/
theorem pay10_apply (x1 : Vec Ideal S8x512 .f32) (i : S8x512.Idx) :
    k0_pay10 (k0_pay8 x1) i = Cert.Spec.clampCell (Cert.Spec.cell (x1 i)) := by
  have h : k0_pay8 x1 = fun i => Cert.Spec.cell (x1 i) := funext (pay8_apply x1)
  rw [h]
  rfl

/-- The clamped cell word of the second coordinate. -/
theorem pay11_apply (x2 : Vec Ideal S8x512 .f32) (i : S8x512.Idx) :
    k0_pay11 (k0_pay9 x2) i = Cert.Spec.clampCell (Cert.Spec.cell (x2 i)) := by
  have h : k0_pay9 x2 = fun i => Cert.Spec.pos (x2 i) - Cert.Spec.halfRes + Cert.Spec.ten := funext (pay9_apply x2)
  rw [h]
  rfl

/-- The next cell of the first coordinate. -/
theorem pay12_apply (x1 : Vec Ideal S8x512 .f32) (i : S8x512.Idx) :
    k0_pay12 (k0_pay8 x1) i = Cert.Spec.nextCell (Cert.Spec.cell (x1 i)) := by
  have h : k0_pay10 (k0_pay8 x1) = fun i => Cert.Spec.clampCell (Cert.Spec.cell (x1 i)) := funext (pay10_apply x1)
  unfold k0_pay12
  rw [h]
  rfl

/-- The next cell of the second coordinate. -/
theorem pay13_apply (x2 : Vec Ideal S8x512 .f32) (i : S8x512.Idx) :
    k0_pay13 (k0_pay9 x2) i = Cert.Spec.nextCell (Cert.Spec.cell (x2 i)) := by
  have h : k0_pay11 (k0_pay9 x2) = fun i => Cert.Spec.clampCell (Cert.Spec.cell (x2 i)) := funext (pay11_apply x2)
  unfold k0_pay13
  rw [h]
  rfl

/-- The offset of the first coordinate inside its cell. -/
theorem pay14_apply (x1 : Vec Ideal S8x512 .f32) (i : S8x512.Idx) :
    k0_pay14 (k0_pay6 x1) (k0_pay8 x1) i = Cert.Spec.kfrac (x1 i) := by
  have h : k0_pay10 (k0_pay8 x1) = fun i => Cert.Spec.clampCell (Cert.Spec.cell (x1 i)) := funext (pay10_apply x1)
  have h6 : k0_pay6 x1 = fun i => Cert.Spec.pos (x1 i) := funext (pay6_apply x1)
  unfold k0_pay14
  rw [h, h6]
  rfl

/-- The offset of the second coordinate inside its cell. -/
theorem pay15_apply (x2 : Vec Ideal S8x512 .f32) (i : S8x512.Idx) :
    k0_pay15 (k0_pay7 x2) (k0_pay9 x2) i = Cert.Spec.kfrac (x2 i) := by
  have h : k0_pay11 (k0_pay9 x2) = fun i => Cert.Spec.clampCell (Cert.Spec.cell (x2 i)) := funext (pay11_apply x2)
  have h7 : k0_pay7 x2 = fun i => Cert.Spec.pos (x2 i) := funext (pay7_apply x2)
  unfold k0_pay15
  rw [h, h7]
  rfl

/-- Whether the point is outside the range. -/
theorem pay5_apply (x1 x2 : Vec Ideal S8x512 .f32) (i : S8x512.Idx) :
    k0_pay5 x1 x2 i = Cert.Spec.outside (x1 i) (x2 i) := by
  unfold k0_pay5 k0_pay3 k0_pay4
  simp only [shapeCast_self]
  rfl

/-- The clamped cell word of the first coordinate, spread along the 200 lanes. -/
theorem pay16_apply (x1 : Vec Ideal S8x512 .f32) (r : Fin 8) (n : Fin 512) (w : Fin 200) :
    k0_pay16 (k0_pay8 x1) (ix3 r n w) = Cert.Spec.clampCell (Cert.Spec.cell (x1 (ix2 r n))) := by
  unfold k0_pay16
  exact (keepLast_apply _ _ _ r n w).trans (pay10_apply x1 (ix2 r n))

/-- The lane counter at lane w is the word of w. -/
theorem iota_apply (r : Fin 8) (n : Fin 512) (w : Fin 200) :
    iota .tc S8x512x200 32 [2] iota_S8x512x200_d2_w32 (ix3 r n w) = Cert.Spec.lane w := by
  rw [iota_single_apply]
  rfl

/-! ## The margin of one point -/

/-- The dimension numbers of the body's two matrix products are those of a stack of products A · C. -/
theorem dot_eq : dot_S8x512x200_S8x200x200_S8x512x200_2_1_1_2_0_0
    = dimsNN (B := 8) (M := 512) (N := 200) (K := 200) dot_S8x512x200_S8x200x200_S8x512x200_2_1_1_2_0_0_wf := rfl

/-- An equality test of two blocks of words reads elementwise. -/
theorem cmpi_apply {s : Shape} {w : Nat} (p : CmpIPredicate) (a b : IVec s w) (i : s.Idx) :
    cmpi p a b i = IntOp.cmpi p (a i) (b i) := rfl

/-- The lane counter holds, at every index, the word of the index's lane. -/
theorem iota_eq : iota .tc S8x512x200 32 [2] iota_S8x512x200_d2_w32 = fun i => Cert.Spec.lane (i 2) := by
  funext i
  rw [iota_single_apply]
  rfl

/-- The margin 0.3 − d of point n of batch r is that of the specification's kernel form. -/
theorem margin_apply (x0 : Vec Ideal S8x200x200 .bf16) (x1 x2 : Vec Ideal S8x512 .f32) (r : Fin 8) (n : Fin 512) :
    margin x0 x1 x2 (ix2 r n)
      = Cert.Spec.c03 - Scalar.select (Cert.Spec.outside (x1 (ix2 r n)) (x2 (ix2 r n))) Cert.Spec.negOne
          (Cert.Spec.kvalue (x1 (ix2 r n)) (x2 (ix2 r n)) (fun i j => x0 (ix3 r i j))) := by
  unfold margin k0_pay17
  rw [iota_eq]
  simp only [dot_eq, subf_apply, select_apply, broadcast_apply, pay5_apply]
  refine congrArg (fun t => Cert.Spec.c03 - Scalar.select (Cert.Spec.outside (x1 (ix2 r n)) (x2 (ix2 r n)))
    Cert.Spec.negOne t) ?_
  refine (lastSum_apply _ _ _ _ r n).trans ?_
  unfold Cert.Spec.kvalue
  refine Finset.sum_congr rfl fun w _ => ?_
  simp only [subf_apply, select_apply, broadcast_apply, mulf_apply, addf_apply,
    broadcastTo_ab1_abc_apply, shapeCast_ab_ab1_apply, shapeCast_self, matmul_batch_nn_apply,
    truncf_apply, sitofp_apply, extui_apply, cmpi_apply,
    pay11_apply, pay12_apply, pay13_apply, pay14_apply, pay15_apply, pay16_apply]
  unfold Cert.Spec.krow Cert.Spec.kweight Cert.Spec.onehot
  rfl

/-! ## The step -/

/-- Batch r of an 8 × 512 block with the point n inserted is the index (r, n). -/
theorem lift_point (h : S8x512.Reduces [1] S8) (r : Fin 8) (n : Fin 512) : h.lift (ix1 r) n = ix2 r n := by
  funext ax; apply Fin.ext
  match ax with
  | ⟨0, _⟩ => rfl
  | ⟨1, _⟩ => rfl

/-- The sum from zero of an 8 × 512 block along its points, at batch r, is the sum over n of the block at (r, n). -/
theorem pointSum_apply (P : FVec Ideal S8x512 .f32) (h : S8x512.Reduces [1] S8) (hφ : FKind.Formats .f32)
    (hacc : (0x00000000#32 : BitVec 32) = FKind.add.neutral .f32 hφ) (r : Fin 8) :
    multiReduction .add [1] S8 P 0x00000000#32 h hφ hacc (ix1 r) = ∑ n : Fin 512, P (ix2 r n) := by
  refine (Ideal.multiReduction_add_single P _ h hφ hacc (ix1 r)).trans ?_
  exact Finset.sum_congr rfl fun n _ => congrArg P (lift_point h r n)

/-- The accumulator of batch r after a step: what it was, plus the penalties of the batch's 512 points. -/
theorem step_apply (x0 : Vec Ideal S8x200x200 .bf16) (x1 x2 : Vec Ideal S8x512 .f32) (acc : Vec Ideal S8x1 .f32) (r : Fin 8) :
    step x0 x1 x2 acc (ix2 r (0 : Fin 1))
      = acc (ix2 r (0 : Fin 1)) + ∑ n : Fin 512, Cert.Spec.point (x1 (ix2 r n)) (x2 (ix2 r n)) (fun i j => x0 (ix3 r i j)) := by
  unfold step k0_pay1 k0_pay18
  simp only [shapeCast_self, addf_apply]
  refine congrArg (fun t => acc (ix2 r (0 : Fin 1)) + t) ?_
  refine (shapeCast_a_a1_apply _ _ r 0).trans ?_
  refine (pointSum_apply _ _ _ _ r).trans ?_
  refine Finset.sum_congr rfl fun n _ => ?_
  simp only [mulf_apply, maximumf_apply, broadcast_apply, margin_apply]
  exact Cert.Spec.kpoint_eq _ _ _

end Cert.KernelIdeal.KValue

end
-- ==== Proof.KernelSum.lean ====
/-
  The accumulator as a sum of chunk sums, on the extended reals.

  One grid point adds to the accumulator, for each of its 8 batch rows, the sum of the penalties of its 512 points (the
  chunk sum). So after the point at position l of its group the accumulator holds the chunk sums of positions 0 … l
  of that group — by induction on the point, the zero block being 0 —, and after the last point of a group the output
  block holds the 16 chunk sums of the group.
-/
import proofs.«117773_j80032420594331_2_alg».proof.Proof.KernelAccum
import proofs.«117773_j80032420594331_2_alg».proof.Proof.KernelPoint

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ)

/-- The chunk sum of grid point t for batch row r of its block: the penalties of its 512 points, summed. -/
def chunk (c : Dev nD) (t : Fin cfg0.N) (r : Fin 8) : EReal :=
  ∑ n : Fin 512, Cert.Spec.point ((iblk m c 1 t : Vec Ideal S8x512 .f32) (ValueIdx.ix2 r n))
    ((iblk m c 2 t : Vec Ideal S8x512 .f32) (ValueIdx.ix2 r n))
    (fun i j => (iblk m c 0 t : Vec Ideal S8x200x200 .bf16) (ValueIdx.ix3 r i j))

/-- The same at a position given as a natural number (0 outside the grid, which never occurs). -/
def chunkN (c : Dev nD) (k : ℕ) (r : Fin 8) : EReal := if h : k < cfg0.N then chunk m c ⟨k, h⟩ r else 0

/-- One step at a grid point adds the point's chunk sum. -/
theorem step_blk (c : Dev nD) (t : Fin cfg0.N) (acc : Vec Ideal S8x1 .f32) (r : Fin 8) :
    step (F := Ideal) (iblk m c 0 t) (iblk m c 1 t) (iblk m c 2 t) acc (ValueIdx.ix2 r (0 : Fin 1))
      = acc (ValueIdx.ix2 r (0 : Fin 1)) + chunk m c t r :=
  step_apply (iblk m c 0 t) (iblk m c 1 t) (iblk m c 2 t) acc r

/-- The zero block is 0 everywhere. -/
theorem pay2_apply (j : S8x1.Idx) : (k0_pay2 (F := Ideal)) j = 0 := by
  unfold k0_pay2
  rw [shapeCast_self]
  exact Ideal.ofBits_zero_f32

/-- After the point at position n the accumulator holds the chunk sums of its group up to that point. -/
theorem scratch_eq (c : Dev nD) : ∀ (n : ℕ) (hn : n < cfg0.N) (r : Fin 8),
    (outsAt0 m c n hn).2 (ValueIdx.ix2 r (0 : Fin 1)) = ∑ l ∈ Finset.range (n % 16 + 1), chunkN m c (16 * (n / 16) + l) r
  | 0, hn, r => by
    rw [scr_first m c ⟨0, hn⟩ rfl, step_blk, pay2_apply, zero_add]
    simp only [Nat.zero_mod, Nat.zero_div, Nat.mul_zero, Nat.zero_add, Finset.sum_range_one]
    unfold chunkN; rw [dif_pos hn]
  | n + 1, hn, r => by
    have hN : cfg0.N = 1024 := N_0
    by_cases h0 : (n + 1) % 16 = 0
    · rw [scr_first m c ⟨n + 1, hn⟩ h0, step_blk, pay2_apply, zero_add, h0, Nat.zero_add, Finset.sum_range_one]
      have e : 16 * ((n + 1) / 16) + 0 = n + 1 := by omega
      rw [e]; unfold chunkN; rw [dif_pos hn]
    · have e1 : (n + 1) / 16 = n / 16 := by omega
      have e2 : (n + 1) % 16 = n % 16 + 1 := by omega
      rw [scr_next m c ⟨n + 1, hn⟩ h0, step_blk]
      show (outsAt0 m c n _).2 (ValueIdx.ix2 r (0 : Fin 1)) + _ = _
      rw [scratch_eq c n (Nat.lt_of_succ_lt hn) r, e1, e2, Finset.sum_range_succ _ (n % 16 + 1)]
      congr 1
      have e : 16 * (n / 16) + (n % 16 + 1) = n + 1 := by omega
      rw [e]; unfold chunkN; rw [dif_pos hn]

/-- After the last point of a group the output block holds the group's 16 chunk sums. -/
theorem out_eq (c : Dev nD) (t : Fin cfg0.N) (h1 : t.val % 16 = 15) (r : Fin 8) :
    (outsAt0 m c t.val t.isLt).1 (ValueIdx.ix2 r (0 : Fin 1)) = ∑ l ∈ Finset.range 16, chunkN m c (16 * (t.val / 16) + l) r := by
  rw [out_last m c t h1, scratch_eq m c t.val t.isLt r, h1]

end Cert.KernelIdeal.KValue

end
-- ==== Proof.LibPointLayout.lean ====
/-
  The host's two re-arrangements of the arguments, read at coordinates.

  * The positions array [B, N, 2] holds, for point n of batch b, its x coordinate at (b, n, 0) and its y coordinate at
    (b, n, 1). Plane k of it is the block [B, N, 1] cut at offset (0, 0, k), then cast to the matrix [B, N]. The cast
    keeps the row-major position: (b, n) of the matrix is at b·N + n, and (b, n, 0) of the block is at
    (b·N + n)·1 + 0, the same number; and the block at (b, n, 0) is the array at (0 + b, 0 + n, k + 0) = (b, n, k).
  * A stack of grids [B, 1, H, W] with its unit axis dropped is the cast to [B, H, W]: (b, i, j) is at row-major
    position (b·H + i)·W + j, and (b, 0, i, j) is at ((b·1 + 0)·H + i)·W + j, the same number.
-/
import Idealize.ShloMosaic.Lib.Pipeline.Value
import Idealize.ShloMosaic.Lib.ValueIdx
import Idealize.ShloMosaic.Lib.ValueLayout

namespace Cert.LibPointLayout

open Idealize.ShloMosaic Idealize.ShloMosaic.ValueIdx

variable {α : Type}

/-- A block [B, N, 1] cast to the matrix [B, N] reads, at (b, n), the block at (b, n, 0). -/
theorem shapeCast_ab1_ab_apply {B N : ℕ} (y : (⟨3, ![B, N, 1]⟩ : Shape).Idx → α)
    (hc : (⟨3, ![B, N, 1]⟩ : Shape).ShapeCasts ⟨2, ![B, N]⟩) (b : Fin B) (n : Fin N) :
    shapeCast ⟨2, ![B, N]⟩ y hc (ix2 b n) = y (ix3 b n (0 : Fin 1)) :=
  shapeCast_apply y hc _ _ (by
    rw [Shape.rowMajor_val_three, Shape.rowMajor_val_two]
    show (b.val * N + n.val) * 1 + 0 = b.val * N + n.val
    rw [Nat.mul_one, Nat.add_zero])

/-- The array [B, N, 2] cut to the block [B, N, 1] at offset (0, 0, k) reads, at (b, n, u), the array at (b, n, k). -/
theorem slice_last_apply {B N : ℕ} (k : Fin 2) (x : (⟨3, ![B, N, 2]⟩ : Shape).Idx → α)
    (hs : (⟨3, ![B, N, 2]⟩ : Shape).Slices ![0, 0, k.val] ⟨3, ![B, N, 1]⟩) (b : Fin B) (n : Fin N) (u : Fin 1) :
    extractStridedSlice ⟨3, ![B, N, 1]⟩ ![0, 0, k.val] x hs (ix3 b n u) = x (ix3 b n k) :=
  extractStridedSlice_apply _ x hs _ _ (fun ax => by
    have hu : u.val = 0 := by omega
    match ax with
    | ⟨0, _⟩ => exact (Nat.zero_add _).symm
    | ⟨1, _⟩ => exact (Nat.zero_add _).symm
    | ⟨2, _⟩ =>
      show k.val = k.val + u.val
      rw [hu, Nat.add_zero])

/-- Plane k of the positions array: the cut at offset (0, 0, k) cast to a matrix reads, at (b, n), the array at
    (b, n, k). -/
theorem plane_apply {B N : ℕ} (k : Fin 2) (x : (⟨3, ![B, N, 2]⟩ : Shape).Idx → α) (off : Fin 3 → ℕ)
    (hoff : off = ![0, 0, k.val]) (hs : (⟨3, ![B, N, 2]⟩ : Shape).Slices off ⟨3, ![B, N, 1]⟩)
    (hc : (⟨3, ![B, N, 1]⟩ : Shape).ShapeCasts ⟨2, ![B, N]⟩) (b : Fin B) (n : Fin N) :
    shapeCast ⟨2, ![B, N]⟩ (extractStridedSlice ⟨3, ![B, N, 1]⟩ off x hs) hc (ix2 b n) = x (ix3 b n k) := by
  subst hoff
  exact (shapeCast_ab1_ab_apply _ hc b n).trans (slice_last_apply k x hs b n 0)

/-- A stack [B, 1, H, W] cast to [B, H, W] reads, at (b, i, j), the stack at (b, 0, i, j). -/
theorem dropUnit_apply {B H W : ℕ} (x : (⟨4, ![B, 1, H, W]⟩ : Shape).Idx → α)
    (hc : (⟨4, ![B, 1, H, W]⟩ : Shape).ShapeCasts ⟨3, ![B, H, W]⟩) (b : Fin B) (i : Fin H) (j : Fin W) :
    shapeCast ⟨3, ![B, H, W]⟩ x hc (ix3 b i j) = x (ix4 b (0 : Fin 1) i j) :=
  shapeCast_apply x hc _ _ (by
    rw [Shape.rowMajor_val_four, Shape.rowMajor_val_three]
    show ((b.val * 1 + 0) * H + i.val) * W + j.val = (b.val * H + i.val) * W + j.val
    rw [Nat.mul_one, Nat.add_zero])

end Cert.LibPointLayout
-- ==== Proof.KernelBlocks.lean ====
/-
  The kernel's input blocks, read as entries of the two argument arrays.

  The grid has 64 × 16 = 1024 points; point t has group g = t / 16 and chunk l = t % 16. The kernel stages
    * the stack of grids [512, 200, 200] in blocks [8, 200, 200] at block index (g, 0, 0): entry (r, i, j) of the block
      is entry (8 g + r, i, j) of the stack;
    * the x plane and the y plane [512, 8192] of the positions in blocks [8, 512] at block index (g, l): entry (r, n)
      of the block is entry (8 g + r, 512 l + n) of the plane.
  A block's coordinate on an axis is always (block index) · (block size) + 1 · (coordinate inside the block); the block
  indices are the printed index maps, evaluated once over the 1024 points.

  The three staged arrays are what the host lines in front of the kernel make of the two arguments: plane k of the
  positions [512, 8192, 2] is the cut at offset (0, 0, k) cast to a matrix, so its entry (b, p) is the positions'
  entry (b, p, k); the stack of grids is the argument [512, 1, 200, 200] with its unit axis dropped and its format
  changed, and a change of format is the identity on the extended reals, so its entry (b, i, j) is the argument's
  entry (b, 0, i, j).
-/
import proofs.«117773_j80032420594331_2_alg».proof.Proof.Gen.KernelIdeal.Frame
import proofs.«117773_j80032420594331_2_alg».proof.Proof.LibPointLayout
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ)

/-- The row 8 g + r of a block's entry is below 512, the group g = t / 16 being below 64. -/
theorem row_lt (t : Fin cfg0.N) (r : Fin 8) : 8 * (t.val / 16) + r.val < 512 := by
  have h1 := t.isLt
  have h2 : cfg0.N = 1024 := N_0
  omega

/-- The column 512 l + n of a block's entry is below 8192, the chunk l = t % 16 being below 16. -/
theorem col_lt (t : Fin cfg0.N) (n : Fin 512) : 512 * (t.val % 16) + n.val < 8192 := by omega

/-- The grids' block index at point t is (t / 16, 0, 0). -/
theorem idx0 : ∀ t : Fin cfg0.N, win0_0.index t (0 : Fin 3) = t.val / 16 ∧ win0_0.index t (1 : Fin 3) = 0
    ∧ win0_0.index t (2 : Fin 3) = 0 :=
  (by decide +kernel : ∀ t : Fin grid0.N, _)

/-- The x plane's block index at point t is (t / 16, t % 16). -/
theorem idx1 : ∀ t : Fin cfg0.N, win0_1.index t (0 : Fin 2) = t.val / 16 ∧ win0_1.index t (1 : Fin 2) = t.val % 16 :=
  (by decide +kernel : ∀ t : Fin grid0.N, _)

/-- The y plane's block index at point t is (t / 16, t % 16). -/
theorem idx2 : ∀ t : Fin cfg0.N, win0_2.index t (0 : Fin 2) = t.val / 16 ∧ win0_2.index t (1 : Fin 2) = t.val % 16 :=
  (by decide +kernel : ∀ t : Fin grid0.N, _)

/-- The x plane as the kernel finds it: the positions cut at offset (0, 0, 0) and cast to a matrix. -/
theorem V_x (c : Dev nD) : (V m c main_v1 : S512x8192.Idx → EReal)
    = shapeCast S512x8192 (extractStridedSlice S512x8192x1 ![0, 0, 0] (m (c.tc.loc main_arg0))
        Facts₀.slices_S512x8192x2_S512x8192x1_0_0_0) Facts₀.shapeCasts_S512x8192x1_S512x8192 := by
  show StableHlo.after hostOps0 (fun b => m (c, b)) (Proc.devRef .tc main_v1) = _
  after_results
  rfl

/-- The y plane as the kernel finds it: the positions cut at offset (0, 0, 1) and cast to a matrix. -/
theorem V_y (c : Dev nD) : (V m c main_v3 : S512x8192.Idx → EReal)
    = shapeCast S512x8192 (extractStridedSlice S512x8192x1 ![0, 0, 1] (m (c.tc.loc main_arg0))
        Facts₀.slices_S512x8192x2_S512x8192x1_0_0_1) Facts₀.shapeCasts_S512x8192x1_S512x8192 := by
  show StableHlo.after hostOps0 (fun b => m (c, b)) (Proc.devRef .tc main_v3) = _
  after_results
  rfl

/-- The stack of grids as the kernel finds it: the argument with its unit axis dropped, then its format changed. -/
theorem V_E (c : Dev nD) : @Eq (S512x200x200.Idx → EReal) (V m c main_v5)
    (truncf (F := Ideal) .bf16 (shapeCast S512x200x200 (m (c.tc.loc main_arg1)) Facts₀.shapeCasts_S512x1x200x200_S512x200x200)
        Facts₀.bitsLt_bf16_f32) := by
  show StableHlo.after hostOps0 (fun b => m (c, b)) (Proc.devRef .tc main_v5) = _
  after_results
  rfl

/-- Block coordinates of window 1 inside the x plane. -/
theorem emb1 (t : Fin cfg0.N) (r : Fin 8) (n : Fin 512) :
    ((cfg0.win 1).blk t).view.emb (ValueIdx.ix2 r n)
      = (ValueIdx.ix2 (⟨8 * (t.val / 16) + r.val, row_lt t r⟩ : Fin 512) (⟨512 * (t.val % 16) + n.val, col_lt t n⟩ : Fin 8192) : S512x8192.Idx) := by
  obtain ⟨e0, e1⟩ := idx1 t
  funext a
  apply Fin.ext
  match a with
  | ⟨0, _⟩ => show win0_1.index t (0 : Fin 2) * 8 + 1 * r.val = 8 * (t.val / 16) + r.val; rw [e0]; omega
  | ⟨1, _⟩ => show win0_1.index t (1 : Fin 2) * 512 + 1 * n.val = 512 * (t.val % 16) + n.val; rw [e1]; omega

/-- Entry (r, n) of the x block at point t is the x coordinate of point 512 (t % 16) + n of batch 8 (t / 16) + r. -/
theorem blk_x (c : Dev nD) (t : Fin cfg0.N) (r : Fin 8) (n : Fin 512) :
    (iblk m c 1 t : Vec Ideal S8x512 .f32) (ValueIdx.ix2 r n)
      = m ((c.tc : Thread nD τ).loc main_arg0)
          (ValueIdx.ix3 (⟨8 * (t.val / 16) + r.val, row_lt t r⟩ : Fin 512) (⟨512 * (t.val % 16) + n.val, col_lt t n⟩ : Fin 8192) (0 : Fin 2)) := by
  unfold iblk
  rw [View.read_apply]
  show V m c main_v1 (((cfg0.win 1).blk t).view.emb (ValueIdx.ix2 r n)) = _
  rw [emb1, V_x]
  exact LibPointLayout.plane_apply (0 : Fin 2) (m (c.tc.loc main_arg0)) ![0, 0, 0] rfl _ _ _ _

/-- Block coordinates of window 2 inside the y plane. -/
theorem emb2 (t : Fin cfg0.N) (r : Fin 8) (n : Fin 512) :
    ((cfg0.win 2).blk t).view.emb (ValueIdx.ix2 r n)
      = (ValueIdx.ix2 (⟨8 * (t.val / 16) + r.val, row_lt t r⟩ : Fin 512) (⟨512 * (t.val % 16) + n.val, col_lt t n⟩ : Fin 8192) : S512x8192.Idx) := by
  obtain ⟨e0, e1⟩ := idx2 t
  funext a
  apply Fin.ext
  match a with
  | ⟨0, _⟩ => show win0_2.index t (0 : Fin 2) * 8 + 1 * r.val = 8 * (t.val / 16) + r.val; rw [e0]; omega
  | ⟨1, _⟩ => show win0_2.index t (1 : Fin 2) * 512 + 1 * n.val = 512 * (t.val % 16) + n.val; rw [e1]; omega

/-- Entry (r, n) of the y block at point t is the y coordinate of point 512 (t % 16) + n of batch 8 (t / 16) + r. -/
theorem blk_y (c : Dev nD) (t : Fin cfg0.N) (r : Fin 8) (n : Fin 512) :
    (iblk m c 2 t : Vec Ideal S8x512 .f32) (ValueIdx.ix2 r n)
      = m ((c.tc : Thread nD τ).loc main_arg0)
          (ValueIdx.ix3 (⟨8 * (t.val / 16) + r.val, row_lt t r⟩ : Fin 512) (⟨512 * (t.val % 16) + n.val, col_lt t n⟩ : Fin 8192) (1 : Fin 2)) := by
  unfold iblk
  rw [View.read_apply]
  show V m c main_v3 (((cfg0.win 2).blk t).view.emb (ValueIdx.ix2 r n)) = _
  rw [emb2, V_y]
  exact LibPointLayout.plane_apply (1 : Fin 2) (m (c.tc.loc main_arg0)) ![0, 0, 1] rfl _ _ _ _

/-- Block coordinates of window 0 inside the stack of grids. -/
theorem emb0 (t : Fin cfg0.N) (r : Fin 8) (i j : Fin 200) :
    ((cfg0.win 0).blk t).view.emb (ValueIdx.ix3 r i j)
      = (ValueIdx.ix3 (⟨8 * (t.val / 16) + r.val, row_lt t r⟩ : Fin 512) i j : S512x200x200.Idx) := by
  obtain ⟨e0, e1, e2⟩ := idx0 t
  funext a
  apply Fin.ext
  match a with
  | ⟨0, _⟩ => show win0_0.index t (0 : Fin 3) * 8 + 1 * r.val = 8 * (t.val / 16) + r.val; rw [e0]; omega
  | ⟨1, _⟩ => show win0_0.index t (1 : Fin 3) * 200 + 1 * i.val = i.val; rw [e1]; omega
  | ⟨2, _⟩ => show win0_0.index t (2 : Fin 3) * 200 + 1 * j.val = j.val; rw [e2]; omega

/-- Entry (r, i, j) of the grid block at point t is entry (i, j) of the grid of batch 8 (t / 16) + r. -/
theorem blk_E (c : Dev nD) (t : Fin cfg0.N) (r : Fin 8) (i j : Fin 200) :
    (iblk m c 0 t : Vec Ideal S8x200x200 .bf16) (ValueIdx.ix3 r i j)
      = m ((c.tc : Thread nD τ).loc main_arg1)
          (ValueIdx.ix4 (⟨8 * (t.val / 16) + r.val, row_lt t r⟩ : Fin 512) (0 : Fin 1) i j) := by
  unfold iblk
  rw [View.read_apply]
  show V m c main_v5 (((cfg0.win 0).blk t).view.emb (ValueIdx.ix3 r i j)) = _
  rw [emb0, V_E]
  refine (ValueIdx.truncf_apply (φ := .f32) (ψ := .bf16) _ _ _).trans ?_
  exact LibPointLayout.dropUnit_apply (m (c.tc.loc main_arg1)) _ _ _ _

end Cert.KernelIdeal.KValue

end
-- ==== Proof.LibChunks.lean ====
/-
  A sum over 8192 = 16 · 512 indices, taken in 16 consecutive chunks of 512.

  The pair (l, n) of a chunk l < 16 and a place n < 512 inside it names the index 512·l + n, and every index
  below 8192 is named exactly once: the map is the standard bijection Fin 16 × Fin 512 ≃ Fin (16 · 512).
  Re-indexing the sum along it, and splitting the sum over pairs into an iterated sum, gives the statement.
-/
import Mathlib.Algebra.BigOperators.Fin
import Mathlib.Logic.Equiv.Fin.Basic

open scoped BigOperators

namespace Cert.Lib

/-- The 8192 terms of a sum, added in 16 chunks of 512 consecutive terms, in any commutative monoid. -/
theorem sum_chunks {M : Type*} [AddCommMonoid M] (f : Fin 8192 → M) :
    ∑ l : Fin 16, ∑ n : Fin 512, f ⟨512 * l.val + n.val, by omega⟩ = ∑ n : Fin 8192, f n := by
  rw [← Fintype.sum_prod_type']
  refine Fintype.sum_equiv (finProdFinEquiv (m := 16) (n := 512)) _ _ (fun x => ?_)
  congr 1
  ext
  simp only [finProdFinEquiv_apply_val]
  omega

end Cert.Lib
-- ==== Proof.KernelValue.lean ====
/-
  The kernel's result, as the specification's function of its two arguments.

  A group's 16 chunk sums are, for batch row r of group g, the penalties of ALL 8192 points of batch 8g + r: chunk l
  holds points 512·l … 512·l + 511, and the blocks the kernel loads are entries of the two argument arrays. So the last
  point of group g writes back, for rows 8g … 8g + 7 of the [512,1] output array, the batch sums; every row is in exactly
  such a block, so the output array ends holding the batch sums. The host lines after the kernel add the 512 batch sums
  to the zero word and divide by the count word: the specification's G.
-/
import proofs.«117773_j80032420594331_2_alg».proof.Proof.KernelSum
import proofs.«117773_j80032420594331_2_alg».proof.Proof.KernelBlocks
import proofs.«117773_j80032420594331_2_alg».proof.Proof.LibChunks
import Idealize.ShloMosaic.Lib.Pipeline.Value
import Idealize.ShloMosaic.Lib.StableHlo.Run
import Idealize.ShloMosaic.Lib.Tactic

set_option maxRecDepth 16384

noncomputable section

namespace Cert.KernelIdeal.KValue

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The positions array and the grids, as launched. -/
abbrev argOp (c : Dev nD) : Cert.Spec.SOp.Idx → EReal := m ((c.tc : Thread nD τ).loc main_arg0)
abbrev argEnv (c : Dev nD) : Cert.Spec.SEnv.Idx → EReal := m ((c.tc : Thread nD τ).loc main_arg1)

/-- A chunk sum is the sum of the specification's penalties of the chunk's 512 points. -/
theorem chunk_eq (c : Dev nD) (t : Fin cfg0.N) (r : Fin 8) :
    chunk m c t r = ∑ n : Fin 512, Cert.Spec.P (argOp m c) (argEnv m c)
      ⟨8 * (t.val / 16) + r.val, by have := t.isLt; have : cfg0.N = 1024 := N_0; omega⟩ ⟨512 * (t.val % 16) + n.val, by omega⟩ := by
  unfold chunk Cert.Spec.P
  refine Finset.sum_congr rfl fun n _ => ?_
  rw [blk_x m c t r n, blk_y m c t r n]
  congr 1
  funext i j
  exact blk_E m c t r i j

/-- The 16 chunk sums of group g, for batch row r, are the batch sum of batch 8g + r. -/
theorem group_sum (c : Dev nD) (g : ℕ) (hg : g < 64) (r : Fin 8) :
    ∑ l ∈ Finset.range 16, chunkN m c (16 * g + l) r = Cert.Spec.rowSum (argOp m c) (argEnv m c) ⟨8 * g + r.val, by omega⟩ := by
  have hN : cfg0.N = 1024 := N_0
  rw [Finset.sum_range]
  unfold Cert.Spec.rowSum
  rw [← Cert.Lib.sum_chunks]
  refine Finset.sum_congr rfl fun l _ => ?_
  have hl : 16 * g + l.val < cfg0.N := by have := l.isLt; omega
  unfold chunkN
  rw [dif_pos hl, chunk_eq]
  refine Finset.sum_congr rfl fun n _ => ?_
  have e1 : (16 * g + l.val) / 16 = g := by have := l.isLt; omega
  have e2 : (16 * g + l.val) % 16 = l.val := by have := l.isLt; omega
  congr 1 <;> (apply Fin.ext; simp only [e1, e2])

/-- The batch sums, as the [512,1] array the kernel's output window ends holding. -/
def batchSums (c : Dev nD) : S512x1.Idx → EReal := fun j => Cert.Spec.rowSum (argOp m c) (argEnv m c) (j 0)

/-- The output window's index map: block (t / 16, 0). -/
theorem idx3 : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- What the last point of a group writes back is its block of the batch sums. -/
theorem flushed_eq (c : Dev nD) (t : Fin cfg0.N) (hf : (cfg0.win 3).flush t = true) :
    (dats m 0 c).flushed 3 t = ((cfg0.win 3).blk t).view.read (Elt Ideal) (batchSums m c) := by
  have h1 : t.val % 16 = 15 := (flush0_3 t).mp hf
  have hN : cfg0.N = 1024 := N_0
  have ht := t.isLt
  show (cfg0.win 3).cut (grid0.coords t) ((dats m 0 c).after 3 t) = _
  rw [after0_3]
  funext y
  obtain ⟨r, u, rfl⟩ : ∃ (r : Fin 8) (u : Fin 1), y = ValueIdx.ix2 r u := ⟨y 0, y 1, ValueIdx.eq_ix2 y⟩
  obtain rfl : u = 0 := Subsingleton.elim _ _
  show (outsAt0 m c t.val t.isLt).1 (ValueIdx.ix2 r (0 : Fin 1))
    = Cert.Spec.rowSum (argOp m c) (argEnv m c) ((((cfg0.win 3).blk t).view.emb (ValueIdx.ix2 r (0 : Fin 1))) 0)
  rw [out_eq m c t h1 r, group_sum m c (t.val / 16) (by omega) r]
  congr 1
  apply Fin.ext
  show 8 * (t.val / 16) + r.val = win0_3.index t (0 : Fin 2) * 8 + 1 * r.val
  rw [(idx3 t).1]; omega

/-- An index of the output array is in point t's block iff each coordinate is in the block's range. -/
theorem mem_blk3 (t : Fin cfg0.N) (i : S512x1.Idx) :
    i ∈ ((cfg0.win 3).blk t).view.set ↔ ∀ a : Fin 2, win0_3.index t a * S8x1.size a ≤ (i a).val ∧ (i a).val < win0_3.index t a * S8x1.size a + S8x1.size a := by
  show i ∈ ((View.whole main_v6).slice (win0_3.rect t)).set ↔ _
  rw [View.set_slice_whole, Rect.mem_set_unit]
  exact Iff.rfl

/-- Every row of the output array is written back by the last point of its group. -/
theorem cover (i : S512x1.Idx) : ∃ t : Fin cfg0.N, (cfg0.win 3).flush t = true ∧ i ∈ ((cfg0.win 3).blk t).view.set := by
  have hN : cfg0.N = 1024 := N_0
  have hi0 : (i 0).val < 512 := (i 0).isLt
  have hi1 : (i 1).val < 1 := (i 1).isLt
  have ht : 16 * ((i 0).val / 8) + 15 < cfg0.N := by omega
  obtain ⟨e0, e1⟩ := idx3 ⟨16 * ((i 0).val / 8) + 15, ht⟩
  have e0' : win0_3.index ⟨16 * ((i 0).val / 8) + 15, ht⟩ (0 : Fin 2) = (i 0).val / 8 := by rw [e0]; show (16 * ((i 0).val / 8) + 15) / 16 = _; omega
  refine ⟨⟨16 * ((i 0).val / 8) + 15, ht⟩, (flush0_3 _).mpr (by show (16 * ((i 0).val / 8) + 15) % 16 = 15; omega), ?_⟩
  rw [mem_blk3]
  intro a
  match a with
  | ⟨0, _⟩ =>
    show win0_3.index ⟨16 * ((i 0).val / 8) + 15, ht⟩ (0 : Fin 2) * 8 ≤ (i 0).val ∧ (i 0).val < win0_3.index ⟨16 * ((i 0).val / 8) + 15, ht⟩ (0 : Fin 2) * 8 + 8
    rw [e0']; omega
  | ⟨1, _⟩ =>
    show win0_3.index ⟨16 * ((i 0).val / 8) + 15, ht⟩ (1 : Fin 2) * 1 ≤ (i 1).val ∧ (i 1).val < win0_3.index ⟨16 * ((i 0).val / 8) + 15, ht⟩ (1 : Fin 2) * 1 + 1
    rw [e1]; omega

/-- So the output array ends holding the batch sums. -/
theorem final (c : Dev nD) : (dats m 0 c).arrAt 3 cfg0.N = batchSums m c :=
  (dats m 0 c).arrAt_eq_of_cover 3 (batchSums m c) (flushed_eq m c) (cover)

/-- The sum of the [512,1] array of batch sums is the sum over the batches. -/
theorem sum_batchSums (c : Dev nD) :
    ∑ j : S512x1.Idx, batchSums m c j = ∑ b : Fin 512, Cert.Spec.rowSum (argOp m c) (argEnv m c) b := by
  rw [ValueIdx.sum_idx2]
  refine Finset.sum_congr rfl fun b _ => ?_
  rw [Fin.sum_univ_one]
  rfl

/-- The host lines after the kernel turn the batch sums into the specification's result. -/
theorem result_eq (c : Dev nD) :
    Pipeline.afterTail₀ cfgs (dats m) 0 (V0 m) [hostOps1] c main_v8 = Cert.Spec.G (argOp m c) (argEnv m c) := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.tc.devRef main_v6)
      = batchSums m c from (Pipeline.withArrays_arr spec0 launch0.win.arr_inj c _ _ 3).trans (final m c)]
  funext i
  have hsum : Host.reduceAdd (F := Ideal) (batchSums m c) (constant S_ .f32 0#32) reducesTo_S512x1_S_d0_1 h_S_ i
      = Ideal.ofBits .f32 0#32 + ∑ j : S512x1.Idx, batchSums m c j := by
    simp only [Host.reduceAdd, Ideal.hostReduceAdd_def]
    exact Ideal.hostReduceAdd_total reducesTo_S512x1_S_d0_1 (fun b => b.elim0) (batchSums m c) _ i
  show Ideal.div (Host.reduceAdd (F := Ideal) (batchSums m c) (constant S_ .f32 0#32) reducesTo_S512x1_S_d0_1 h_S_ i)
      (Ideal.ofBits .f32 1249902592#32) = _
  rw [hsum, sum_batchSums]
  rfl

/-- The kernel's run, read: the result at the specification's function of the launch arguments, the arguments unchanged. -/
theorem run : θ_run defs (onTc (τ := τ) (main (F := Ideal))) ⟨m, fun _ => 0, ρ⟩ fun r => ∀ c : Dev nD,
      r.2.mem ((c.tc : Thread nD τ).loc main_v8) = Cert.Spec.G (argOp m c) (argEnv m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.lean ====
/-
  The mean collision penalty of 512 × 8192 points against per-batch 200 × 200 distance grids: a kernel that gathers by
  one-hot matrix products and accumulates over a grid axis, against the plain four-corner bilinear lookup.

  Both programs clip each coordinate of a point into [lo, hi], take the grid cell ⌊(pos − res/2 + 10)/res⌋ and the
  offset inside the cell, interpolate the batch's grid bilinearly at the cell and its successor in each direction
  (distance −1 for a point that was outside the range), turn the distance d into max(10·(0.3 − d), 0)², and average
  over all 2²² points. The specification (Proof/Spec.lean) states this once, as G.

  • The reference computes G directly: its four corner values are four point gathers, whose indices jax wraps
    (negative → + size) and the gather clamps; since the cell of ANY coordinate is one of 0 … 198 (Proof/CellBound.lean)
    neither changes an index (Proof/RefGather … RefValue.lean, over the reference's run read back stage by stage).
  • The kernel reads grid row k as a 0/1-weighted sum over all 200 rows, blends the two rows first and takes one weighted
    column sum; with the cell at most 198 its clamps change nothing, the successor cell differs from the cell, each
    one-hot sum is the row it selects and the column sum has two nonzero terms — the same blend, products commuted
    (Proof/KernelForm.lean; only x·0 = 0, 1·x = x, x + 0 = x and commutativity: no finiteness is used). One grid point
    adds each batch row's 512 penalties to an accumulator carried over the 16 points of a group (Proof/KernelStep …
    KernelSum.lean: by induction on the point); the last point of a group writes the 8 batch sums back, the blocks being
    entries of the argument arrays (Proof/KernelBlocks.lean), and the host lines after the kernel add the 512 batch sums
    and divide (Proof/KernelValue.lean). Sums over the extended reals regroup freely.

  The frames of the two kernel programs are the generated ones; the reference's frame is its run with the result dropped.
  The idealization rewrote nothing, so there is nothing to preserve.
-/
import proofs.«117773_j80032420594331_2_alg».proof.Defs
import proofs.«117773_j80032420594331_2_alg».proof.Proof.Gen.Kernel
import proofs.«117773_j80032420594331_2_alg».proof.Proof.Gen.Kernel.Skeleton
import proofs.«117773_j80032420594331_2_alg».proof.Proof.Gen.Kernel.Launch
import proofs.«117773_j80032420594331_2_alg».proof.Proof.Gen.Kernel.Points
import proofs.«117773_j80032420594331_2_alg».proof.Proof.Gen.Kernel.Frame
import proofs.«117773_j80032420594331_2_alg».proof.Proof.Gen.KernelIdeal
import proofs.«117773_j80032420594331_2_alg».proof.Proof.Gen.KernelIdeal.Skeleton
import proofs.«117773_j80032420594331_2_alg».proof.Proof.Gen.KernelIdeal.Launch
import proofs.«117773_j80032420594331_2_alg».proof.Proof.Gen.KernelIdeal.Points
import proofs.«117773_j80032420594331_2_alg».proof.Proof.Gen.KernelIdeal.Frame
import proofs.«117773_j80032420594331_2_alg».proof.Proof.Gen.ReferenceIdeal
import proofs.«117773_j80032420594331_2_alg».proof.Proof.Gen.Pre_finite_inputs
import proofs.«117773_j80032420594331_2_alg».proof.Proof.Spec
import proofs.«117773_j80032420594331_2_alg».proof.Proof.RefRunP
import proofs.«117773_j80032420594331_2_alg».proof.Proof.RefBridge
import proofs.«117773_j80032420594331_2_alg».proof.Proof.RefValue
import proofs.«117773_j80032420594331_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization changed no operation. -/
theorem preserves : Cert.preserves_Kernel_KernelIdeal := trivial

/-- Both programs end with the specification's G of the launch arguments, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Bridge.res_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
